-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x128x128 .f32) (main_arg7 : FVec F S3x128x128 .f32) (main_arg8 : FVec F S3x128 .f32) (main_arg9 : FVec F S128x128 .f32) (main_arg10 : FVec F S128 .f32) (main_arg11 : FVec F S128x10 .f32) (main_arg12 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128x128 .f32) (main_arg5 : FVec F S128 .f32) (main_arg6 : FVec F S3x128x128 .f32) (main_arg7 : FVec F S3x128x128 .f32) (main_arg8 : FVec F S3x128 .f32) (main_arg9 : FVec F S128x128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩
abbrev S600000x128 : Shape := ⟨2, ![600000, 128]⟩
abbrev S1x128x128 : Shape := ⟨3, ![1, 128, 128]⟩
abbrev S128x1 : Shape := ⟨2, ![128, 1]⟩
abbrev S1x10 : Shape := ⟨2, ![1, 10]⟩

abbrev nBuf : Space → Nat
  | .hbm => 131
  | .vmem => 64
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128x128, .f32⟩
  | 5 => ⟨S128, .f32⟩
  | 6 => ⟨S3x128x128, .f32⟩
  | 7 => ⟨S3x128x128, .f32⟩
  | 8 => ⟨S3x128, .f32⟩
  | 9 => ⟨S128x128, .f32⟩
  | 10 => ⟨S128, .f32⟩
  | 11 => ⟨S128x10, .f32⟩
  | 12 => ⟨S10, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S50000x1, .f32⟩
  | 35 => ⟨S50000x128, .f32⟩
  | 36 => ⟨S50000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S1x128x128, .f32⟩
  | 51 => ⟨S128x128, .f32⟩
  | 52 => ⟨S1x128x128, .f32⟩
  | 53 => ⟨S128x128, .f32⟩
  | 54 => ⟨S1x128, .f32⟩
  | 55 => ⟨S128, .f32⟩
  | 56 => ⟨S50000x128, .f32⟩
  | 57 => ⟨S50000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S1x128x128, .f32⟩
  | 72 => ⟨S128x128, .f32⟩
  | 73 => ⟨S1x128x128, .f32⟩
  | 74 => ⟨S128x128, .f32⟩
  | 75 => ⟨S1x128, .f32⟩
  | 76 => ⟨S128, .f32⟩
  | 77 => ⟨S50000x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S1x128x128, .f32⟩
  | 93 => ⟨S128x128, .f32⟩
  | 94 => ⟨S1x128x128, .f32⟩
  | 95 => ⟨S128x128, .f32⟩
  | 96 => ⟨S1x128, .f32⟩
  | 97 => ⟨S128, .f32⟩
  | 98 => ⟨S50000x128, .f32⟩
  | 99 => ⟨S50000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S50000x128, .f32⟩
  | 114 => ⟨S_, .f32⟩
  | 115 => ⟨S128x128, .f32⟩
  | 116 => ⟨S50000x1, .i32⟩
  | 117 => ⟨S128x128, .f32⟩
  | 118 => ⟨S_, .f32⟩
  | 119 => ⟨S50000, .f32⟩
  | 120 => ⟨S_, .f32⟩
  | 121 => ⟨S128, .f32⟩
  | 122 => ⟨S50000x1, .i32⟩
  | 123 => ⟨S128, .f32⟩
  | 124 => ⟨S_, .f32⟩
  | 125 => ⟨S128, .f32⟩
  | 126 => ⟨S128, .f32⟩
  | 127 => ⟨S128x1, .f32⟩
  | _ => ⟨S50000x128, .f32⟩

abbrev hbmTy0_1 (i : Nat) : BufTy := match i % 128 with
  | 0 => ⟨S128x128, .f32⟩
  | 1 => ⟨S128x128, .f32⟩
  | 2 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S128x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x1, .f32⟩
  | .local _ .vmem, ⟨55, _⟩ => ⟨S5000x1, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128x128, .f32⟩
  | .local _ .vmem, ⟨60, _⟩ => ⟨S128, .f32⟩
  | .local _ .vmem, ⟨61, _⟩ => ⟨S128x10, .f32⟩
  | .local _ .vmem, ⟨62, _⟩ => ⟨S10, .f32⟩
  | .local _ .vmem, ⟨63, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66_0 : Ref sig .tc := ⟨.hbm, 98, rfl⟩
abbrev main_v66_1 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_18 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg3_1 : Ref sig .tc := ⟨.vmem, 57, rfl⟩
abbrev cc5_stg0_0 : Ref sig .tc := ⟨.vmem, 58, rfl⟩
abbrev cc5_stg1_0 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57
abbrev cc5_sem0_0 : DmaSem sig := 58
abbrev cc5_sem1_0 : DmaSem sig := 59
abbrev cc5_sem2_0 : DmaSem sig := 60
abbrev cc5_sem3_0 : DmaSem sig := 61
abbrev cc5_sem4_0 : DmaSem sig := 62
abbrev cc5_sem5_0 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S128x128.size a
  hwx5_0 : ∀ i : grid5.Coords, EltTy.bits .f32 = 32 ∨ (Rect.block (s := S128x128) S128x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x10.size a ≤ S128x10.size a
  hwx5_3 : ∀ i : grid5.Coords, EltTy.bits .f32 = 32 ∨ (Rect.block (s := S128x10) S128x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S10.size a ≤ S10.size a
  hwx5_4 : ∀ i : grid5.Coords, EltTy.bits .f32 = 32 ∨ (Rect.block (s := S10) S10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x10.size a ≤ S128x10.size a
  hwx5_5 : ∀ i : grid5.Coords, EltTy.bits .f32 = 32 ∨ (Rect.block (s := S128x10) S128x10.size (cc5_transform_5 i) (hinb5_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v49_1) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v66_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66_1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v89) S128x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg12) S10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S128x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x128x128 : Shape := ⟨3, ![1, 128, 128]⟩
abbrev S50000x1 : Shape := ⟨2, ![50000, 1]⟩
abbrev S128x1 : Shape := ⟨2, ![128, 1]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128x128, .f32⟩
  | 5 => ⟨S128, .f32⟩
  | 6 => ⟨S3x128x128, .f32⟩
  | 7 => ⟨S3x128x128, .f32⟩
  | 8 => ⟨S3x128, .f32⟩
  | 9 => ⟨S128x128, .f32⟩
  | 10 => ⟨S128, .f32⟩
  | 11 => ⟨S128x10, .f32⟩
  | 12 => ⟨S10, .f32⟩
  | 13 => ⟨S1x600000, .i32⟩
  | 14 => ⟨S600000, .i32⟩
  | 15 => ⟨S1x600000, .i32⟩
  | 16 => ⟨S600000, .i32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S600000, .f32⟩
  | 57 => ⟨S50000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S600000x1, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S1x128x128, .f32⟩
  | 85 => ⟨S128x128, .f32⟩
  | 86 => ⟨S1x128, .f32⟩
  | 87 => ⟨S128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S600000x1, .f32⟩
  | 99 => ⟨S600000x128, .f32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x128x128, .f32⟩
  | 114 => ⟨S128x128, .f32⟩
  | 115 => ⟨S1x128x128, .f32⟩
  | 116 => ⟨S128x128, .f32⟩
  | 117 => ⟨S1x128, .f32⟩
  | 118 => ⟨S128, .f32⟩
  | 119 => ⟨S50000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000x128, .f32⟩
  | 1 => ⟨S600000x1, .f32⟩
  | 2 => ⟨S600000x128, .f32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S1x128x128, .f32⟩
  | 17 => ⟨S128x128, .f32⟩
  | 18 => ⟨S1x128x128, .f32⟩
  | 19 => ⟨S128x128, .f32⟩
  | 20 => ⟨S1x128, .f32⟩
  | 21 => ⟨S128, .f32⟩
  | 22 => ⟨S50000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x1, .f32⟩
  | 33 => ⟨S600000x128, .f32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S128x128, .f32⟩
  | 49 => ⟨S50000x1, .i32⟩
  | 50 => ⟨S128x128, .f32⟩
  | 51 => ⟨S_, .f32⟩
  | 52 => ⟨S50000, .f32⟩
  | 53 => ⟨S_, .f32⟩
  | 54 => ⟨S128, .f32⟩
  | 55 => ⟨S50000x1, .i32⟩
  | 56 => ⟨S128, .f32⟩
  | 57 => ⟨S_, .f32⟩
  | 58 => ⟨S128, .f32⟩
  | 59 => ⟨S128, .f32⟩
  | 60 => ⟨S128x1, .f32⟩
  | 61 => ⟨S128x128, .f32⟩
  | 62 => ⟨S128x128, .f32⟩
  | 63 => ⟨S128x128, .f32⟩
  | 64 => ⟨S1x128, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x10, .f32⟩
  | 71 => ⟨S1x10, .f32⟩
  | 72 => ⟨S128x10, .f32⟩
  | 73 => ⟨S128x10, .f32⟩
  | 74 => ⟨S_, .f32⟩
  | 75 => ⟨S128, .f32⟩
  | 76 => ⟨S_, .f32⟩
  | 77 => ⟨S128, .f32⟩
  | 78 => ⟨S128, .f32⟩
  | 79 => ⟨S128x1, .f32⟩
  | 80 => ⟨S128x10, .f32⟩
  | 81 => ⟨S128x10, .f32⟩
  | 82 => ⟨S128x10, .f32⟩
  | 83 => ⟨S_, .f32⟩
  | 84 => ⟨S128, .f32⟩
  | 85 => ⟨S128x1, .f32⟩
  | 86 => ⟨S128x1, .f32⟩
  | 87 => ⟨S128x10, .f32⟩
  | 88 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_13 : Ref sig .tc := ⟨.hbm, 120, rfl⟩
abbrev main_v86 : Ref sig .tc := ⟨.hbm, 121, rfl⟩
abbrev main_v87 : Ref sig .tc := ⟨.hbm, 122, rfl⟩
abbrev main_c_14 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call3_cst : Ref sig .tc := ⟨.hbm, 141, rfl⟩
abbrev main_call3_v0 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_16 : Ref sig .tc := ⟨.hbm, 151, rfl⟩
abbrev main_v112 : Ref sig .tc := ⟨.hbm, 152, rfl⟩
abbrev main_v113 : Ref sig .tc := ⟨.hbm, 153, rfl⟩
abbrev main_c_17 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_18 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_call4_cst : Ref sig .tc := ⟨.hbm, 172, rfl⟩
abbrev main_call4_v0 : Ref sig .tc := ⟨.hbm, 173, rfl⟩
abbrev main_v130 : Ref sig .tc := ⟨.hbm, 174, rfl⟩
abbrev main_cst_19 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_20 : Ref sig .tc := ⟨.hbm, 179, rfl⟩
abbrev main_v134 : Ref sig .tc := ⟨.hbm, 180, rfl⟩
abbrev main_cst_21 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_22 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_call5_cst : Ref sig .tc := ⟨.hbm, 195, rfl⟩
abbrev main_call5_v0 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_call6_cst : Ref sig .tc := ⟨.hbm, 202, rfl⟩
abbrev main_call6_v0 : Ref sig .tc := ⟨.hbm, 203, rfl⟩
abbrev main_call6_cst_0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_v6 : Ref sig .tc := ⟨.hbm, 210, rfl⟩
abbrev main_call6_cst_1 : Ref sig .tc := ⟨.hbm, 211, rfl⟩
abbrev main_call6_v7 : Ref sig .tc := ⟨.hbm, 212, rfl⟩
abbrev main_call6_v8 : Ref sig .tc := ⟨.hbm, 213, rfl⟩
abbrev main_call6_v9 : Ref sig .tc := ⟨.hbm, 214, rfl⟩
abbrev main_call6_v10 : Ref sig .tc := ⟨.hbm, 215, rfl⟩
abbrev main_v152 : Ref sig .tc := ⟨.hbm, 216, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel's run with its two results NAMED.

  @main is fourteen segments: stretches of host operations and six pipelined kernel launches. The launch theorem for such
  a program ends every weakly fair execution in a state whose unscoped buffers hold the fold `W14` of the segments
  from the launch memory: a stretch applies its operations, a launch replaces its arrays by what its write-backs leave.
  Read at the thirteen argument arrays that fold is the launch memory (they are never written); read at the two result
  buffers it is the value this certificate is about, and this module keeps that reading in the post.
-/
import proofs.«153091_j996432413504_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the log-probabilities and the last layer's
    activations end at the segments' fold read at their buffers, and the argument arrays end as launched. -/
theorem run : θ_run defs (onTc (τ := τ) (main (F := F))) ⟨m, fun _ => 0, ρ⟩ (fun r => ∀ c : Dev nD,
      r.2.mem ((c.tc : Thread nD τ).loc main_v90) = W14 m ρ c (Proc.devRef .tc main_v90)
      ∧ r.2.mem ((c.tc : Thread nD τ).loc main_v77) = W14 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v90 (by decide)),
       h c _ (mem_uc main_v77 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.KRun

end
-- ==== Proof.KernelChain.lean ====
/-
  What each kernel launch of the idealized program finds in its arrays, and what the program returns.

  @main alternates stretches of host operations with six pipelined kernel launches. The buffer contents at the fourteen
  segment boundaries are a fold from the launch memory: a stretch applies its operations, a launch replaces its arrays by
  what its write-backs leave and keeps every other buffer. Every buffer is written once, so a buffer read at a later
  boundary holds what its producer left: a stretch that does not write it and a launch whose arrays do not include it
  keep it. Each lemma `atJ_b` reads buffer `b` at boundary `J` as ONE closed term: the launch memory at an argument, a
  launch's own result `(datK …).arrAt w N` at one of its outputs, and a host operation applied to such terms. The
  `entryK_w` lemmas are those readings at the arrays launch `K` stages (what its window `w` reads), and the last two
  lemmas read the two results of @main.
-/
import proofs.«153091_j996432413504_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem at3_main_arg0 (c : Dev nD) : W3 m ρ c (Proc.devRef .tc main_arg0) = (m ((c : Thread nD τ).loc main_arg0)) :=
  calc W3 m ρ c (Proc.devRef .tc main_arg0)
    _ = W2 m ρ c (Proc.devRef .tc main_arg0) := StableHlo.after_of_forall_not_mem (b := (Proc.devRef .tc main_arg0)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := (Proc.devRef .tc main_arg0)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := (Proc.devRef .tc main_arg0)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg0)) := rfl

theorem at0_main_arg1 (c : Dev nD) : W0 m ρ c (Proc.devRef .tc main_arg1) = (m ((c : Thread nD τ).loc main_arg1)) :=
  rfl

set_option maxHeartbeats 8000000 in
theorem at1_main_v9 (c : Dev nD) : W1 m ρ c (Proc.devRef .tc main_v9) = ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) :=
  by
  show StableHlo.after hostOps0 (W0 m ρ c) (Proc.devRef .tc main_v9) = _
  after_results_simp
  <;> first | (rw [at0_main_arg1 m ρ c]; try rfl) | rfl

set_option maxHeartbeats 8000000 in
theorem at1_main_v12 (c : Dev nD) : W1 m ρ c (Proc.devRef .tc main_v12) = ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) :=
  by
  show StableHlo.after hostOps0 (W0 m ρ c) (Proc.devRef .tc main_v12) = _
  after_results_simp
  <;> first | (rw [at0_main_arg1 m ρ c]; try rfl) | rfl

set_option maxHeartbeats 8000000 in
theorem at1_main_cst_3 (c : Dev nD) : W1 m ρ c (Proc.devRef .tc main_cst_3) = (constant S_ .f32 0x00000000#32) :=
  by
  show StableHlo.after hostOps0 (W0 m ρ c) (Proc.devRef .tc main_cst_3) = _
  after_results_simp
  <;> first | (skip; try rfl) | rfl

set_option maxHeartbeats 8000000 in
theorem at2_main_v13 (c : Dev nD) : W2 m ρ c (Proc.devRef .tc main_v13) = (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) :=
  by
  show StableHlo.after hostOps0_1 (W1 m ρ c) (Proc.devRef .tc main_v13) = _
  after_results_simp
  <;> first | (rw [at1_main_v9 m ρ c, at1_main_v12 m ρ c, at1_main_cst_3 m ρ c]; try rfl) | rfl

set_option maxHeartbeats 8000000 in
theorem at3_main_v14 (c : Dev nD) : W3 m ρ c (Proc.devRef .tc main_v14) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) :=
  by
  show StableHlo.after hostOps0_2 (W2 m ρ c) (Proc.devRef .tc main_v14) = _
  after_results_simp
  <;> first | (rw [at2_main_v13 m ρ c]; try rfl) | rfl

theorem at3_main_arg3 (c : Dev nD) : W3 m ρ c (Proc.devRef .tc main_arg3) = (m ((c : Thread nD τ).loc main_arg3)) :=
  calc W3 m ρ c (Proc.devRef .tc main_arg3)
    _ = W2 m ρ c (Proc.devRef .tc main_arg3) := StableHlo.after_of_forall_not_mem (b := (Proc.devRef .tc main_arg3)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := (Proc.devRef .tc main_arg3)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := (Proc.devRef .tc main_arg3)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg3)) := rfl

theorem at3_main_arg4 (c : Dev nD) : W3 m ρ c (Proc.devRef .tc main_arg4) = (m ((c : Thread nD τ).loc main_arg4)) :=
  calc W3 m ρ c (Proc.devRef .tc main_arg4)
    _ = W2 m ρ c (Proc.devRef .tc main_arg4) := StableHlo.after_of_forall_not_mem (b := (Proc.devRef .tc main_arg4)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := (Proc.devRef .tc main_arg4)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := (Proc.devRef .tc main_arg4)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg4)) := rfl

theorem at3_main_arg5 (c : Dev nD) : W3 m ρ c (Proc.devRef .tc main_arg5) = (m ((c : Thread nD τ).loc main_arg5)) :=
  calc W3 m ρ c (Proc.devRef .tc main_arg5)
    _ = W2 m ρ c (Proc.devRef .tc main_arg5) := StableHlo.after_of_forall_not_mem (b := (Proc.devRef .tc main_arg5)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := (Proc.devRef .tc main_arg5)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := (Proc.devRef .tc main_arg5)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg5)) := rfl

set_option maxHeartbeats 8000000 in
theorem at1_main_v3 (c : Dev nD) : W1 m ρ c (Proc.devRef .tc main_v3) = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) :=
  by
  show StableHlo.after hostOps0 (W0 m ρ c) (Proc.devRef .tc main_v3) = _
  after_results_simp
  <;> first | (rw [at0_main_arg1 m ρ c]; try rfl) | rfl

theorem at4_main_v3 (c : Dev nD) : W4 m ρ c (Proc.devRef .tc main_v3) = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := (Proc.devRef .tc main_v3)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := (Proc.devRef .tc main_v3)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) := at1_main_v3 m ρ c

theorem at4_main_v15_0 (c : Dev nD) : W4 m ρ c (Proc.devRef .tc main_v15_0) = ((dat0 (V3 m ρ) c).arrAt 5 cfg0.N) :=
  W4_arr m ρ c 5

set_option maxHeartbeats 8000000 in
theorem at1_main_v1 (c : Dev nD) : W1 m ρ c (Proc.devRef .tc main_v1) = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) :=
  by
  show StableHlo.after hostOps0 (W0 m ρ c) (Proc.devRef .tc main_v1) = _
  after_results_simp
  <;> first | (rw [at0_main_arg1 m ρ c]; try rfl) | rfl

theorem at4_main_v1 (c : Dev nD) : W4 m ρ c (Proc.devRef .tc main_v1) = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := (Proc.devRef .tc main_v1)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := (Proc.devRef .tc main_v1)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) := at1_main_v1 m ρ c

set_option maxHeartbeats 8000000 in
theorem at5_main_v25 (c : Dev nD) : W5 m ρ c (Proc.devRef .tc main_v25) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat0 (V3 m ρ) c).arrAt 5 cfg0.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) :=
  by
  show StableHlo.after hostOps1 (W4 m ρ c) (Proc.devRef .tc main_v25) = _
  after_results_simp
  <;> first | (rw [at4_main_v3 m ρ c, at4_main_v15_0 m ρ c, at4_main_v1 m ρ c]; try rfl) | rfl

theorem at4_main_v15_1 (c : Dev nD) : W4 m ρ c (Proc.devRef .tc main_v15_1) = ((dat0 (V3 m ρ) c).arrAt 6 cfg0.N) :=
  W4_arr m ρ c 6

theorem at5_main_v15_1 (c : Dev nD) : W5 m ρ c (Proc.devRef .tc main_v15_1) = ((dat0 (V3 m ρ) c).arrAt 6 cfg0.N) :=
  calc W5 m ρ c (Proc.devRef .tc main_v15_1)
    _ = W4 m ρ c (Proc.devRef .tc main_v15_1) := StableHlo.after_of_forall_not_mem (b := (Proc.devRef .tc main_v15_1)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ((dat0 (V3 m ρ) c).arrAt 6 cfg0.N) := at4_main_v15_1 m ρ c

theorem at5_main_v14 (c : Dev nD) : W5 m ρ c (Proc.devRef .tc main_v14) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) :=
  calc W5 m ρ c (Proc.devRef .tc main_v14)
    _ = W4 m ρ c (Proc.devRef .tc main_v14) := StableHlo.after_of_forall_not_mem (b := (Proc.devRef .tc main_v14)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := (W4_arr m ρ c 1).trans (((dat0 (V3 m ρ) c).arrAt_in 1 rfl _).trans (A_eq0 (V3 m ρ) c 1))
    _ = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at3_main_v14 m ρ c

theorem at4_main_arg6 (c : Dev nD) : W4 m ρ c (Proc.devRef .tc main_arg6) = (m ((c : Thread nD τ).loc main_arg6)) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := (Proc.devRef .tc main_arg6)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := (Proc.devRef .tc main_arg6)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := (Proc.devRef .tc main_arg6)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg6)) := rfl

set_option maxHeartbeats 8000000 in
theorem at5_main_v27 (c : Dev nD) : W5 m ρ c (Proc.devRef .tc main_v27) = (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) (m ((c : Thread nD τ).loc main_arg6))) shapeCasts_S1x128x128_S128x128) :=
  by
  show StableHlo.after hostOps1 (W4 m ρ c) (Proc.devRef .tc main_v27) = _
  after_results_simp
  <;> first | (rw [at4_main_arg6 m ρ c]; try rfl) | rfl

theorem at4_main_arg7 (c : Dev nD) : W4 m ρ c (Proc.devRef .tc main_arg7) = (m ((c : Thread nD τ).loc main_arg7)) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := (Proc.devRef .tc main_arg7)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := (Proc.devRef .tc main_arg7)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := (Proc.devRef .tc main_arg7)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := rfl

set_option maxHeartbeats 8000000 in
theorem at5_main_v29 (c : Dev nD) : W5 m ρ c (Proc.devRef .tc main_v29) = (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) (m ((c : Thread nD τ).loc main_arg7))) shapeCasts_S1x128x128_S128x128) :=
  by
  show StableHlo.after hostOps1 (W4 m ρ c) (Proc.devRef .tc main_v29) = _
  after_results_simp
  <;> first | (rw [at4_main_arg7 m ρ c]; try rfl) | rfl

theorem at4_main_arg8 (c : Dev nD) : W4 m ρ c (Proc.devRef .tc main_arg8) = (m ((c : Thread nD τ).loc main_arg8)) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := (Proc.devRef .tc main_arg8)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := (Proc.devRef .tc main_arg8)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := (Proc.devRef .tc main_arg8)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg8)) := rfl

set_option maxHeartbeats 8000000 in
theorem at5_main_v31 (c : Dev nD) : W5 m ρ c (Proc.devRef .tc main_v31) = (shapeCast _ (((extractStridedSlice S1x128 ![0, 0] · slices_S3x128_S1x128_0_0) : (⟨S3x128, .f32⟩ : BufTy).Contents (Elt F) → (⟨S1x128, .f32⟩ : BufTy).Contents (Elt F)) (m ((c : Thread nD τ).loc main_arg8))) shapeCasts_S1x128_S128) :=
  by
  show StableHlo.after hostOps1 (W4 m ρ c) (Proc.devRef .tc main_v31) = _
  after_results_simp
  <;> first | (rw [at4_main_arg8 m ρ c]; try rfl) | rfl

theorem at6_main_v3 (c : Dev nD) : W6 m ρ c (Proc.devRef .tc main_v3) = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := (Proc.devRef .tc main_v3)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := (Proc.devRef .tc main_v3)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := (Proc.devRef .tc main_v3)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) := at1_main_v3 m ρ c

theorem at6_main_v32_0 (c : Dev nD) : W6 m ρ c (Proc.devRef .tc main_v32_0) = ((dat1 (V5 m ρ) c).arrAt 6 cfg1.N) :=
  W6_arr m ρ c 6

theorem at6_main_v1 (c : Dev nD) : W6 m ρ c (Proc.devRef .tc main_v1) = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := (Proc.devRef .tc main_v1)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := (Proc.devRef .tc main_v1)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := (Proc.devRef .tc main_v1)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) := at1_main_v1 m ρ c

set_option maxHeartbeats 8000000 in
theorem at7_main_v42 (c : Dev nD) : W7 m ρ c (Proc.devRef .tc main_v42) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat1 (V5 m ρ) c).arrAt 6 cfg1.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) :=
  by
  show StableHlo.after hostOps2 (W6 m ρ c) (Proc.devRef .tc main_v42) = _
  after_results_simp
  <;> first | (rw [at6_main_v3 m ρ c, at6_main_v32_0 m ρ c, at6_main_v1 m ρ c]; try rfl) | rfl

theorem at6_main_v32_1 (c : Dev nD) : W6 m ρ c (Proc.devRef .tc main_v32_1) = ((dat1 (V5 m ρ) c).arrAt 7 cfg1.N) :=
  W6_arr m ρ c 7

theorem at7_main_v32_1 (c : Dev nD) : W7 m ρ c (Proc.devRef .tc main_v32_1) = ((dat1 (V5 m ρ) c).arrAt 7 cfg1.N) :=
  calc W7 m ρ c (Proc.devRef .tc main_v32_1)
    _ = W6 m ρ c (Proc.devRef .tc main_v32_1) := StableHlo.after_of_forall_not_mem (b := (Proc.devRef .tc main_v32_1)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ((dat1 (V5 m ρ) c).arrAt 7 cfg1.N) := at6_main_v32_1 m ρ c

theorem at7_main_v14 (c : Dev nD) : W7 m ρ c (Proc.devRef .tc main_v14) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) :=
  calc W7 m ρ c (Proc.devRef .tc main_v14)
    _ = W6 m ρ c (Proc.devRef .tc main_v14) := StableHlo.after_of_forall_not_mem (b := (Proc.devRef .tc main_v14)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 2).trans (((dat1 (V5 m ρ) c).arrAt_in 2 rfl _).trans (A_eq1 (V5 m ρ) c 2))
    _ = W4 m ρ c (Proc.devRef .tc main_v14) := StableHlo.after_of_forall_not_mem (b := (Proc.devRef .tc main_v14)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := (W4_arr m ρ c 1).trans (((dat0 (V3 m ρ) c).arrAt_in 1 rfl _).trans (A_eq0 (V3 m ρ) c 1))
    _ = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at3_main_v14 m ρ c

theorem at6_main_arg6 (c : Dev nD) : W6 m ρ c (Proc.devRef .tc main_arg6) = (m ((c : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := (Proc.devRef .tc main_arg6)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := (Proc.devRef .tc main_arg6)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := (Proc.devRef .tc main_arg6)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := (Proc.devRef .tc main_arg6)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg6)) := rfl

set_option maxHeartbeats 8000000 in
theorem at7_main_v44 (c : Dev nD) : W7 m ρ c (Proc.devRef .tc main_v44) = (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) (m ((c : Thread nD τ).loc main_arg6))) shapeCasts_S1x128x128_S128x128) :=
  by
  show StableHlo.after hostOps2 (W6 m ρ c) (Proc.devRef .tc main_v44) = _
  after_results_simp
  <;> first | (rw [at6_main_arg6 m ρ c]; try rfl) | rfl

theorem at6_main_arg7 (c : Dev nD) : W6 m ρ c (Proc.devRef .tc main_arg7) = (m ((c : Thread nD τ).loc main_arg7)) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := (Proc.devRef .tc main_arg7)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := (Proc.devRef .tc main_arg7)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := (Proc.devRef .tc main_arg7)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := (Proc.devRef .tc main_arg7)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := rfl

set_option maxHeartbeats 8000000 in
theorem at7_main_v46 (c : Dev nD) : W7 m ρ c (Proc.devRef .tc main_v46) = (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) (m ((c : Thread nD τ).loc main_arg7))) shapeCasts_S1x128x128_S128x128) :=
  by
  show StableHlo.after hostOps2 (W6 m ρ c) (Proc.devRef .tc main_v46) = _
  after_results_simp
  <;> first | (rw [at6_main_arg7 m ρ c]; try rfl) | rfl

theorem at6_main_arg8 (c : Dev nD) : W6 m ρ c (Proc.devRef .tc main_arg8) = (m ((c : Thread nD τ).loc main_arg8)) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := (Proc.devRef .tc main_arg8)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := (Proc.devRef .tc main_arg8)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := (Proc.devRef .tc main_arg8)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := (Proc.devRef .tc main_arg8)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg8)) := rfl

set_option maxHeartbeats 8000000 in
theorem at7_main_v48 (c : Dev nD) : W7 m ρ c (Proc.devRef .tc main_v48) = (shapeCast _ (((extractStridedSlice S1x128 ![1, 0] · slices_S3x128_S1x128_1_0) : (⟨S3x128, .f32⟩ : BufTy).Contents (Elt F) → (⟨S1x128, .f32⟩ : BufTy).Contents (Elt F)) (m ((c : Thread nD τ).loc main_arg8))) shapeCasts_S1x128_S128) :=
  by
  show StableHlo.after hostOps2 (W6 m ρ c) (Proc.devRef .tc main_v48) = _
  after_results_simp
  <;> first | (rw [at6_main_arg8 m ρ c]; try rfl) | rfl

theorem at8_main_v3 (c : Dev nD) : W8 m ρ c (Proc.devRef .tc main_v3) = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := (Proc.devRef .tc main_v3)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := (Proc.devRef .tc main_v3)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := (Proc.devRef .tc main_v3)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := (Proc.devRef .tc main_v3)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) := at1_main_v3 m ρ c

theorem at8_main_v49_0 (c : Dev nD) : W8 m ρ c (Proc.devRef .tc main_v49_0) = ((dat2 (V7 m ρ) c).arrAt 6 cfg2.N) :=
  W8_arr m ρ c 6

theorem at8_main_v1 (c : Dev nD) : W8 m ρ c (Proc.devRef .tc main_v1) = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := (Proc.devRef .tc main_v1)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := (Proc.devRef .tc main_v1)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := (Proc.devRef .tc main_v1)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := (Proc.devRef .tc main_v1)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) := at1_main_v1 m ρ c

set_option maxHeartbeats 8000000 in
theorem at9_main_v59 (c : Dev nD) : W9 m ρ c (Proc.devRef .tc main_v59) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat2 (V7 m ρ) c).arrAt 6 cfg2.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) :=
  by
  show StableHlo.after hostOps3 (W8 m ρ c) (Proc.devRef .tc main_v59) = _
  after_results_simp
  <;> first | (rw [at8_main_v3 m ρ c, at8_main_v49_0 m ρ c, at8_main_v1 m ρ c]; try rfl) | rfl

theorem at8_main_v49_1 (c : Dev nD) : W8 m ρ c (Proc.devRef .tc main_v49_1) = ((dat2 (V7 m ρ) c).arrAt 7 cfg2.N) :=
  W8_arr m ρ c 7

theorem at9_main_v49_1 (c : Dev nD) : W9 m ρ c (Proc.devRef .tc main_v49_1) = ((dat2 (V7 m ρ) c).arrAt 7 cfg2.N) :=
  calc W9 m ρ c (Proc.devRef .tc main_v49_1)
    _ = W8 m ρ c (Proc.devRef .tc main_v49_1) := StableHlo.after_of_forall_not_mem (b := (Proc.devRef .tc main_v49_1)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ((dat2 (V7 m ρ) c).arrAt 7 cfg2.N) := at8_main_v49_1 m ρ c

theorem at9_main_v14 (c : Dev nD) : W9 m ρ c (Proc.devRef .tc main_v14) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) :=
  calc W9 m ρ c (Proc.devRef .tc main_v14)
    _ = W8 m ρ c (Proc.devRef .tc main_v14) := StableHlo.after_of_forall_not_mem (b := (Proc.devRef .tc main_v14)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := (W8_arr m ρ c 2).trans (((dat2 (V7 m ρ) c).arrAt_in 2 rfl _).trans (A_eq2 (V7 m ρ) c 2))
    _ = W6 m ρ c (Proc.devRef .tc main_v14) := StableHlo.after_of_forall_not_mem (b := (Proc.devRef .tc main_v14)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 2).trans (((dat1 (V5 m ρ) c).arrAt_in 2 rfl _).trans (A_eq1 (V5 m ρ) c 2))
    _ = W4 m ρ c (Proc.devRef .tc main_v14) := StableHlo.after_of_forall_not_mem (b := (Proc.devRef .tc main_v14)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := (W4_arr m ρ c 1).trans (((dat0 (V3 m ρ) c).arrAt_in 1 rfl _).trans (A_eq0 (V3 m ρ) c 1))
    _ = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at3_main_v14 m ρ c

theorem at8_main_arg6 (c : Dev nD) : W8 m ρ c (Proc.devRef .tc main_arg6) = (m ((c : Thread nD τ).loc main_arg6)) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := (Proc.devRef .tc main_arg6)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := (Proc.devRef .tc main_arg6)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := (Proc.devRef .tc main_arg6)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := (Proc.devRef .tc main_arg6)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := (Proc.devRef .tc main_arg6)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg6)) := rfl

set_option maxHeartbeats 8000000 in
theorem at9_main_v61 (c : Dev nD) : W9 m ρ c (Proc.devRef .tc main_v61) = (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) (m ((c : Thread nD τ).loc main_arg6))) shapeCasts_S1x128x128_S128x128) :=
  by
  show StableHlo.after hostOps3 (W8 m ρ c) (Proc.devRef .tc main_v61) = _
  after_results_simp
  <;> first | (rw [at8_main_arg6 m ρ c]; try rfl) | rfl

theorem at8_main_arg7 (c : Dev nD) : W8 m ρ c (Proc.devRef .tc main_arg7) = (m ((c : Thread nD τ).loc main_arg7)) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := (Proc.devRef .tc main_arg7)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := (Proc.devRef .tc main_arg7)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := (Proc.devRef .tc main_arg7)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := (Proc.devRef .tc main_arg7)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := (Proc.devRef .tc main_arg7)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := rfl

set_option maxHeartbeats 8000000 in
theorem at9_main_v63 (c : Dev nD) : W9 m ρ c (Proc.devRef .tc main_v63) = (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) (m ((c : Thread nD τ).loc main_arg7))) shapeCasts_S1x128x128_S128x128) :=
  by
  show StableHlo.after hostOps3 (W8 m ρ c) (Proc.devRef .tc main_v63) = _
  after_results_simp
  <;> first | (rw [at8_main_arg7 m ρ c]; try rfl) | rfl

theorem at8_main_arg8 (c : Dev nD) : W8 m ρ c (Proc.devRef .tc main_arg8) = (m ((c : Thread nD τ).loc main_arg8)) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := (Proc.devRef .tc main_arg8)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := (Proc.devRef .tc main_arg8)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := (Proc.devRef .tc main_arg8)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := (Proc.devRef .tc main_arg8)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := (Proc.devRef .tc main_arg8)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg8)) := rfl

set_option maxHeartbeats 8000000 in
theorem at9_main_v65 (c : Dev nD) : W9 m ρ c (Proc.devRef .tc main_v65) = (shapeCast _ (((extractStridedSlice S1x128 ![2, 0] · slices_S3x128_S1x128_2_0) : (⟨S3x128, .f32⟩ : BufTy).Contents (Elt F) → (⟨S1x128, .f32⟩ : BufTy).Contents (Elt F)) (m ((c : Thread nD τ).loc main_arg8))) shapeCasts_S1x128_S128) :=
  by
  show StableHlo.after hostOps3 (W8 m ρ c) (Proc.devRef .tc main_v65) = _
  after_results_simp
  <;> first | (rw [at8_main_arg8 m ρ c]; try rfl) | rfl

theorem at10_main_v3 (c : Dev nD) : W10 m ρ c (Proc.devRef .tc main_v3) = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := (Proc.devRef .tc main_v3)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := (Proc.devRef .tc main_v3)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := (Proc.devRef .tc main_v3)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := (Proc.devRef .tc main_v3)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := (Proc.devRef .tc main_v3)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000) := at1_main_v3 m ρ c

theorem at10_main_v66_0 (c : Dev nD) : W10 m ρ c (Proc.devRef .tc main_v66_0) = ((dat3 (V9 m ρ) c).arrAt 6 cfg3.N) :=
  W10_arr m ρ c 6

theorem at10_main_v1 (c : Dev nD) : W10 m ρ c (Proc.devRef .tc main_v1) = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) :=
  calc W10 m ρ c (Proc.devRef .tc main_v1)
    _ = W9 m ρ c (Proc.devRef .tc main_v1) := W10_of_ne m ρ c main_v1 (by decide)
    _ = W8 m ρ c (Proc.devRef .tc main_v1) := StableHlo.after_of_forall_not_mem (b := (Proc.devRef .tc main_v1)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := (Proc.devRef .tc main_v1)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := (Proc.devRef .tc main_v1)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := (Proc.devRef .tc main_v1)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := (Proc.devRef .tc main_v1)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) := at1_main_v1 m ρ c

set_option maxHeartbeats 8000000 in
theorem at11_main_v76 (c : Dev nD) : W11 m ρ c (Proc.devRef .tc main_v76) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat3 (V9 m ρ) c).arrAt 6 cfg3.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) :=
  by
  show StableHlo.after hostOps4 (W10 m ρ c) (Proc.devRef .tc main_v76) = _
  after_results_simp
  <;> first | (rw [at10_main_v3 m ρ c, at10_main_v66_0 m ρ c, at10_main_v1 m ρ c]; try rfl) | rfl

theorem at10_main_v66_1 (c : Dev nD) : W10 m ρ c (Proc.devRef .tc main_v66_1) = ((dat3 (V9 m ρ) c).arrAt 7 cfg3.N) :=
  W10_arr m ρ c 7

theorem at11_main_v66_1 (c : Dev nD) : W11 m ρ c (Proc.devRef .tc main_v66_1) = ((dat3 (V9 m ρ) c).arrAt 7 cfg3.N) :=
  calc W11 m ρ c (Proc.devRef .tc main_v66_1)
    _ = W10 m ρ c (Proc.devRef .tc main_v66_1) := StableHlo.after_of_forall_not_mem (b := (Proc.devRef .tc main_v66_1)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ((dat3 (V9 m ρ) c).arrAt 7 cfg3.N) := at10_main_v66_1 m ρ c

theorem at11_main_v14 (c : Dev nD) : W11 m ρ c (Proc.devRef .tc main_v14) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) :=
  calc W11 m ρ c (Proc.devRef .tc main_v14)
    _ = W10 m ρ c (Proc.devRef .tc main_v14) := StableHlo.after_of_forall_not_mem (b := (Proc.devRef .tc main_v14)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v14) := (W10_arr m ρ c 2).trans (((dat3 (V9 m ρ) c).arrAt_in 2 rfl _).trans (A_eq3 (V9 m ρ) c 2))
    _ = W8 m ρ c (Proc.devRef .tc main_v14) := StableHlo.after_of_forall_not_mem (b := (Proc.devRef .tc main_v14)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := (W8_arr m ρ c 2).trans (((dat2 (V7 m ρ) c).arrAt_in 2 rfl _).trans (A_eq2 (V7 m ρ) c 2))
    _ = W6 m ρ c (Proc.devRef .tc main_v14) := StableHlo.after_of_forall_not_mem (b := (Proc.devRef .tc main_v14)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := (W6_arr m ρ c 2).trans (((dat1 (V5 m ρ) c).arrAt_in 2 rfl _).trans (A_eq1 (V5 m ρ) c 2))
    _ = W4 m ρ c (Proc.devRef .tc main_v14) := StableHlo.after_of_forall_not_mem (b := (Proc.devRef .tc main_v14)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := (W4_arr m ρ c 1).trans (((dat0 (V3 m ρ) c).arrAt_in 1 rfl _).trans (A_eq0 (V3 m ρ) c 1))
    _ = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at3_main_v14 m ρ c

theorem at12_main_arg2 (c : Dev nD) : W12 m ρ c (Proc.devRef .tc main_arg2) = (m ((c : Thread nD τ).loc main_arg2)) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := (Proc.devRef .tc main_arg2)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := (Proc.devRef .tc main_arg2)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := (Proc.devRef .tc main_arg2)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := (Proc.devRef .tc main_arg2)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := (Proc.devRef .tc main_arg2)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := (Proc.devRef .tc main_arg2)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := (Proc.devRef .tc main_arg2)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg2)) := rfl

theorem at12_main_v77 (c : Dev nD) : W12 m ρ c (Proc.devRef .tc main_v77) = ((dat4 (V11 m ρ) c).arrAt 3 cfg4.N) :=
  W12_arr m ρ c 3

set_option maxHeartbeats 8000000 in
theorem at13_main_v89 (c : Dev nD) : W13 m ρ c (Proc.devRef .tc main_v89) = ((Host.divf : (⟨S128x128, .f32⟩ : BufTy).Contents (Elt F) → (⟨S128x128, .f32⟩ : BufTy).Contents (Elt F) → (⟨S128x128, .f32⟩ : BufTy).Contents (Elt F)) (((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) ((broadcastInDim S128x128 ![] bcast_S_S128x128 : (⟨S_, .f32⟩ : BufTy).Contents (Elt F) → (⟨S128x128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) (m ((c : Thread nD τ).loc main_arg2))) ((dat4 (V11 m ρ) c).arrAt 3 cfg4.N)) ((broadcastInDim S128x128 ![0, 1] bcast_S128x1_S128x128_0_1 : (⟨S128x1, .f32⟩ : BufTy).Contents (Elt F) → (⟨S128x128, .f32⟩ : BufTy).Contents (Elt F)) ((broadcastInDim S128x1 ![0] bcast_S128_S128x1_0 : (⟨S128, .f32⟩ : BufTy).Contents (Elt F) → (⟨S128x1, .f32⟩ : BufTy).Contents (Elt F)) ((maximumf : (⟨S128, .f32⟩ : BufTy).Contents (Elt F) → (⟨S128, .f32⟩ : BufTy).Contents (Elt F) → (⟨S128, .f32⟩ : BufTy).Contents (Elt F)) (((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) (m ((c : Thread nD τ).loc main_arg2))) ((broadcastInDim S50000 ![] bcast_S_S50000 : (⟨S_, .f32⟩ : BufTy).Contents (Elt F) → (⟨S50000, .f32⟩ : BufTy).Contents (Elt F)) (constant S_ .f32 0x3F800000#32))) ((broadcastInDim S128 ![] bcast_S_S128 : (⟨S_, .f32⟩ : BufTy).Contents (Elt F) → (⟨S128, .f32⟩ : BufTy).Contents (Elt F)) (constant S_ .f32 0x3F800000#32)))))) :=
  by
  show StableHlo.after hostOps5 (W12 m ρ c) (Proc.devRef .tc main_v89) = _
  after_results_simp
  <;> first | (rw [at12_main_arg2 m ρ c, at12_main_v77 m ρ c]; try rfl) | rfl

theorem at13_main_arg9 (c : Dev nD) : W13 m ρ c (Proc.devRef .tc main_arg9) = (m ((c : Thread nD τ).loc main_arg9)) :=
  calc W13 m ρ c (Proc.devRef .tc main_arg9)
    _ = W12 m ρ c (Proc.devRef .tc main_arg9) := StableHlo.after_of_forall_not_mem (b := (Proc.devRef .tc main_arg9)) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := (Proc.devRef .tc main_arg9)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := (Proc.devRef .tc main_arg9)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := (Proc.devRef .tc main_arg9)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := (Proc.devRef .tc main_arg9)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := (Proc.devRef .tc main_arg9)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := (Proc.devRef .tc main_arg9)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := (Proc.devRef .tc main_arg9)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg9)) := rfl

theorem at13_main_arg10 (c : Dev nD) : W13 m ρ c (Proc.devRef .tc main_arg10) = (m ((c : Thread nD τ).loc main_arg10)) :=
  calc W13 m ρ c (Proc.devRef .tc main_arg10)
    _ = W12 m ρ c (Proc.devRef .tc main_arg10) := StableHlo.after_of_forall_not_mem (b := (Proc.devRef .tc main_arg10)) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := (Proc.devRef .tc main_arg10)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := (Proc.devRef .tc main_arg10)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := (Proc.devRef .tc main_arg10)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := (Proc.devRef .tc main_arg10)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := (Proc.devRef .tc main_arg10)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := (Proc.devRef .tc main_arg10)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := (Proc.devRef .tc main_arg10)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg10)) := rfl

theorem at13_main_arg11 (c : Dev nD) : W13 m ρ c (Proc.devRef .tc main_arg11) = (m ((c : Thread nD τ).loc main_arg11)) :=
  calc W13 m ρ c (Proc.devRef .tc main_arg11)
    _ = W12 m ρ c (Proc.devRef .tc main_arg11) := StableHlo.after_of_forall_not_mem (b := (Proc.devRef .tc main_arg11)) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := (Proc.devRef .tc main_arg11)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := (Proc.devRef .tc main_arg11)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := (Proc.devRef .tc main_arg11)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := (Proc.devRef .tc main_arg11)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := (Proc.devRef .tc main_arg11)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := (Proc.devRef .tc main_arg11)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := (Proc.devRef .tc main_arg11)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg11)) := rfl

theorem at13_main_arg12 (c : Dev nD) : W13 m ρ c (Proc.devRef .tc main_arg12) = (m ((c : Thread nD τ).loc main_arg12)) :=
  calc W13 m ρ c (Proc.devRef .tc main_arg12)
    _ = W12 m ρ c (Proc.devRef .tc main_arg12) := StableHlo.after_of_forall_not_mem (b := (Proc.devRef .tc main_arg12)) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := (Proc.devRef .tc main_arg12)) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := (Proc.devRef .tc main_arg12)) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := (Proc.devRef .tc main_arg12)) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := (Proc.devRef .tc main_arg12)) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := (Proc.devRef .tc main_arg12)) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := (Proc.devRef .tc main_arg12)) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := (Proc.devRef .tc main_arg12)) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg12)) := rfl

theorem at14_main_v90 (c : Dev nD) : W14 m ρ c (Proc.devRef .tc main_v90) = ((dat5 (V13 m ρ) c).arrAt 5 cfg5.N) :=
  W14_arr m ρ c 5

theorem at14_main_v77 (c : Dev nD) : W14 m ρ c (Proc.devRef .tc main_v77) = ((dat4 (V11 m ρ) c).arrAt 3 cfg4.N) :=
  calc W14 m ρ c (Proc.devRef .tc main_v77)
    _ = W13 m ρ c (Proc.devRef .tc main_v77) := W14_of_ne m ρ c main_v77 (by decide)
    _ = W12 m ρ c (Proc.devRef .tc main_v77) := StableHlo.after_of_forall_not_mem (b := (Proc.devRef .tc main_v77)) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = ((dat4 (V11 m ρ) c).arrAt 3 cfg4.N) := at12_main_v77 m ρ c

/-! ## What each launch's windows read -/

theorem entry0_0 (c : Dev nD) : V3 m ρ c (Pipeline.arrRef spec0 0) = (m ((c : Thread nD τ).loc main_arg0)) := at3_main_arg0 m ρ c

theorem entry0_1 (c : Dev nD) : V3 m ρ c (Pipeline.arrRef spec0 1) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at3_main_v14 m ρ c

theorem entry0_2 (c : Dev nD) : V3 m ρ c (Pipeline.arrRef spec0 2) = (m ((c : Thread nD τ).loc main_arg3)) := at3_main_arg3 m ρ c

theorem entry0_3 (c : Dev nD) : V3 m ρ c (Pipeline.arrRef spec0 3) = (m ((c : Thread nD τ).loc main_arg4)) := at3_main_arg4 m ρ c

theorem entry0_4 (c : Dev nD) : V3 m ρ c (Pipeline.arrRef spec0 4) = (m ((c : Thread nD τ).loc main_arg5)) := at3_main_arg5 m ρ c

theorem entry1_0 (c : Dev nD) : V5 m ρ c (Pipeline.arrRef spec1 0) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat0 (V3 m ρ) c).arrAt 5 cfg0.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) := at5_main_v25 m ρ c

theorem entry1_1 (c : Dev nD) : V5 m ρ c (Pipeline.arrRef spec1 1) = ((dat0 (V3 m ρ) c).arrAt 6 cfg0.N) := at5_main_v15_1 m ρ c

theorem entry1_2 (c : Dev nD) : V5 m ρ c (Pipeline.arrRef spec1 2) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at5_main_v14 m ρ c

theorem entry1_3 (c : Dev nD) : V5 m ρ c (Pipeline.arrRef spec1 3) = (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) (m ((c : Thread nD τ).loc main_arg6))) shapeCasts_S1x128x128_S128x128) := at5_main_v27 m ρ c

theorem entry1_4 (c : Dev nD) : V5 m ρ c (Pipeline.arrRef spec1 4) = (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) (m ((c : Thread nD τ).loc main_arg7))) shapeCasts_S1x128x128_S128x128) := at5_main_v29 m ρ c

theorem entry1_5 (c : Dev nD) : V5 m ρ c (Pipeline.arrRef spec1 5) = (shapeCast _ (((extractStridedSlice S1x128 ![0, 0] · slices_S3x128_S1x128_0_0) : (⟨S3x128, .f32⟩ : BufTy).Contents (Elt F) → (⟨S1x128, .f32⟩ : BufTy).Contents (Elt F)) (m ((c : Thread nD τ).loc main_arg8))) shapeCasts_S1x128_S128) := at5_main_v31 m ρ c

theorem entry2_0 (c : Dev nD) : V7 m ρ c (Pipeline.arrRef spec2 0) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat1 (V5 m ρ) c).arrAt 6 cfg1.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) := at7_main_v42 m ρ c

theorem entry2_1 (c : Dev nD) : V7 m ρ c (Pipeline.arrRef spec2 1) = ((dat1 (V5 m ρ) c).arrAt 7 cfg1.N) := at7_main_v32_1 m ρ c

theorem entry2_2 (c : Dev nD) : V7 m ρ c (Pipeline.arrRef spec2 2) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at7_main_v14 m ρ c

theorem entry2_3 (c : Dev nD) : V7 m ρ c (Pipeline.arrRef spec2 3) = (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) (m ((c : Thread nD τ).loc main_arg6))) shapeCasts_S1x128x128_S128x128) := at7_main_v44 m ρ c

theorem entry2_4 (c : Dev nD) : V7 m ρ c (Pipeline.arrRef spec2 4) = (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) (m ((c : Thread nD τ).loc main_arg7))) shapeCasts_S1x128x128_S128x128) := at7_main_v46 m ρ c

theorem entry2_5 (c : Dev nD) : V7 m ρ c (Pipeline.arrRef spec2 5) = (shapeCast _ (((extractStridedSlice S1x128 ![1, 0] · slices_S3x128_S1x128_1_0) : (⟨S3x128, .f32⟩ : BufTy).Contents (Elt F) → (⟨S1x128, .f32⟩ : BufTy).Contents (Elt F)) (m ((c : Thread nD τ).loc main_arg8))) shapeCasts_S1x128_S128) := at7_main_v48 m ρ c

theorem entry3_0 (c : Dev nD) : V9 m ρ c (Pipeline.arrRef spec3 0) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat2 (V7 m ρ) c).arrAt 6 cfg2.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) := at9_main_v59 m ρ c

theorem entry3_1 (c : Dev nD) : V9 m ρ c (Pipeline.arrRef spec3 1) = ((dat2 (V7 m ρ) c).arrAt 7 cfg2.N) := at9_main_v49_1 m ρ c

theorem entry3_2 (c : Dev nD) : V9 m ρ c (Pipeline.arrRef spec3 2) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at9_main_v14 m ρ c

theorem entry3_3 (c : Dev nD) : V9 m ρ c (Pipeline.arrRef spec3 3) = (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) (m ((c : Thread nD τ).loc main_arg6))) shapeCasts_S1x128x128_S128x128) := at9_main_v61 m ρ c

theorem entry3_4 (c : Dev nD) : V9 m ρ c (Pipeline.arrRef spec3 4) = (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) (m ((c : Thread nD τ).loc main_arg7))) shapeCasts_S1x128x128_S128x128) := at9_main_v63 m ρ c

theorem entry3_5 (c : Dev nD) : V9 m ρ c (Pipeline.arrRef spec3 5) = (shapeCast _ (((extractStridedSlice S1x128 ![2, 0] · slices_S3x128_S1x128_2_0) : (⟨S3x128, .f32⟩ : BufTy).Contents (Elt F) → (⟨S1x128, .f32⟩ : BufTy).Contents (Elt F)) (m ((c : Thread nD τ).loc main_arg8))) shapeCasts_S1x128_S128) := at9_main_v65 m ρ c

theorem entry4_0 (c : Dev nD) : V11 m ρ c (Pipeline.arrRef spec4 0) = (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ((dat3 (V9 m ρ) c).arrAt 6 cfg3.N) ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) (m ((c : Thread nD τ).loc main_arg1))) shapeCasts_S1x600000_S600000))))) := at11_main_v76 m ρ c

theorem entry4_1 (c : Dev nD) : V11 m ρ c (Pipeline.arrRef spec4 1) = ((dat3 (V9 m ρ) c).arrAt 7 cfg3.N) := at11_main_v66_1 m ρ c

theorem entry4_2 (c : Dev nD) : V11 m ρ c (Pipeline.arrRef spec4 2) = (shapeCast _ (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) (m ((c : Thread nD τ).loc main_arg1))) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32)))) shapeCasts_S50000_S50000x1) := at11_main_v14 m ρ c

theorem entry5_0 (c : Dev nD) : V13 m ρ c (Pipeline.arrRef spec5 0) = ((Host.divf : (⟨S128x128, .f32⟩ : BufTy).Contents (Elt F) → (⟨S128x128, .f32⟩ : BufTy).Contents (Elt F) → (⟨S128x128, .f32⟩ : BufTy).Contents (Elt F)) (((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) ((broadcastInDim S128x128 ![] bcast_S_S128x128 : (⟨S_, .f32⟩ : BufTy).Contents (Elt F) → (⟨S128x128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) (m ((c : Thread nD τ).loc main_arg2))) ((dat4 (V11 m ρ) c).arrAt 3 cfg4.N)) ((broadcastInDim S128x128 ![0, 1] bcast_S128x1_S128x128_0_1 : (⟨S128x1, .f32⟩ : BufTy).Contents (Elt F) → (⟨S128x128, .f32⟩ : BufTy).Contents (Elt F)) ((broadcastInDim S128x1 ![0] bcast_S128_S128x1_0 : (⟨S128, .f32⟩ : BufTy).Contents (Elt F) → (⟨S128x1, .f32⟩ : BufTy).Contents (Elt F)) ((maximumf : (⟨S128, .f32⟩ : BufTy).Contents (Elt F) → (⟨S128, .f32⟩ : BufTy).Contents (Elt F) → (⟨S128, .f32⟩ : BufTy).Contents (Elt F)) (((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) (m ((c : Thread nD τ).loc main_arg2))) ((broadcastInDim S50000 ![] bcast_S_S50000 : (⟨S_, .f32⟩ : BufTy).Contents (Elt F) → (⟨S50000, .f32⟩ : BufTy).Contents (Elt F)) (constant S_ .f32 0x3F800000#32))) ((broadcastInDim S128 ![] bcast_S_S128 : (⟨S_, .f32⟩ : BufTy).Contents (Elt F) → (⟨S128, .f32⟩ : BufTy).Contents (Elt F)) (constant S_ .f32 0x3F800000#32)))))) := at13_main_v89 m ρ c

theorem entry5_1 (c : Dev nD) : V13 m ρ c (Pipeline.arrRef spec5 1) = (m ((c : Thread nD τ).loc main_arg9)) := at13_main_arg9 m ρ c

theorem entry5_2 (c : Dev nD) : V13 m ρ c (Pipeline.arrRef spec5 2) = (m ((c : Thread nD τ).loc main_arg10)) := at13_main_arg10 m ρ c

theorem entry5_3 (c : Dev nD) : V13 m ρ c (Pipeline.arrRef spec5 3) = (m ((c : Thread nD τ).loc main_arg11)) := at13_main_arg11 m ρ c

theorem entry5_4 (c : Dev nD) : V13 m ρ c (Pipeline.arrRef spec5 4) = (m ((c : Thread nD τ).loc main_arg12)) := at13_main_arg12 m ρ c

end Cert.KernelIdeal.Chain

end
-- ==== Proof.DenseValue0.lean ====
/-
  The first region of the kernel program (the dense transform before the graph layers), read as a value.

  The region walks ten grid points; at point t the blocks of x, of the column and of both results are rows
  5000·t … 5000·t + 4999 of their arrays, while the two 128×128 matrices and the bias vector are each one whole
  block at every point. The body forms two matrix products of the x block into zero accumulators (the narrowing
  of the operands' format is the identity on exact values): one against W, scaled row by row by the column; one
  against R, with the bias added lane by lane. So what point t writes back is block t of ONE function of the
  operand arrays for each result,

      G5 X D W i = D (i₀, 0) · ∑ k < 128, X (i₀, k) · W (k, i₁),
      G6 X R b i = (∑ k < 128, X (i₀, k) · R (k, i₁)) + b i₁,

  and since the ten row blocks tile the 50000 rows (row r lies in the block of point r / 5000) each result array
  ends holding its function of the operand arrays as the region finds them. Everything is stated for arbitrary
  region-entry contents V and at the exact extended-real reading of the floats.
-/
import proofs.«153091_j996432413504_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense0

open Cert.KernelIdeal Cert.KernelIdeal.Gen

/-- The dot's left operand index at output (p, q) and contraction index k: row p on axis 0 … -/
theorem lhs0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction coordinate on axis 1; -/
theorem lhs1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand's: the contraction coordinate on axis 0 … -/
theorem rhs0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and column q on axis 1. -/
theorem rhs1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, at row p and column q, is the sum over the 128 shared
    coordinates of the products of the operands' entries. -/
theorem mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- A column [5000,1] broadcast along the 128 lanes reads, at row p, the column's entry of row p. -/
theorem bcast_col (d : Vec Ideal S5000x1 .f32) (h : S5000x1.Broadcasts S5000x128) (p : Fin 5000) (q : Fin 128) :
    broadcastTo S5000x128 d h (ix2 p q) = d (ix2 p 0) := by
  refine broadcastTo_apply d h (ix2 p q) (ix2 p 0) (fun a => ?_)
  match a with
  | ⟨0, _⟩ => rfl
  | ⟨1, _⟩ => rfl

/-- A vector [128] viewed as one row [1,128] and broadcast down the 5000 rows reads, at lane q, the vector's entry q. -/
theorem bcast_row (b : Vec Ideal S128 .f32) (hc : S128.ShapeCasts S1x128) (h : S1x128.Broadcasts S5000x128) (p : Fin 5000) (q : Fin 128) :
    broadcastTo S5000x128 (shapeCast S1x128 b hc) h (ix2 p q) = b (ix1 q) := by
  refine (broadcastTo_apply (shapeCast S1x128 b hc) h (ix2 p q) (ix2 0 q) (fun a => ?_)).trans ?_
  · match a with
    | ⟨0, _⟩ => rfl
    | ⟨1, _⟩ => rfl
  · refine shapeCast_apply b hc (ix2 0 q) (ix1 q) ?_
    rw [Shape.rowMajor_val_one, Shape.rowMajor_val_two]
    show q.val = 0 * 128 + q.val
    omega

/-- The first stored value at row p, lane q: the row's column entry times the row of x against column q of W. -/
theorem pay2_apply (x : Vec Ideal S5000x128 .f32) (w : Vec Ideal S128x128 .f32) (d : Vec Ideal S5000x1 .f32) (p : Fin 5000) (q : Fin 128) :
    k0_pay2 x w d (ix2 p q) = d (ix2 p 0) * ∑ k : Fin 128, x (ix2 p k) * w (ix2 k q) := by
  unfold k0_pay2 k0_pay1
  simp only [shapeCast_self]
  rw [mulf_apply, bcast_col, mm_apply]
  rfl

/-- The second stored value at row p, lane q: the row of x against column q of R, plus the bias entry q. -/
theorem pay3_apply (x : Vec Ideal S5000x128 .f32) (r : Vec Ideal S128x128 .f32) (b : Vec Ideal S128 .f32) (p : Fin 5000) (q : Fin 128) :
    k0_pay3 x r b (ix2 p q) = (∑ k : Fin 128, x (ix2 p k) * r (ix2 k q)) + b (ix1 q) := by
  unfold k0_pay3 k0_pay1
  rw [addf_apply, bcast_row, mm_apply]
  rfl

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The first result as one function of the arrays x, the column and W, index by index: row i₀ of x against column
    i₁ of W, scaled by the row's entry of the column. -/
abbrev G5 (X : S50000x128.Idx → EReal) (D : S50000x1.Idx → EReal) (W : S128x128.Idx → EReal) : S50000x128.Idx → EReal :=
  fun i => D (ix2 (i 0) 0) * ∑ k : Fin 128, X (ix2 (i 0) k) * W (ix2 k (i 1))

/-- The second result as one function of the arrays x, R and the bias: row i₀ of x against column i₁ of R, plus the
    bias entry i₁. -/
abbrev G6 (X : S50000x128.Idx → EReal) (R : S128x128.Idx → EReal) (b : S128.Idx → EReal) : S50000x128.Idx → EReal :=
  fun i => (∑ k : Fin 128, X (ix2 (i 0) k) * R (ix2 k (i 1))) + b (ix1 (i 1))

/-- The first stored value at (p, q) of a block is `G5` at an array index `i` once the loaded blocks read the arrays
    along row `i 0` and column `i 1`. -/
theorem pay2_at (X : S50000x128.Idx → EReal) (D : S50000x1.Idx → EReal) (W : S128x128.Idx → EReal)
    (x : Vec Ideal S5000x128 .f32) (w : Vec Ideal S128x128 .f32) (d : Vec Ideal S5000x1 .f32)
    (i : S50000x128.Idx) (p : Fin 5000) (q : Fin 128)
    (hx : ∀ k : Fin 128, x (ix2 p k) = X (ix2 (i 0) k))
    (hw : ∀ k : Fin 128, w (ix2 k q) = W (ix2 k (i 1)))
    (hd : d (ix2 p 0) = D (ix2 (i 0) 0)) :
    k0_pay2 x w d (ix2 p q) = G5 X D W i := by
  rw [pay2_apply, hd]
  exact congrArg _ (Finset.sum_congr rfl fun k _ => by rw [hx k, hw k])

/-- The second stored value at (p, q) of a block is `G6` at an array index `i` likewise. -/
theorem pay3_at (X : S50000x128.Idx → EReal) (R : S128x128.Idx → EReal) (B : S128.Idx → EReal)
    (x : Vec Ideal S5000x128 .f32) (r : Vec Ideal S128x128 .f32) (b : Vec Ideal S128 .f32)
    (i : S50000x128.Idx) (p : Fin 5000) (q : Fin 128)
    (hx : ∀ k : Fin 128, x (ix2 p k) = X (ix2 (i 0) k))
    (hr : ∀ k : Fin 128, r (ix2 k q) = R (ix2 k (i 1)))
    (hb : b (ix1 q) = B (ix1 (i 1))) :
    k0_pay3 x r b (ix2 p q) = G6 X R B i := by
  rw [pay3_apply, hb]
  exact congrArg (· + _) (Finset.sum_congr rfl fun k _ => by rw [hx k, hr k])

/-- The seven windows' index maps over the ten grid points: the row-blocked windows are at block row t, block column
    0; the two matrices and the bias are one whole block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Where an element of output window 5's block at point t sits in the array: row 5000·t + p … -/
theorem emb5_0 (t : Fin cfg0.N) (p : Fin 5000) (q : Fin 128) :
    ((((cfg0.win 5).blk t).view.emb (ix2 p q)) 0).val = 5000 * t.val + p.val := by
  obtain ⟨-, -, -, -, -, -, -, -, -, e50, e51, -, -⟩ := idx_facts t
  show win0_5.index t (0 : Fin 2) * 5000 + 1 * p.val = _
  omega
/-- … lane q. -/
theorem emb5_1 (t : Fin cfg0.N) (p : Fin 5000) (q : Fin 128) :
    ((((cfg0.win 5).blk t).view.emb (ix2 p q)) 1).val = q.val := by
  obtain ⟨-, -, -, -, -, -, -, -, -, e50, e51, -, -⟩ := idx_facts t
  show win0_5.index t (1 : Fin 2) * 128 + 1 * q.val = _
  omega
/-- The same for output window 6. -/
theorem emb6_0 (t : Fin cfg0.N) (p : Fin 5000) (q : Fin 128) :
    ((((cfg0.win 6).blk t).view.emb (ix2 p q)) 0).val = 5000 * t.val + p.val := by
  obtain ⟨-, -, -, -, -, -, -, -, -, -, -, e60, e61⟩ := idx_facts t
  show win0_6.index t (0 : Fin 2) * 5000 + 1 * p.val = _
  omega
theorem emb6_1 (t : Fin cfg0.N) (p : Fin 5000) (q : Fin 128) :
    ((((cfg0.win 6).blk t).view.emb (ix2 p q)) 1).val = q.val := by
  obtain ⟨-, -, -, -, -, -, -, -, -, -, -, e60, e61⟩ := idx_facts t
  show win0_6.index t (1 : Fin 2) * 128 + 1 * q.val = _
  omega

/-- Window 0's block at point t, at (p, k), is x at row 5000·t + p, lane k. -/
theorem rdX (c : Dev nD) (t : Fin cfg0.N) (p : Fin 5000) (k : Fin 128) (i : S50000x128.Idx)
    (h : (i 0).val = 5000 * t.val + p.val) :
    iblk0 V c 0 t (ix2 p k) = V c (Pipeline.arrRef spec0 0) (ix2 (i 0) k) := by
  obtain ⟨e00, e01, -, -, -, -, -, -, -, -, -, -, -⟩ := idx_facts t
  show V c (Pipeline.arrRef spec0 0) (((cfg0.win 0).blk t).view.emb (ix2 p k)) = V c (Pipeline.arrRef spec0 0) (ix2 (i 0) k)
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = k.val; omega

/-- Window 1's block (a column) at point t, at row p, is the column at row 5000·t + p. -/
theorem rdD (c : Dev nD) (t : Fin cfg0.N) (p : Fin 5000) (i : S50000x128.Idx)
    (h : (i 0).val = 5000 * t.val + p.val) :
    iblk0 V c 1 t (ix2 p 0) = V c (Pipeline.arrRef spec0 1) (ix2 (i 0) 0) := by
  obtain ⟨-, -, e10, e11, -, -, -, -, -, -, -, -, -⟩ := idx_facts t
  show V c (Pipeline.arrRef spec0 1) (((cfg0.win 1).blk t).view.emb (ix2 p 0)) = V c (Pipeline.arrRef spec0 1) (ix2 (i 0) 0)
  refine congrArg _ (funext fun a => Fin.ext ?_)
  match a with
  | ⟨0, _⟩ => show win0_1.index t (0 : Fin 2) * 5000 + 1 * p.val = (i 0).val; omega
  | ⟨1, _⟩ => show win0_1.index t (1 : Fin 2) * 1 + 1 * 0 = 0; omega

/-- Window 2's one block is the whole matrix W. -/
theorem rdW (c : Dev nD) (t : Fin cfg0.N) (k q : Fin 128) (i : S50000x128.Idx) (h : (i 1).val = q.val) :
    iblk0 V c 2 t (ix2 k q) = V c (Pipeline.arrRef spec0 2) (ix2 k (i 1)) := by
  obtain ⟨-, -, -, -, e20, e21, -, -, -, -, -, -, -⟩ := idx_facts t
  show V c (Pipeline.arrRef spec0 2) (((cfg0.win 2).blk t).view.emb (ix2 k q)) = V c (Pipeline.arrRef spec0 2) (ix2 k (i 1))
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = (i 1).val; omega

/-- Window 3's one block is the whole matrix R. -/
theorem rdR (c : Dev nD) (t : Fin cfg0.N) (k q : Fin 128) (i : S50000x128.Idx) (h : (i 1).val = q.val) :
    iblk0 V c 3 t (ix2 k q) = V c (Pipeline.arrRef spec0 3) (ix2 k (i 1)) := by
  obtain ⟨-, -, -, -, -, -, e30, e31, -, -, -, -, -⟩ := idx_facts t
  show V c (Pipeline.arrRef spec0 3) (((cfg0.win 3).blk t).view.emb (ix2 k q)) = V c (Pipeline.arrRef spec0 3) (ix2 k (i 1))
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = (i 1).val; omega

/-- Window 4's one block is the whole bias vector. -/
theorem rdB (c : Dev nD) (t : Fin cfg0.N) (q : Fin 128) (i : S50000x128.Idx) (h : (i 1).val = q.val) :
    iblk0 V c 4 t (ix1 q) = V c (Pipeline.arrRef spec0 4) (ix1 (i 1)) := by
  obtain ⟨-, -, -, -, -, -, -, -, e40, -, -, -, -⟩ := idx_facts t
  show V c (Pipeline.arrRef spec0 4) (((cfg0.win 4).blk t).view.emb (ix1 q)) = V c (Pipeline.arrRef spec0 4) (ix1 (i 1))
  refine congrArg _ (funext fun a => Fin.ext ?_)
  match a with
  | ⟨0, _⟩ => show win0_4.index t (0 : Fin 1) * 128 + 1 * q.val = (i 1).val; omega

set_option maxHeartbeats 1000000 in
/-- What point t writes back through window 5 is block t of `G5` of the operand arrays as the region finds them. -/
theorem flushed5_eq (c : Dev nD) (t : Fin cfg0.N) :
    (dat0 (F := Ideal) V c).flushed 5 t = ((cfg0.win 5).blk t).view.read (Elt Ideal)
      (G5 (V c (Pipeline.arrRef spec0 0)) (V c (Pipeline.arrRef spec0 1)) (V c (Pipeline.arrRef spec0 2))) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  exact pay2_at (V c (Pipeline.arrRef spec0 0)) (V c (Pipeline.arrRef spec0 1)) (V c (Pipeline.arrRef spec0 2))
    (iblk0 V c 0 t) (iblk0 V c 2 t) (iblk0 V c 1 t) (((cfg0.win 5).blk t).view.emb (ix2 p q)) p q
    (fun k => rdX V c t p k _ (emb5_0 t p q)) (fun k => rdW V c t k q _ (emb5_1 t p q)) (rdD V c t p _ (emb5_0 t p q))

set_option maxHeartbeats 1000000 in
/-- What point t writes back through window 6 is block t of `G6` of the operand arrays as the region finds them. -/
theorem flushed6_eq (c : Dev nD) (t : Fin cfg0.N) :
    (dat0 (F := Ideal) V c).flushed 6 t = ((cfg0.win 6).blk t).view.read (Elt Ideal)
      (G6 (V c (Pipeline.arrRef spec0 0)) (V c (Pipeline.arrRef spec0 3)) (V c (Pipeline.arrRef spec0 4))) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  exact pay3_at (V c (Pipeline.arrRef spec0 0)) (V c (Pipeline.arrRef spec0 3)) (V c (Pipeline.arrRef spec0 4))
    (iblk0 V c 0 t) (iblk0 V c 3 t) (iblk0 V c 4 t) (((cfg0.win 6).blk t).view.emb (ix2 p q)) p q
    (fun k => rdX V c t p k _ (emb6_0 t p q)) (fun k => rdR V c t k q _ (emb6_1 t p q)) (rdB V c t q _ (emb6_1 t p q))

/-- An index of the array is in point t's block of window 5 iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15_0).slice (win0_5.rect t)).set ↔ _
  rw [View.set_slice_whole, Rect.mem_set_unit]
  exact Iff.rfl

/-- The same for window 6. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v15_1).slice (win0_6.rect t)).set ↔ _
  rw [View.set_slice_whole, Rect.mem_set_unit]
  exact Iff.rfl

/-- Row r of the first result lies in the block of point r / 5000: the ten blocks of 5000 rows tile the 50000 rows. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, e50, e51, -, -⟩ := idx_facts ⟨(i 0).val / 5000, hlt⟩
  refine ⟨⟨(i 0).val / 5000, hlt⟩, flush0_5 _, ?_⟩
  rw [mem_blk5]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; rw [e50]; show (i 0).val / 5000 * 5000 ≤ (i 0).val ∧ (i 0).val < (i 0).val / 5000 * 5000 + 5000; omega
  | ⟨1, _⟩ => show win0_5.index ⟨(i 0).val / 5000, hlt⟩ (1 : Fin 2) * 128 ≤ (i 1).val ∧ (i 1).val < win0_5.index ⟨(i 0).val / 5000, hlt⟩ (1 : Fin 2) * 128 + 128; rw [e51]; omega

/-- The same for the second result. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, -, e60, e61⟩ := idx_facts ⟨(i 0).val / 5000, hlt⟩
  refine ⟨⟨(i 0).val / 5000, hlt⟩, flush0_6 _, ?_⟩
  rw [mem_blk6]
  intro a
  match a with
  | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; rw [e60]; show (i 0).val / 5000 * 5000 ≤ (i 0).val ∧ (i 0).val < (i 0).val / 5000 * 5000 + 5000; omega
  | ⟨1, _⟩ => show win0_6.index ⟨(i 0).val / 5000, hlt⟩ (1 : Fin 2) * 128 ≤ (i 1).val ∧ (i 1).val < win0_6.index ⟨(i 0).val / 5000, hlt⟩ (1 : Fin 2) * 128 + 128; rw [e61]; omega

/-- THE FIRST RESULT ARRAY after the region: `G5` of the operand arrays as the region finds them. -/
theorem final5 (c : Dev nD) :
    (dat0 (F := Ideal) V c).arrAt 5 cfg0.N
      = G5 (V c (Pipeline.arrRef spec0 0)) (V c (Pipeline.arrRef spec0 1)) (V c (Pipeline.arrRef spec0 2)) :=
  (dat0 (F := Ideal) V c).arrAt_eq_of_cover 5 _ (fun t _ => flushed5_eq V c t) cover5

/-- THE SECOND RESULT ARRAY after the region: `G6` of the operand arrays as the region finds them. -/
theorem final6 (c : Dev nD) :
    (dat0 (F := Ideal) V c).arrAt 6 cfg0.N
      = G6 (V c (Pipeline.arrRef spec0 0)) (V c (Pipeline.arrRef spec0 3)) (V c (Pipeline.arrRef spec0 4)) :=
  (dat0 (F := Ideal) V c).arrAt_eq_of_cover 6 _ (fun t _ => flushed6_eq V c t) cover6

end Cert.KernelIdeal.Dense0

end
-- ==== Proof.DenseValue1.lean ====
/- The value of the fused dense layer (region 1 of the program: grid of 10 points, row blocks of
   5000). With A, Rt [50000,128], D [50000,1], W, R [128,128], b [128] the six input arrays as the region finds them, the
   region leaves in its two output arrays
     h (r, c)       = D r · Σ_k x (r, k) · W (k, c)
     newroot (r, c) = Σ_k x (r, k) · R (k, c) + b c
   where x (r, k) = max (D r · A (r, k) + Rt (r, k)) 0, every operation exact on the extended reals.
   First the body's three payloads at an index (the matrix product into the zero accumulator is the sum over the
   contracted axis; the column and row broadcasts read row r and column c); then each input block at point t as rows
   5000 t … 5000 t + 4999 of its array; then what point t writes back is block t of the two functions above, the ten
   blocks cover the rows (row r lies in block r / 5000), so the arrays end holding those functions. -/
import proofs.«153091_j996432413504_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense1

open Cert.KernelIdeal Cert.KernelIdeal.Gen

/-- A column `[a,1]` broadcast along the second axis to `[a,b]` reads, at `(p, q)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's rectified pre-activation at `(p, q)`: `max (d p · a (p, q) + r (p, q)) 0`. -/
theorem pay1_apply (v0 : Vec Ideal S5000x1 .f32) (v2 v6 : Vec Ideal S5000x128 .f32) (p : Fin 5000) (q : Fin 128) :
    k1_pay1 (F := Ideal) v0 v2 v6 (ix2 p q) = max (v0 (ix2 p (0 : Fin 1)) * v2 (ix2 p q) + v6 (ix2 p q)) 0 := by
  unfold k1_pay1
  simp only [shapeCast_self]
  rw [truncf_apply, maximumf_apply, addf_apply, mulf_apply, broadcast_apply]
  rw [broadcastTo_a1_ab_apply]
  exact congrArg (max (v0 (ix2 p (0 : Fin 1)) * v2 (ix2 p q) + v6 (ix2 p q))) Ideal.ofBits_zero_f32

abbrev DD := dot_S5000x128_S128x128_S5000x128_1_0_0_1_n_n

theorem lhs_0 (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_1 (i : S5000x128.Idx) (q : DD.contr.Idx) : (DD.lhsIdx i q 1).val = (q ⟨0, by decide⟩).val :=
  DD.lhsIdx_val_of_single rfl i q
theorem rhs_0 (i : S5000x128.Idx) (q : DD.contr.Idx) : (DD.rhsIdx i q 0).val = (q ⟨0, by decide⟩).val :=
  DD.rhsIdx_val_of_single rfl i q
theorem rhs_1 (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A `[5000,128] · [128,128]` product into the zero accumulator, at `(p, q)`: the sum over the contracted axis. -/
theorem matmul_zero_apply (l : FVec Ideal S5000x128 .bf16) (w : FVec Ideal S128x128 .bf16) (p : Fin 5000) (q : Fin 128) :
    matmul DD none l w (constant (F := Ideal) S5000x128 .f32 0x00000000#32) (ix2 p q) = ∑ k : Fin 128, l (ix2 p k) * w (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]

/-- The first stored block at `(p, q)`. -/
theorem pay2_apply (v0 : Vec Ideal S5000x1 .f32) (v2 v6 : Vec Ideal S5000x128 .f32) (v12 : Vec Ideal S128x128 .f32) (v19 : Vec Ideal S5000x1 .f32)
    (p : Fin 5000) (q : Fin 128) :
    k1_pay2 (F := Ideal) v0 v2 v6 v12 v19 (ix2 p q)
      = v19 (ix2 p (0 : Fin 1)) * ∑ k : Fin 128, max (v0 (ix2 p (0 : Fin 1)) * v2 (ix2 p k) + v6 (ix2 p k)) 0 * v12 (ix2 k q) := by
  unfold k1_pay2
  simp only [shapeCast_self]
  rw [mulf_apply, broadcastTo_a1_ab_apply]
  refine congrArg (v19 (ix2 p (0 : Fin 1)) * ·) ?_
  refine (matmul_zero_apply _ _ p q).trans ?_
  refine Finset.sum_congr rfl fun k _ => ?_
  rw [pay1_apply, truncf_apply]

/-- The second stored block at `(p, q)`. -/
theorem pay3_apply (v0 : Vec Ideal S5000x1 .f32) (v2 v6 : Vec Ideal S5000x128 .f32) (v15 : Vec Ideal S128x128 .f32) (v25 : Vec Ideal S128 .f32)
    (p : Fin 5000) (q : Fin 128) :
    k1_pay3 (F := Ideal) v0 v2 v6 v15 v25 (ix2 p q)
      = (∑ k : Fin 128, max (v0 (ix2 p (0 : Fin 1)) * v2 (ix2 p k) + v6 (ix2 p k)) 0 * v15 (ix2 k q)) + v25 (ix1 q) := by
  unfold k1_pay3
  simp only [shapeCast_self]
  rw [addf_apply, broadcastTo_1b_ab_apply, shapeCast_a_1a_apply]
  refine congrArg (· + v25 (ix1 q)) ?_
  refine (matmul_zero_apply _ _ p q).trans ?_
  refine Finset.sum_congr rfl fun k _ => ?_
  rw [pay1_apply, truncf_apply]

/-! ## From the blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- What the body leaves in the first output's staging buffer, from the input blocks, at `(p, q)`. -/
theorem out6_apply (x0 x1 : Vec Ideal S5000x128 .f32) (x2 : Vec Ideal S5000x1 .f32) (x3 x4 : Vec Ideal S128x128 .f32) (x5 : Vec Ideal S128 .f32)
    (p : Fin 5000) (q : Fin 128) :
    out1_6 (F := Ideal) x0 x1 x2 x3 x4 x5 (ix2 p q)
      = x2 (ix2 p (0 : Fin 1)) * ∑ k : Fin 128, max (x2 (ix2 p (0 : Fin 1)) * x0 (ix2 p k) + x1 (ix2 p k)) 0 * x3 (ix2 k q) := by
  unfold out1_6
  rw [View.canon_unit_zero hz2]
  simp only [View.ld_unit_zero (S := S5000x128) hz2, View.ld_unit_zero (S := S5000x1) hz2, View.ld_unit_zero (S := S128x128) hz2]
  exact pay2_apply _ _ _ _ _ p q

/-- What the body leaves in the second output's staging buffer, from the input blocks, at `(p, q)`. -/
theorem out7_apply (x0 x1 : Vec Ideal S5000x128 .f32) (x2 : Vec Ideal S5000x1 .f32) (x3 x4 : Vec Ideal S128x128 .f32) (x5 : Vec Ideal S128 .f32)
    (p : Fin 5000) (q : Fin 128) :
    out1_7 (F := Ideal) x0 x1 x2 x3 x4 x5 (ix2 p q)
      = (∑ k : Fin 128, max (x2 (ix2 p (0 : Fin 1)) * x0 (ix2 p k) + x1 (ix2 p k)) 0 * x4 (ix2 k q)) + x5 (ix1 q) := by
  unfold out1_7
  rw [View.canon_unit_zero hz2]
  simp only [View.ld_unit_zero (S := S5000x128) hz2, View.ld_unit_zero (S := S5000x1) hz2, View.ld_unit_zero (S := S128x128) hz2, View.ld_unit_zero (S := S128) hz1]
  exact pay3_apply _ _ _ _ _ p q

/-- The layer's rectified pre-activation from the aggregate `A`, the root term `Rt` and the scale column `D`. -/
def relu1 (A Rt : S50000x128.Idx → EReal) (D : S50000x1.Idx → EReal) : S50000x128.Idx → EReal :=
  fun i => max (D (ix2 (i 0) (0 : Fin 1)) * A i + Rt i) 0

/-- The first output: the scaled product of the activation with `W`. -/
def hOut (A Rt : S50000x128.Idx → EReal) (D : S50000x1.Idx → EReal) (W : S128x128.Idx → EReal) : S50000x128.Idx → EReal :=
  fun i => D (ix2 (i 0) (0 : Fin 1)) * ∑ k : Fin 128, relu1 A Rt D (ix2 (i 0) k) * W (ix2 k (i 1))

/-- The second output: the product of the activation with `R`, plus the bias row. -/
def rootOut (A Rt : S50000x128.Idx → EReal) (D : S50000x1.Idx → EReal) (R : S128x128.Idx → EReal) (b : S128.Idx → EReal) : S50000x128.Idx → EReal :=
  fun i => (∑ k : Fin 128, relu1 A Rt D (ix2 (i 0) k) * R (ix2 k (i 1))) + b (ix1 (i 1))

theorem relu1_apply (A Rt : S50000x128.Idx → EReal) (D : S50000x1.Idx → EReal) (i : S50000x128.Idx) :
    relu1 A Rt D i = max (D (ix2 (i 0) (0 : Fin 1)) * A i + Rt i) 0 := rfl
theorem hOut_apply (A Rt : S50000x128.Idx → EReal) (D : S50000x1.Idx → EReal) (W : S128x128.Idx → EReal) (i : S50000x128.Idx) :
    hOut A Rt D W i = D (ix2 (i 0) (0 : Fin 1)) * ∑ k : Fin 128, relu1 A Rt D (ix2 (i 0) k) * W (ix2 k (i 1)) := rfl
theorem rootOut_apply (A Rt : S50000x128.Idx → EReal) (D : S50000x1.Idx → EReal) (R : S128x128.Idx → EReal) (b : S128.Idx → EReal) (i : S50000x128.Idx) :
    rootOut A Rt D R b i = (∑ k : Fin 128, relu1 A Rt D (ix2 (i 0) k) * R (ix2 k (i 1))) + b (ix1 (i 1)) := rfl

section Arrays
variable (V : (c : Dev nD) → (b : Ref sig .tc) → Buf (Elt Ideal) ((c : Thread nD τ).loc b))

/-- The six window arrays as the region finds them. -/
abbrev arrA (c : Dev nD) : S50000x128.Idx → EReal := V c (Pipeline.arrRef spec1 0)
abbrev arrRt (c : Dev nD) : S50000x128.Idx → EReal := V c (Pipeline.arrRef spec1 1)
abbrev arrD (c : Dev nD) : S50000x1.Idx → EReal := V c (Pipeline.arrRef spec1 2)
abbrev arrW (c : Dev nD) : S128x128.Idx → EReal := V c (Pipeline.arrRef spec1 3)
abbrev arrR (c : Dev nD) : S128x128.Idx → EReal := V c (Pipeline.arrRef spec1 4)
abbrev arrB (c : Dev nD) : S128.Idx → EReal := V c (Pipeline.arrRef spec1 5)

/-- The printed index maps over the grid: the row windows sit at block `(t, 0)`, the whole-array windows at block zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ win1_5.index t (0 : Fin 1) = 0
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- Window 0's block at point `t` is rows `5000 t … 5000 t + 4999` of its array. -/
theorem blk0_apply (c : Dev nD) (t : Fin cfg1.N) (p : Fin 5000) (q : Fin 128) (r : Fin 50000) (hr : r.val = 5000 * t.val + p.val) :
    (iblk1 V c 0 t : Vec Ideal S5000x128 .f32) (ix2 p q) = arrA V c (ix2 r q) := by
  obtain ⟨⟨e0, e1⟩, -⟩ := idx_facts t
  show (V c (Pipeline.arrRef spec1 0) : S50000x128.Idx → EReal) (((cfg1.win 0).blk t).view.emb (ix2 p q)) = _
  refine congrArg (V c (Pipeline.arrRef spec1 0) : S50000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

theorem blk1_apply (c : Dev nD) (t : Fin cfg1.N) (p : Fin 5000) (q : Fin 128) (r : Fin 50000) (hr : r.val = 5000 * t.val + p.val) :
    (iblk1 V c 1 t : Vec Ideal S5000x128 .f32) (ix2 p q) = arrRt V c (ix2 r q) := by
  obtain ⟨-, ⟨e0, e1⟩, -⟩ := idx_facts t
  show (V c (Pipeline.arrRef spec1 1) : S50000x128.Idx → EReal) (((cfg1.win 1).blk t).view.emb (ix2 p q)) = _
  refine congrArg (V c (Pipeline.arrRef spec1 1) : S50000x128.Idx → EReal) (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

theorem blk2_apply (c : Dev nD) (t : Fin cfg1.N) (p : Fin 5000) (r : Fin 50000) (hr : r.val = 5000 * t.val + p.val) :
    (iblk1 V c 2 t : Vec Ideal S5000x1 .f32) (ix2 p (0 : Fin 1)) = arrD V c (ix2 r (0 : Fin 1)) := by
  obtain ⟨-, -, ⟨e0, e1⟩, -⟩ := idx_facts t
  show (V c (Pipeline.arrRef spec1 2) : S50000x1.Idx → EReal) (((cfg1.win 2).blk t).view.emb (ix2 p (0 : Fin 1))) = _
  refine congrArg (V c (Pipeline.arrRef spec1 2) : S50000x1.Idx → EReal) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

theorem blk3_apply (c : Dev nD) (t : Fin cfg1.N) (k q : Fin 128) :
    (iblk1 V c 3 t : Vec Ideal S128x128 .f32) (ix2 k q) = arrW V c (ix2 k q) := by
  obtain ⟨-, -, -, ⟨e0, e1⟩, -⟩ := idx_facts t
  show (V c (Pipeline.arrRef spec1 3) : S128x128.Idx → EReal) (((cfg1.win 3).blk t).view.emb (ix2 k q)) = _
  refine congrArg (V c (Pipeline.arrRef spec1 3) : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk4_apply (c : Dev nD) (t : Fin cfg1.N) (k q : Fin 128) :
    (iblk1 V c 4 t : Vec Ideal S128x128 .f32) (ix2 k q) = arrR V c (ix2 k q) := by
  obtain ⟨-, -, -, -, ⟨e0, e1⟩, -⟩ := idx_facts t
  show (V c (Pipeline.arrRef spec1 4) : S128x128.Idx → EReal) (((cfg1.win 4).blk t).view.emb (ix2 k q)) = _
  refine congrArg (V c (Pipeline.arrRef spec1 4) : S128x128.Idx → EReal) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem blk5_apply (c : Dev nD) (t : Fin cfg1.N) (q : Fin 128) :
    (iblk1 V c 5 t : Vec Ideal S128 .f32) (ix1 q) = arrB V c (ix1 q) := by
  obtain ⟨-, -, -, -, -, e0, -⟩ := idx_facts t
  show (V c (Pipeline.arrRef spec1 5) : S128.Idx → EReal) (((cfg1.win 5).blk t).view.emb (ix1 q)) = _
  refine congrArg (V c (Pipeline.arrRef spec1 5) : S128.Idx → EReal) (funext fun a => Fin.ext ?_)
  match a with
  | ⟨0, _⟩ => show win1_5.index t (0 : Fin 1) * 128 + 1 * q.val = q.val; omega

/-- What point `t` leaves for the first output at block index `y` is `hOut` at the array index `i` under it. -/
theorem point6 (c : Dev nD) (t : Fin cfg1.N) (y : S5000x128.Idx) (i : S50000x128.Idx)
    (h0 : (i 0).val = 5000 * t.val + (y 0).val) (h1 : (i 1).val = (y 1).val) :
    out1_6 (F := Ideal) (iblk1 V c 0 t) (iblk1 V c 1 t) (iblk1 V c 2 t) (iblk1 V c 3 t) (iblk1 V c 4 t) (iblk1 V c 5 t) y
      = hOut (arrA V c) (arrRt V c) (arrD V c) (arrW V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out6_apply _ _ _ _ _ _ p s).trans ?_
  show _ = arrD V c (ix2 r (0 : Fin 1)) * ∑ k : Fin 128, max (arrD V c (ix2 r (0 : Fin 1)) * arrA V c (ix2 r k) + arrRt V c (ix2 r k)) 0 * arrW V c (ix2 k s)
  rw [blk2_apply V c t p r hr]
  refine congrArg (arrD V c (ix2 r (0 : Fin 1)) * ·) (Finset.sum_congr rfl fun k _ => ?_)
  rw [blk0_apply V c t p k r hr, blk1_apply V c t p k r hr, blk3_apply V c t k s]

theorem point7 (c : Dev nD) (t : Fin cfg1.N) (y : S5000x128.Idx) (i : S50000x128.Idx)
    (h0 : (i 0).val = 5000 * t.val + (y 0).val) (h1 : (i 1).val = (y 1).val) :
    out1_7 (F := Ideal) (iblk1 V c 0 t) (iblk1 V c 1 t) (iblk1 V c 2 t) (iblk1 V c 3 t) (iblk1 V c 4 t) (iblk1 V c 5 t) y
      = rootOut (arrA V c) (arrRt V c) (arrD V c) (arrR V c) (arrB V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out7_apply _ _ _ _ _ _ p s).trans ?_
  show _ = (∑ k : Fin 128, max (arrD V c (ix2 r (0 : Fin 1)) * arrA V c (ix2 r k) + arrRt V c (ix2 r k)) 0 * arrR V c (ix2 k s)) + arrB V c (ix1 s)
  rw [blk5_apply V c t s, blk2_apply V c t p r hr]
  refine congrArg (· + arrB V c (ix1 s)) (Finset.sum_congr rfl fun k _ => ?_)
  rw [blk0_apply V c t p k r hr, blk1_apply V c t p k r hr, blk4_apply V c t k s]

/-- WHAT POINT `t` WRITES BACK to the first output is block `t` of `hOut` of the arrays as the region finds them. -/
theorem flushed6_eq (c : Dev nD) (t : Fin cfg1.N) :
    (dat1 V c).flushed 6 t = ((cfg1.win 6).blk t).view.read (Elt Ideal) (hOut (arrA V c) (arrRt V c) (arrD V c) (arrW V c)) := by
  show (cfg1.win 6).cut (grid1.coords t) ((dat1 V c).after 6 t) = _
  rw [after1_6]
  obtain ⟨-, -, -, -, -, -, ⟨e0, e1⟩, -⟩ := idx_facts t
  funext j
  show out1_6 (F := Ideal) (iblk1 V c 0 t) (iblk1 V c 1 t) (iblk1 V c 2 t) (iblk1 V c 3 t) (iblk1 V c 4 t) (iblk1 V c 5 t) ((cfg1.win 6).xinj (grid1.coords t) j)
    = hOut (arrA V c) (arrRt V c) (arrD V c) (arrW V c) (((cfg1.win 6).blk t).view.emb j)
  refine point6 V c t _ _ ?_ ?_
  · show win1_6.index t (0 : Fin 2) * 5000 + 1 * (j 0).val = 5000 * t.val + (j 0).val; omega
  · show win1_6.index t (1 : Fin 2) * 128 + 1 * (j 1).val = (j 1).val; omega

theorem flushed7_eq (c : Dev nD) (t : Fin cfg1.N) :
    (dat1 V c).flushed 7 t = ((cfg1.win 7).blk t).view.read (Elt Ideal) (rootOut (arrA V c) (arrRt V c) (arrD V c) (arrR V c) (arrB V c)) := by
  show (cfg1.win 7).cut (grid1.coords t) ((dat1 V c).after 7 t) = _
  rw [after1_7]
  obtain ⟨-, -, -, -, -, -, -, ⟨e0, e1⟩⟩ := idx_facts t
  funext j
  show out1_7 (F := Ideal) (iblk1 V c 0 t) (iblk1 V c 1 t) (iblk1 V c 2 t) (iblk1 V c 3 t) (iblk1 V c 4 t) (iblk1 V c 5 t) ((cfg1.win 7).xinj (grid1.coords t) j)
    = rootOut (arrA V c) (arrRt V c) (arrD V c) (arrR V c) (arrB V c) (((cfg1.win 7).blk t).view.emb j)
  refine point7 V c t _ _ ?_ ?_
  · show win1_7.index t (0 : Fin 2) * 5000 + 1 * (j 0).val = 5000 * t.val + (j 0).val; omega
  · show win1_7.index t (1 : Fin 2) * 128 + 1 * (j 1).val = (j 1).val; omega

/-- An index of the first output's array is in point `t`'s block iff each coordinate is in the block's range. -/
theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32_0).slice (win1_6.rect t)).set ↔ _
  rw [View.set_slice_whole, Rect.mem_set_unit]
  exact Iff.rfl

theorem mem_blk7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v32_1).slice (win1_7.rect t)).set ↔ _
  rw [View.set_slice_whole, Rect.mem_set_unit]
  exact Iff.rfl

/-- Row `r` of the first output is written back by point `r / 5000`. -/
theorem cover6 (i : S50000x128.Idx) : ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, ⟨e0, e1⟩, -⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem cover7 (i : S50000x128.Idx) : ∃ t : Fin cfg1.N, (cfg1.win 7).flush t = true ∧ i ∈ ((cfg1.win 7).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, ⟨e0, e1⟩⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE FIRST OUTPUT ARRAY after the region: `hOut` of the six window arrays as the region finds them. -/
theorem final6 (c : Dev nD) :
    (dat1 (F := Ideal) V c).arrAt 6 cfg1.N = hOut (arrA V c) (arrRt V c) (arrD V c) (arrW V c) :=
  (dat1 V c).arrAt_eq_of_cover 6 _ (fun t _ => flushed6_eq V c t) cover6

/-- THE SECOND OUTPUT ARRAY after the region: `rootOut` of the six window arrays as the region finds them. -/
theorem final7 (c : Dev nD) :
    (dat1 (F := Ideal) V c).arrAt 7 cfg1.N = rootOut (arrA V c) (arrRt V c) (arrD V c) (arrR V c) (arrB V c) :=
  (dat1 V c).arrAt_eq_of_cover 7 _ (fun t _ => flushed7_eq V c t) cover7

/-- The same two posts with the functions written out index by index. -/
theorem final6_fun (c : Dev nD) :
    (dat1 (F := Ideal) V c).arrAt 6 cfg1.N = fun i : S50000x128.Idx => arrD V c (ix2 (i 0) (0 : Fin 1)) * ∑ k : Fin 128, relu1 (arrA V c) (arrRt V c) (arrD V c) (ix2 (i 0) k) * arrW V c (ix2 k (i 1)) :=
  final6 V c
theorem final7_fun (c : Dev nD) :
    (dat1 (F := Ideal) V c).arrAt 7 cfg1.N = fun i : S50000x128.Idx => (∑ k : Fin 128, relu1 (arrA V c) (arrRt V c) (arrD V c) (ix2 (i 0) k) * arrR V c (ix2 k (i 1))) + arrB V c (ix1 (i 1)) :=
  final7 V c

end Arrays

end Cert.KernelIdeal.Dense1
end
-- ==== Proof.DenseValue2.lean ====
/- The value of the fused dense layer (region 2 of the program: grid of 10 points, row blocks of
   5000). With A, Rt [50000,128], D [50000,1], W, R [128,128], b [128] the six input arrays as the region finds them, the
   region leaves in its two output arrays
     h (r, c)       = D r · Σ_k x (r, k) · W (k, c)
     newroot (r, c) = Σ_k x (r, k) · R (k, c) + b c
   where x (r, k) = max (D r · A (r, k) + Rt (r, k)) 0, every operation exact on the extended reals.
   First the body's three payloads at an index (the matrix product into the zero accumulator is the sum over the
   contracted axis; the column and row broadcasts read row r and column c); then each input block at point t as rows
   5000 t … 5000 t + 4999 of its array; then what point t writes back is block t of the two functions above, the ten
   blocks cover the rows (row r lies in block r / 5000), so the arrays end holding those functions. -/
import proofs.«153091_j996432413504_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense2

open Cert.KernelIdeal Cert.KernelIdeal.Gen

/-- A column `[a,1]` broadcast along the second axis to `[a,b]` reads, at `(p, q)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's rectified pre-activation at `(p, q)`: `max (d p · a (p, q) + r (p, q)) 0`. -/
theorem pay1_apply (v0 : Vec Ideal S5000x1 .f32) (v2 v6 : Vec Ideal S5000x128 .f32) (p : Fin 5000) (q : Fin 128) :
    k2_pay1 (F := Ideal) v0 v2 v6 (ix2 p q) = max (v0 (ix2 p (0 : Fin 1)) * v2 (ix2 p q) + v6 (ix2 p q)) 0 := by
  unfold k2_pay1
  simp only [shapeCast_self]
  rw [truncf_apply, maximumf_apply, addf_apply, mulf_apply, broadcast_apply]
  rw [broadcastTo_a1_ab_apply]
  exact congrArg (max (v0 (ix2 p (0 : Fin 1)) * v2 (ix2 p q) + v6 (ix2 p q))) Ideal.ofBits_zero_f32

abbrev DD := dot_S5000x128_S128x128_S5000x128_1_0_0_1_n_n

theorem lhs_0 (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_1 (i : S5000x128.Idx) (q : DD.contr.Idx) : (DD.lhsIdx i q 1).val = (q ⟨0, by decide⟩).val :=
  DD.lhsIdx_val_of_single rfl i q
theorem rhs_0 (i : S5000x128.Idx) (q : DD.contr.Idx) : (DD.rhsIdx i q 0).val = (q ⟨0, by decide⟩).val :=
  DD.rhsIdx_val_of_single rfl i q
theorem rhs_1 (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A `[5000,128] · [128,128]` product into the zero accumulator, at `(p, q)`: the sum over the contracted axis. -/
theorem matmul_zero_apply (l : FVec Ideal S5000x128 .bf16) (w : FVec Ideal S128x128 .bf16) (p : Fin 5000) (q : Fin 128) :
    matmul DD none l w (constant (F := Ideal) S5000x128 .f32 0x00000000#32) (ix2 p q) = ∑ k : Fin 128, l (ix2 p k) * w (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]

/-- The first stored block at `(p, q)`. -/
theorem pay2_apply (v0 : Vec Ideal S5000x1 .f32) (v2 v6 : Vec Ideal S5000x128 .f32) (v12 : Vec Ideal S128x128 .f32) (v19 : Vec Ideal S5000x1 .f32)
    (p : Fin 5000) (q : Fin 128) :
    k2_pay2 (F := Ideal) v0 v2 v6 v12 v19 (ix2 p q)
      = v19 (ix2 p (0 : Fin 1)) * ∑ k : Fin 128, max (v0 (ix2 p (0 : Fin 1)) * v2 (ix2 p k) + v6 (ix2 p k)) 0 * v12 (ix2 k q) := by
  unfold k2_pay2
  simp only [shapeCast_self]
  rw [mulf_apply, broadcastTo_a1_ab_apply]
  refine congrArg (v19 (ix2 p (0 : Fin 1)) * ·) ?_
  refine (matmul_zero_apply _ _ p q).trans ?_
  refine Finset.sum_congr rfl fun k _ => ?_
  rw [pay1_apply, truncf_apply]

/-- The second stored block at `(p, q)`. -/
theorem pay3_apply (v0 : Vec Ideal S5000x1 .f32) (v2 v6 : Vec Ideal S5000x128 .f32) (v15 : Vec Ideal S128x128 .f32) (v25 : Vec Ideal S128 .f32)
    (p : Fin 5000) (q : Fin 128) :
    k2_pay3 (F := Ideal) v0 v2 v6 v15 v25 (ix2 p q)
      = (∑ k : Fin 128, max (v0 (ix2 p (0 : Fin 1)) * v2 (ix2 p k) + v6 (ix2 p k)) 0 * v15 (ix2 k q)) + v25 (ix1 q) := by
  unfold k2_pay3
  simp only [shapeCast_self]
  rw [addf_apply, broadcastTo_1b_ab_apply, shapeCast_a_1a_apply]
  refine congrArg (· + v25 (ix1 q)) ?_
  refine (matmul_zero_apply _ _ p q).trans ?_
  refine Finset.sum_congr rfl fun k _ => ?_
  rw [pay1_apply, truncf_apply]

/-! ## From the blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- What the body leaves in the first output's staging buffer, from the input blocks, at `(p, q)`. -/
theorem out6_apply (x0 x1 : Vec Ideal S5000x128 .f32) (x2 : Vec Ideal S5000x1 .f32) (x3 x4 : Vec Ideal S128x128 .f32) (x5 : Vec Ideal S128 .f32)
    (p : Fin 5000) (q : Fin 128) :
    out2_6 (F := Ideal) x0 x1 x2 x3 x4 x5 (ix2 p q)
      = x2 (ix2 p (0 : Fin 1)) * ∑ k : Fin 128, max (x2 (ix2 p (0 : Fin 1)) * x0 (ix2 p k) + x1 (ix2 p k)) 0 * x3 (ix2 k q) := by
  unfold out2_6
  rw [View.canon_unit_zero hz2]
  simp only [View.ld_unit_zero (S := S5000x128) hz2, View.ld_unit_zero (S := S5000x1) hz2, View.ld_unit_zero (S := S128x128) hz2]
  exact pay2_apply _ _ _ _ _ p q

/-- What the body leaves in the second output's staging buffer, from the input blocks, at `(p, q)`. -/
theorem out7_apply (x0 x1 : Vec Ideal S5000x128 .f32) (x2 : Vec Ideal S5000x1 .f32) (x3 x4 : Vec Ideal S128x128 .f32) (x5 : Vec Ideal S128 .f32)
    (p : Fin 5000) (q : Fin 128) :
    out2_7 (F := Ideal) x0 x1 x2 x3 x4 x5 (ix2 p q)
      = (∑ k : Fin 128, max (x2 (ix2 p (0 : Fin 1)) * x0 (ix2 p k) + x1 (ix2 p k)) 0 * x4 (ix2 k q)) + x5 (ix1 q) := by
  unfold out2_7
  rw [View.canon_unit_zero hz2]
  simp only [View.ld_unit_zero (S := S5000x128) hz2, View.ld_unit_zero (S := S5000x1) hz2, View.ld_unit_zero (S := S128x128) hz2, View.ld_unit_zero (S := S128) hz1]
  exact pay3_apply _ _ _ _ _ p q

/-- The layer's rectified pre-activation from the aggregate `A`, the root term `Rt` and the scale column `D`. -/
def relu1 (A Rt : S50000x128.Idx → EReal) (D : S50000x1.Idx → EReal) : S50000x128.Idx → EReal :=
  fun i => max (D (ix2 (i 0) (0 : Fin 1)) * A i + Rt i) 0

/-- The first output: the scaled product of the activation with `W`. -/
def hOut (A Rt : S50000x128.Idx → EReal) (D : S50000x1.Idx → EReal) (W : S128x128.Idx → EReal) : S50000x128.Idx → EReal :=
  fun i => D (ix2 (i 0) (0 : Fin 1)) * ∑ k : Fin 128, relu1 A Rt D (ix2 (i 0) k) * W (ix2 k (i 1))

/-- The second output: the product of the activation with `R`, plus the bias row. -/
def rootOut (A Rt : S50000x128.Idx → EReal) (D : S50000x1.Idx → EReal) (R : S128x128.Idx → EReal) (b : S128.Idx → EReal) : S50000x128.Idx → EReal :=
  fun i => (∑ k : Fin 128, relu1 A Rt D (ix2 (i 0) k) * R (ix2 k (i 1))) + b (ix1 (i 1))

theorem relu1_apply (A Rt : S50000x128.Idx → EReal) (D : S50000x1.Idx → EReal) (i : S50000x128.Idx) :
    relu1 A Rt D i = max (D (ix2 (i 0) (0 : Fin 1)) * A i + Rt i) 0 := rfl
theorem hOut_apply (A Rt : S50000x128.Idx → EReal) (D : S50000x1.Idx → EReal) (W : S128x128.Idx → EReal) (i : S50000x128.Idx) :
    hOut A Rt D W i = D (ix2 (i 0) (0 : Fin 1)) * ∑ k : Fin 128, relu1 A Rt D (ix2 (i 0) k) * W (ix2 k (i 1)) := rfl
theorem rootOut_apply (A Rt : S50000x128.Idx → EReal) (D : S50000x1.Idx → EReal) (R : S128x128.Idx → EReal) (b : S128.Idx → EReal) (i : S50000x128.Idx) :
    rootOut A Rt D R b i = (∑ k : Fin 128, relu1 A Rt D (ix2 (i 0) k) * R (ix2 k (i 1))) + b (ix1 (i 1)) := rfl

section Arrays
variable (V : (c : Dev nD) → (b : Ref sig .tc) → Buf (Elt Ideal) ((c : Thread nD τ).loc b))

/-- The six window arrays as the region finds them. -/
abbrev arrA (c : Dev nD) : S50000x128.Idx → EReal := V c (Pipeline.arrRef spec2 0)
abbrev arrRt (c : Dev nD) : S50000x128.Idx → EReal := V c (Pipeline.arrRef spec2 1)
abbrev arrD (c : Dev nD) : S50000x1.Idx → EReal := V c (Pipeline.arrRef spec2 2)
abbrev arrW (c : Dev nD) : S128x128.Idx → EReal := V c (Pipeline.arrRef spec2 3)
abbrev arrR (c : Dev nD) : S128x128.Idx → EReal := V c (Pipeline.arrRef spec2 4)
abbrev arrB (c : Dev nD) : S128.Idx → EReal := V c (Pipeline.arrRef spec2 5)

/-- The printed index maps over the grid: the row windows sit at block `(t, 0)`, the whole-array windows at block zero. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ win2_5.index t (0 : Fin 1) = 0
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- Window 0's block at point `t` is rows `5000 t … 5000 t + 4999` of its array. -/
theorem blk0_apply (c : Dev nD) (t : Fin cfg2.N) (p : Fin 5000) (q : Fin 128) (r : Fin 50000) (hr : r.val = 5000 * t.val + p.val) :
    (iblk2 V c 0 t : Vec Ideal S5000x128 .f32) (ix2 p q) = arrA V c (ix2 r q) := by
  obtain ⟨⟨e0, e1⟩, -⟩ := idx_facts t
  show (V c (Pipeline.arrRef spec2 0) : S50000x128.Idx → EReal) (((cfg2.win 0).blk t).view.emb (ix2 p q)) = _
  refine congrArg (V c (Pipeline.arrRef spec2 0) : S50000x128.Idx → EReal) (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

theorem blk1_apply (c : Dev nD) (t : Fin cfg2.N) (p : Fin 5000) (q : Fin 128) (r : Fin 50000) (hr : r.val = 5000 * t.val + p.val) :
    (iblk2 V c 1 t : Vec Ideal S5000x128 .f32) (ix2 p q) = arrRt V c (ix2 r q) := by
  obtain ⟨-, ⟨e0, e1⟩, -⟩ := idx_facts t
  show (V c (Pipeline.arrRef spec2 1) : S50000x128.Idx → EReal) (((cfg2.win 1).blk t).view.emb (ix2 p q)) = _
  refine congrArg (V c (Pipeline.arrRef spec2 1) : S50000x128.Idx → EReal) (funext fun a => Fin.ext ?_)
  match a with
  | ⟨0, _⟩ => show win2_1.index t (0 : Fin 2) * 5000 + 1 * p.val = r.val; omega
  | ⟨1, _⟩ => show win2_1.index t (1 : Fin 2) * 128 + 1 * q.val = q.val; omega

theorem blk2_apply (c : Dev nD) (t : Fin cfg2.N) (p : Fin 5000) (r : Fin 50000) (hr : r.val = 5000 * t.val + p.val) :
    (iblk2 V c 2 t : Vec Ideal S5000x1 .f32) (ix2 p (0 : Fin 1)) = arrD V c (ix2 r (0 : Fin 1)) := by
  obtain ⟨-, -, ⟨e0, e1⟩, -⟩ := idx_facts t
  show (V c (Pipeline.arrRef spec2 2) : S50000x1.Idx → EReal) (((cfg2.win 2).blk t).view.emb (ix2 p (0 : Fin 1))) = _
  refine congrArg (V c (Pipeline.arrRef spec2 2) : S50000x1.Idx → EReal) (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

theorem blk3_apply (c : Dev nD) (t : Fin cfg2.N) (k q : Fin 128) :
    (iblk2 V c 3 t : Vec Ideal S128x128 .f32) (ix2 k q) = arrW V c (ix2 k q) := by
  obtain ⟨-, -, -, ⟨e0, e1⟩, -⟩ := idx_facts t
  show (V c (Pipeline.arrRef spec2 3) : S128x128.Idx → EReal) (((cfg2.win 3).blk t).view.emb (ix2 k q)) = _
  refine congrArg (V c (Pipeline.arrRef spec2 3) : S128x128.Idx → EReal) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk4_apply (c : Dev nD) (t : Fin cfg2.N) (k q : Fin 128) :
    (iblk2 V c 4 t : Vec Ideal S128x128 .f32) (ix2 k q) = arrR V c (ix2 k q) := by
  obtain ⟨-, -, -, -, ⟨e0, e1⟩, -⟩ := idx_facts t
  show (V c (Pipeline.arrRef spec2 4) : S128x128.Idx → EReal) (((cfg2.win 4).blk t).view.emb (ix2 k q)) = _
  refine congrArg (V c (Pipeline.arrRef spec2 4) : S128x128.Idx → EReal) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

theorem blk5_apply (c : Dev nD) (t : Fin cfg2.N) (q : Fin 128) :
    (iblk2 V c 5 t : Vec Ideal S128 .f32) (ix1 q) = arrB V c (ix1 q) := by
  obtain ⟨-, -, -, -, -, e0, -⟩ := idx_facts t
  show (V c (Pipeline.arrRef spec2 5) : S128.Idx → EReal) (((cfg2.win 5).blk t).view.emb (ix1 q)) = _
  refine congrArg (V c (Pipeline.arrRef spec2 5) : S128.Idx → EReal) (funext fun a => Fin.ext ?_)
  match a with
  | ⟨0, _⟩ => show win2_5.index t (0 : Fin 1) * 128 + 1 * q.val = q.val; omega

/-- What point `t` leaves for the first output at block index `y` is `hOut` at the array index `i` under it. -/
theorem point6 (c : Dev nD) (t : Fin cfg2.N) (y : S5000x128.Idx) (i : S50000x128.Idx)
    (h0 : (i 0).val = 5000 * t.val + (y 0).val) (h1 : (i 1).val = (y 1).val) :
    out2_6 (F := Ideal) (iblk2 V c 0 t) (iblk2 V c 1 t) (iblk2 V c 2 t) (iblk2 V c 3 t) (iblk2 V c 4 t) (iblk2 V c 5 t) y
      = hOut (arrA V c) (arrRt V c) (arrD V c) (arrW V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out6_apply _ _ _ _ _ _ p s).trans ?_
  show _ = arrD V c (ix2 r (0 : Fin 1)) * ∑ k : Fin 128, max (arrD V c (ix2 r (0 : Fin 1)) * arrA V c (ix2 r k) + arrRt V c (ix2 r k)) 0 * arrW V c (ix2 k s)
  rw [blk2_apply V c t p r hr]
  refine congrArg (arrD V c (ix2 r (0 : Fin 1)) * ·) (Finset.sum_congr rfl fun k _ => ?_)
  rw [blk0_apply V c t p k r hr, blk1_apply V c t p k r hr, blk3_apply V c t k s]

theorem point7 (c : Dev nD) (t : Fin cfg2.N) (y : S5000x128.Idx) (i : S50000x128.Idx)
    (h0 : (i 0).val = 5000 * t.val + (y 0).val) (h1 : (i 1).val = (y 1).val) :
    out2_7 (F := Ideal) (iblk2 V c 0 t) (iblk2 V c 1 t) (iblk2 V c 2 t) (iblk2 V c 3 t) (iblk2 V c 4 t) (iblk2 V c 5 t) y
      = rootOut (arrA V c) (arrRt V c) (arrD V c) (arrR V c) (arrB V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out7_apply _ _ _ _ _ _ p s).trans ?_
  show _ = (∑ k : Fin 128, max (arrD V c (ix2 r (0 : Fin 1)) * arrA V c (ix2 r k) + arrRt V c (ix2 r k)) 0 * arrR V c (ix2 k s)) + arrB V c (ix1 s)
  rw [blk5_apply V c t s, blk2_apply V c t p r hr]
  refine congrArg (· + arrB V c (ix1 s)) (Finset.sum_congr rfl fun k _ => ?_)
  rw [blk0_apply V c t p k r hr, blk1_apply V c t p k r hr, blk4_apply V c t k s]

/-- WHAT POINT `t` WRITES BACK to the first output is block `t` of `hOut` of the arrays as the region finds them. -/
theorem flushed6_eq (c : Dev nD) (t : Fin cfg2.N) :
    (dat2 V c).flushed 6 t = ((cfg2.win 6).blk t).view.read (Elt Ideal) (hOut (arrA V c) (arrRt V c) (arrD V c) (arrW V c)) := by
  show (cfg2.win 6).cut (grid2.coords t) ((dat2 V c).after 6 t) = _
  rw [after2_6]
  obtain ⟨-, -, -, -, -, -, ⟨e0, e1⟩, -⟩ := idx_facts t
  funext j
  show out2_6 (F := Ideal) (iblk2 V c 0 t) (iblk2 V c 1 t) (iblk2 V c 2 t) (iblk2 V c 3 t) (iblk2 V c 4 t) (iblk2 V c 5 t) ((cfg2.win 6).xinj (grid2.coords t) j)
    = hOut (arrA V c) (arrRt V c) (arrD V c) (arrW V c) (((cfg2.win 6).blk t).view.emb j)
  refine point6 V c t _ _ ?_ ?_
  · show win2_6.index t (0 : Fin 2) * 5000 + 1 * (j 0).val = 5000 * t.val + (j 0).val; omega
  · show win2_6.index t (1 : Fin 2) * 128 + 1 * (j 1).val = (j 1).val; omega

theorem flushed7_eq (c : Dev nD) (t : Fin cfg2.N) :
    (dat2 V c).flushed 7 t = ((cfg2.win 7).blk t).view.read (Elt Ideal) (rootOut (arrA V c) (arrRt V c) (arrD V c) (arrR V c) (arrB V c)) := by
  show (cfg2.win 7).cut (grid2.coords t) ((dat2 V c).after 7 t) = _
  rw [after2_7]
  obtain ⟨-, -, -, -, -, -, -, ⟨e0, e1⟩⟩ := idx_facts t
  funext j
  show out2_7 (F := Ideal) (iblk2 V c 0 t) (iblk2 V c 1 t) (iblk2 V c 2 t) (iblk2 V c 3 t) (iblk2 V c 4 t) (iblk2 V c 5 t) ((cfg2.win 7).xinj (grid2.coords t) j)
    = rootOut (arrA V c) (arrRt V c) (arrD V c) (arrR V c) (arrB V c) (((cfg2.win 7).blk t).view.emb j)
  refine point7 V c t _ _ ?_ ?_
  · show win2_7.index t (0 : Fin 2) * 5000 + 1 * (j 0).val = 5000 * t.val + (j 0).val; omega
  · show win2_7.index t (1 : Fin 2) * 128 + 1 * (j 1).val = (j 1).val; omega

/-- An index of the first output's array is in point `t`'s block iff each coordinate is in the block's range. -/
theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v49_0).slice (win2_6.rect t)).set ↔ _
  rw [View.set_slice_whole, Rect.mem_set_unit]
  exact Iff.rfl

theorem mem_blk7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v49_1).slice (win2_7.rect t)).set ↔ _
  rw [View.set_slice_whole, Rect.mem_set_unit]
  exact Iff.rfl

/-- Row `r` of the first output is written back by point `r / 5000`. -/
theorem cover6 (i : S50000x128.Idx) : ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, ⟨e0, e1⟩, -⟩ := idx_facts t
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

theorem cover7 (i : S50000x128.Idx) : ∃ t : Fin cfg2.N, (cfg2.win 7).flush t = true ∧ i ∈ ((cfg2.win 7).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, -, ⟨e0, e1⟩⟩ := idx_facts t
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- THE FIRST OUTPUT ARRAY after the region: `hOut` of the six window arrays as the region finds them. -/
theorem final6 (c : Dev nD) :
    (dat2 (F := Ideal) V c).arrAt 6 cfg2.N = hOut (arrA V c) (arrRt V c) (arrD V c) (arrW V c) :=
  (dat2 V c).arrAt_eq_of_cover 6 _ (fun t _ => flushed6_eq V c t) cover6

/-- THE SECOND OUTPUT ARRAY after the region: `rootOut` of the six window arrays as the region finds them. -/
theorem final7 (c : Dev nD) :
    (dat2 (F := Ideal) V c).arrAt 7 cfg2.N = rootOut (arrA V c) (arrRt V c) (arrD V c) (arrR V c) (arrB V c) :=
  (dat2 V c).arrAt_eq_of_cover 7 _ (fun t _ => flushed7_eq V c t) cover7

/-- The same two posts with the functions written out index by index. -/
theorem final6_fun (c : Dev nD) :
    (dat2 (F := Ideal) V c).arrAt 6 cfg2.N = fun i : S50000x128.Idx => arrD V c (ix2 (i 0) (0 : Fin 1)) * ∑ k : Fin 128, relu1 (arrA V c) (arrRt V c) (arrD V c) (ix2 (i 0) k) * arrW V c (ix2 k (i 1)) :=
  final6 V c
theorem final7_fun (c : Dev nD) :
    (dat2 (F := Ideal) V c).arrAt 7 cfg2.N = fun i : S50000x128.Idx => (∑ k : Fin 128, relu1 (arrA V c) (arrRt V c) (arrD V c) (ix2 (i 0) k) * arrR V c (ix2 k (i 1))) + arrB V c (ix1 (i 1)) :=
  final7 V c

end Arrays

end Cert.KernelIdeal.Dense2
end
-- ==== Proof.DenseValue3.lean ====
/- The value of the fused dense layer (region 3 of the program: grid of 10 points, row blocks of
   5000). With A, Rt [50000,128], D [50000,1], W, R [128,128], b [128] the six input arrays as the region finds them, the
   region leaves in its two output arrays
     h (r, c)       = D r · Σ_k x (r, k) · W (k, c)
     newroot (r, c) = Σ_k x (r, k) · R (k, c) + b c
   where x (r, k) = max (D r · A (r, k) + Rt (r, k)) 0, every operation exact on the extended reals.
   First the body's three payloads at an index (the matrix product into the zero accumulator is the sum over the
   contracted axis; the column and row broadcasts read row r and column c); then each input block at point t as rows
   5000 t … 5000 t + 4999 of its array; then what point t writes back is block t of the two functions above, the ten
   blocks cover the rows (row r lies in block r / 5000), so the arrays end holding those functions. -/
import proofs.«153091_j996432413504_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense3

open Cert.KernelIdeal Cert.KernelIdeal.Gen

/-- A column `[a,1]` broadcast along the second axis to `[a,b]` reads, at `(p, q)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's rectified pre-activation at `(p, q)`: `max (d p · a (p, q) + r (p, q)) 0`. -/
theorem pay1_apply (v0 : Vec Ideal S5000x1 .f32) (v2 v6 : Vec Ideal S5000x128 .f32) (p : Fin 5000) (q : Fin 128) :
    k3_pay1 (F := Ideal) v0 v2 v6 (ix2 p q) = max (v0 (ix2 p (0 : Fin 1)) * v2 (ix2 p q) + v6 (ix2 p q)) 0 := by
  unfold k3_pay1
  simp only [shapeCast_self]
  rw [truncf_apply, maximumf_apply, addf_apply, mulf_apply, broadcast_apply]
  rw [broadcastTo_a1_ab_apply]
  exact congrArg (max (v0 (ix2 p (0 : Fin 1)) * v2 (ix2 p q) + v6 (ix2 p q))) Ideal.ofBits_zero_f32

abbrev DD := dot_S5000x128_S128x128_S5000x128_1_0_0_1_n_n

theorem lhs_0 (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_1 (i : S5000x128.Idx) (q : DD.contr.Idx) : (DD.lhsIdx i q 1).val = (q ⟨0, by decide⟩).val :=
  DD.lhsIdx_val_of_single rfl i q
theorem rhs_0 (i : S5000x128.Idx) (q : DD.contr.Idx) : (DD.rhsIdx i q 0).val = (q ⟨0, by decide⟩).val :=
  DD.rhsIdx_val_of_single rfl i q
theorem rhs_1 (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A `[5000,128] · [128,128]` product into the zero accumulator, at `(p, q)`: the sum over the contracted axis. -/
theorem matmul_zero_apply (l : FVec Ideal S5000x128 .bf16) (w : FVec Ideal S128x128 .bf16) (p : Fin 5000) (q : Fin 128) :
    matmul DD none l w (constant (F := Ideal) S5000x128 .f32 0x00000000#32) (ix2 p q) = ∑ k : Fin 128, l (ix2 p k) * w (ix2 k q) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 k q := funext fun a => Fin.ext (by
    match a with
    | ⟨0, _⟩ => exact (rhs_0 _ _).trans hk
    | ⟨1, _⟩ => exact rhs_1 _ _)
  rw [el, er]

/-- The first stored block at `(p, q)`. -/
theorem pay2_apply (v0 : Vec Ideal S5000x1 .f32) (v2 v6 : Vec Ideal S5000x128 .f32) (v12 : Vec Ideal S128x128 .f32) (v19 : Vec Ideal S5000x1 .f32)
    (p : Fin 5000) (q : Fin 128) :
    k3_pay2 (F := Ideal) v0 v2 v6 v12 v19 (ix2 p q)
      = v19 (ix2 p (0 : Fin 1)) * ∑ k : Fin 128, max (v0 (ix2 p (0 : Fin 1)) * v2 (ix2 p k) + v6 (ix2 p k)) 0 * v12 (ix2 k q) := by
  unfold k3_pay2
  simp only [shapeCast_self]
  rw [mulf_apply, broadcastTo_a1_ab_apply]
  refine congrArg (v19 (ix2 p (0 : Fin 1)) * ·) ?_
  refine (matmul_zero_apply _ _ p q).trans ?_
  refine Finset.sum_congr rfl fun k _ => ?_
  rw [pay1_apply, truncf_apply]

/-- The second stored block at `(p, q)`. -/
theorem pay3_apply (v0 : Vec Ideal S5000x1 .f32) (v2 v6 : Vec Ideal S5000x128 .f32) (v15 : Vec Ideal S128x128 .f32) (v25 : Vec Ideal S128 .f32)
    (p : Fin 5000) (q : Fin 128) :
    k3_pay3 (F := Ideal) v0 v2 v6 v15 v25 (ix2 p q)
      = (∑ k : Fin 128, max (v0 (ix2 p (0 : Fin 1)) * v2 (ix2 p k) + v6 (ix2 p k)) 0 * v15 (ix2 k q)) + v25 (ix1 q) := by
  unfold k3_pay3
  simp only [shapeCast_self]
  rw [addf_apply, broadcastTo_1b_ab_apply, shapeCast_a_1a_apply]
  refine congrArg (· + v25 (ix1 q)) ?_
  refine (matmul_zero_apply _ _ p q).trans ?_
  refine Finset.sum_congr rfl fun k _ => ?_
  rw [pay1_apply, truncf_apply]

/-! ## From the blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- What the body leaves in the first output's staging buffer, from the input blocks, at `(p, q)`. -/
theorem out6_apply (x0 x1 : Vec Ideal S5000x128 .f32) (x2 : Vec Ideal S5000x1 .f32) (x3 x4 : Vec Ideal S128x128 .f32) (x5 : Vec Ideal S128 .f32)
    (p : Fin 5000) (q : Fin 128) :
    out3_6 (F := Ideal) x0 x1 x2 x3 x4 x5 (ix2 p q)
      = x2 (ix2 p (0 : Fin 1)) * ∑ k : Fin 128, max (x2 (ix2 p (0 : Fin 1)) * x0 (ix2 p k) + x1 (ix2 p k)) 0 * x3 (ix2 k q) := by
  unfold out3_6
  rw [View.canon_unit_zero hz2]
  simp only [View.ld_unit_zero (S := S5000x128) hz2, View.ld_unit_zero (S := S5000x1) hz2, View.ld_unit_zero (S := S128x128) hz2]
  exact pay2_apply _ _ _ _ _ p q

/-- What the body leaves in the second output's staging buffer, from the input blocks, at `(p, q)`. -/
theorem out7_apply (x0 x1 : Vec Ideal S5000x128 .f32) (x2 : Vec Ideal S5000x1 .f32) (x3 x4 : Vec Ideal S128x128 .f32) (x5 : Vec Ideal S128 .f32)
    (p : Fin 5000) (q : Fin 128) :
    out3_7 (F := Ideal) x0 x1 x2 x3 x4 x5 (ix2 p q)
      = (∑ k : Fin 128, max (x2 (ix2 p (0 : Fin 1)) * x0 (ix2 p k) + x1 (ix2 p k)) 0 * x4 (ix2 k q)) + x5 (ix1 q) := by
  unfold out3_7
  rw [View.canon_unit_zero hz2]
  simp only [View.ld_unit_zero (S := S5000x128) hz2, View.ld_unit_zero (S := S5000x1) hz2, View.ld_unit_zero (S := S128x128) hz2, View.ld_unit_zero (S := S128) hz1]
  exact pay3_apply _ _ _ _ _ p q

/-- The layer's rectified pre-activation from the aggregate `A`, the root term `Rt` and the scale column `D`. -/
def relu1 (A Rt : S50000x128.Idx → EReal) (D : S50000x1.Idx → EReal) : S50000x128.Idx → EReal :=
  fun i => max (D (ix2 (i 0) (0 : Fin 1)) * A i + Rt i) 0

/-- The first output: the scaled product of the activation with `W`. -/
def hOut (A Rt : S50000x128.Idx → EReal) (D : S50000x1.Idx → EReal) (W : S128x128.Idx → EReal) : S50000x128.Idx → EReal :=
  fun i => D (ix2 (i 0) (0 : Fin 1)) * ∑ k : Fin 128, relu1 A Rt D (ix2 (i 0) k) * W (ix2 k (i 1))

/-- The second output: the product of the activation with `R`, plus the bias row. -/
def rootOut (A Rt : S50000x128.Idx → EReal) (D : S50000x1.Idx → EReal) (R : S128x128.Idx → EReal) (b : S128.Idx → EReal) : S50000x128.Idx → EReal :=
  fun i => (∑ k : Fin 128, relu1 A Rt D (ix2 (i 0) k) * R (ix2 k (i 1))) + b (ix1 (i 1))

theorem relu1_apply (A Rt : S50000x128.Idx → EReal) (D : S50000x1.Idx → EReal) (i : S50000x128.Idx) :
    relu1 A Rt D i = max (D (ix2 (i 0) (0 : Fin 1)) * A i + Rt i) 0 := rfl
theorem hOut_apply (A Rt : S50000x128.Idx → EReal) (D : S50000x1.Idx → EReal) (W : S128x128.Idx → EReal) (i : S50000x128.Idx) :
    hOut A Rt D W i = D (ix2 (i 0) (0 : Fin 1)) * ∑ k : Fin 128, relu1 A Rt D (ix2 (i 0) k) * W (ix2 k (i 1)) := rfl
theorem rootOut_apply (A Rt : S50000x128.Idx → EReal) (D : S50000x1.Idx → EReal) (R : S128x128.Idx → EReal) (b : S128.Idx → EReal) (i : S50000x128.Idx) :
    rootOut A Rt D R b i = (∑ k : Fin 128, relu1 A Rt D (ix2 (i 0) k) * R (ix2 k (i 1))) + b (ix1 (i 1)) := rfl

section Arrays
variable (V : (c : Dev nD) → (b : Ref sig .tc) → Buf (Elt Ideal) ((c : Thread nD τ).loc b))

/-- The six window arrays as the region finds them. -/
abbrev arrA (c : Dev nD) : S50000x128.Idx → EReal := V c (Pipeline.arrRef spec3 0)
abbrev arrRt (c : Dev nD) : S50000x128.Idx → EReal := V c (Pipeline.arrRef spec3 1)
abbrev arrD (c : Dev nD) : S50000x1.Idx → EReal := V c (Pipeline.arrRef spec3 2)
abbrev arrW (c : Dev nD) : S128x128.Idx → EReal := V c (Pipeline.arrRef spec3 3)
abbrev arrR (c : Dev nD) : S128x128.Idx → EReal := V c (Pipeline.arrRef spec3 4)
abbrev arrB (c : Dev nD) : S128.Idx → EReal := V c (Pipeline.arrRef spec3 5)

/-- The printed index maps over the grid: the row windows sit at block `(t, 0)`, the whole-array windows at block zero. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ win3_5.index t (0 : Fin 1) = 0
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

/-- Window 0's block at point `t` is rows `5000 t … 5000 t + 4999` of its array. -/
theorem blk0_apply (c : Dev nD) (t : Fin cfg3.N) (p : Fin 5000) (q : Fin 128) (r : Fin 50000) (hr : r.val = 5000 * t.val + p.val) :
    (iblk3 V c 0 t : Vec Ideal S5000x128 .f32) (ix2 p q) = arrA V c (ix2 r q) := by
  obtain ⟨⟨e0, e1⟩, -⟩ := idx_facts t
  show (V c (Pipeline.arrRef spec3 0) : S50000x128.Idx → EReal) (((cfg3.win 0).blk t).view.emb (ix2 p q)) = _
  refine congrArg (V c (Pipeline.arrRef spec3 0) : S50000x128.Idx → EReal) (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

theorem blk1_apply (c : Dev nD) (t : Fin cfg3.N) (p : Fin 5000) (q : Fin 128) (r : Fin 50000) (hr : r.val = 5000 * t.val + p.val) :
    (iblk3 V c 1 t : Vec Ideal S5000x128 .f32) (ix2 p q) = arrRt V c (ix2 r q) := by
  obtain ⟨-, ⟨e0, e1⟩, -⟩ := idx_facts t
  show (V c (Pipeline.arrRef spec3 1) : S50000x128.Idx → EReal) (((cfg3.win 1).blk t).view.emb (ix2 p q)) = _
  refine congrArg (V c (Pipeline.arrRef spec3 1) : S50000x128.Idx → EReal) (funext fun a => Fin.ext ?_)
  match a with
  | ⟨0, _⟩ => show win3_1.index t (0 : Fin 2) * 5000 + 1 * p.val = r.val; omega
  | ⟨1, _⟩ => show win3_1.index t (1 : Fin 2) * 128 + 1 * q.val = q.val; omega

theorem blk2_apply (c : Dev nD) (t : Fin cfg3.N) (p : Fin 5000) (r : Fin 50000) (hr : r.val = 5000 * t.val + p.val) :
    (iblk3 V c 2 t : Vec Ideal S5000x1 .f32) (ix2 p (0 : Fin 1)) = arrD V c (ix2 r (0 : Fin 1)) := by
  obtain ⟨-, -, ⟨e0, e1⟩, -⟩ := idx_facts t
  show (V c (Pipeline.arrRef spec3 2) : S50000x1.Idx → EReal) (((cfg3.win 2).blk t).view.emb (ix2 p (0 : Fin 1))) = _
  refine congrArg (V c (Pipeline.arrRef spec3 2) : S50000x1.Idx → EReal) (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

theorem blk3_apply (c : Dev nD) (t : Fin cfg3.N) (k q : Fin 128) :
    (iblk3 V c 3 t : Vec Ideal S128x128 .f32) (ix2 k q) = arrW V c (ix2 k q) := by
  obtain ⟨-, -, -, ⟨e0, e1⟩, -⟩ := idx_facts t
  show (V c (Pipeline.arrRef spec3 3) : S128x128.Idx → EReal) (((cfg3.win 3).blk t).view.emb (ix2 k q)) = _
  refine congrArg (V c (Pipeline.arrRef spec3 3) : S128x128.Idx → EReal) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

theorem blk4_apply (c : Dev nD) (t : Fin cfg3.N) (k q : Fin 128) :
    (iblk3 V c 4 t : Vec Ideal S128x128 .f32) (ix2 k q) = arrR V c (ix2 k q) := by
  obtain ⟨-, -, -, -, ⟨e0, e1⟩, -⟩ := idx_facts t
  show (V c (Pipeline.arrRef spec3 4) : S128x128.Idx → EReal) (((cfg3.win 4).blk t).view.emb (ix2 k q)) = _
  refine congrArg (V c (Pipeline.arrRef spec3 4) : S128x128.Idx → EReal) (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

theorem blk5_apply (c : Dev nD) (t : Fin cfg3.N) (q : Fin 128) :
    (iblk3 V c 5 t : Vec Ideal S128 .f32) (ix1 q) = arrB V c (ix1 q) := by
  obtain ⟨-, -, -, -, -, e0, -⟩ := idx_facts t
  show (V c (Pipeline.arrRef spec3 5) : S128.Idx → EReal) (((cfg3.win 5).blk t).view.emb (ix1 q)) = _
  refine congrArg (V c (Pipeline.arrRef spec3 5) : S128.Idx → EReal) (funext fun a => Fin.ext ?_)
  match a with
  | ⟨0, _⟩ => show win3_5.index t (0 : Fin 1) * 128 + 1 * q.val = q.val; omega

/-- What point `t` leaves for the first output at block index `y` is `hOut` at the array index `i` under it. -/
theorem point6 (c : Dev nD) (t : Fin cfg3.N) (y : S5000x128.Idx) (i : S50000x128.Idx)
    (h0 : (i 0).val = 5000 * t.val + (y 0).val) (h1 : (i 1).val = (y 1).val) :
    out3_6 (F := Ideal) (iblk3 V c 0 t) (iblk3 V c 1 t) (iblk3 V c 2 t) (iblk3 V c 3 t) (iblk3 V c 4 t) (iblk3 V c 5 t) y
      = hOut (arrA V c) (arrRt V c) (arrD V c) (arrW V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out6_apply _ _ _ _ _ _ p s).trans ?_
  show _ = arrD V c (ix2 r (0 : Fin 1)) * ∑ k : Fin 128, max (arrD V c (ix2 r (0 : Fin 1)) * arrA V c (ix2 r k) + arrRt V c (ix2 r k)) 0 * arrW V c (ix2 k s)
  rw [blk2_apply V c t p r hr]
  refine congrArg (arrD V c (ix2 r (0 : Fin 1)) * ·) (Finset.sum_congr rfl fun k _ => ?_)
  rw [blk0_apply V c t p k r hr, blk1_apply V c t p k r hr, blk3_apply V c t k s]

theorem point7 (c : Dev nD) (t : Fin cfg3.N) (y : S5000x128.Idx) (i : S50000x128.Idx)
    (h0 : (i 0).val = 5000 * t.val + (y 0).val) (h1 : (i 1).val = (y 1).val) :
    out3_7 (F := Ideal) (iblk3 V c 0 t) (iblk3 V c 1 t) (iblk3 V c 2 t) (iblk3 V c 3 t) (iblk3 V c 4 t) (iblk3 V c 5 t) y
      = rootOut (arrA V c) (arrRt V c) (arrD V c) (arrR V c) (arrB V c) i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * t.val + p.val := h0
  obtain rfl : s = q := Fin.ext h1
  refine (out7_apply _ _ _ _ _ _ p s).trans ?_
  show _ = (∑ k : Fin 128, max (arrD V c (ix2 r (0 : Fin 1)) * arrA V c (ix2 r k) + arrRt V c (ix2 r k)) 0 * arrR V c (ix2 k s)) + arrB V c (ix1 s)
  rw [blk5_apply V c t s, blk2_apply V c t p r hr]
  refine congrArg (· + arrB V c (ix1 s)) (Finset.sum_congr rfl fun k _ => ?_)
  rw [blk0_apply V c t p k r hr, blk1_apply V c t p k r hr, blk4_apply V c t k s]

/-- WHAT POINT `t` WRITES BACK to the first output is block `t` of `hOut` of the arrays as the region finds them. -/
theorem flushed6_eq (c : Dev nD) (t : Fin cfg3.N) :
    (dat3 V c).flushed 6 t = ((cfg3.win 6).blk t).view.read (Elt Ideal) (hOut (arrA V c) (arrRt V c) (arrD V c) (arrW V c)) := by
  show (cfg3.win 6).cut (grid3.coords t) ((dat3 V c).after 6 t) = _
  rw [after3_6]
  obtain ⟨-, -, -, -, -, -, ⟨e0, e1⟩, -⟩ := idx_facts t
  funext j
  show out3_6 (F := Ideal) (iblk3 V c 0 t) (iblk3 V c 1 t) (iblk3 V c 2 t) (iblk3 V c 3 t) (iblk3 V c 4 t) (iblk3 V c 5 t) ((cfg3.win 6).xinj (grid3.coords t) j)
    = hOut (arrA V c) (arrRt V c) (arrD V c) (arrW V c) (((cfg3.win 6).blk t).view.emb j)
  refine point6 V c t _ _ ?_ ?_
  · show win3_6.index t (0 : Fin 2) * 5000 + 1 * (j 0).val = 5000 * t.val + (j 0).val; omega
  · show win3_6.index t (1 : Fin 2) * 128 + 1 * (j 1).val = (j 1).val; omega

theorem flushed7_eq (c : Dev nD) (t : Fin cfg3.N) :
    (dat3 V c).flushed 7 t = ((cfg3.win 7).blk t).view.read (Elt Ideal) (rootOut (arrA V c) (arrRt V c) (arrD V c) (arrR V c) (arrB V c)) := by
  show (cfg3.win 7).cut (grid3.coords t) ((dat3 V c).after 7 t) = _
  rw [after3_7]
  obtain ⟨-, -, -, -, -, -, -, ⟨e0, e1⟩⟩ := idx_facts t
  funext j
  show out3_7 (F := Ideal) (iblk3 V c 0 t) (iblk3 V c 1 t) (iblk3 V c 2 t) (iblk3 V c 3 t) (iblk3 V c 4 t) (iblk3 V c 5 t) ((cfg3.win 7).xinj (grid3.coords t) j)
    = rootOut (arrA V c) (arrRt V c) (arrD V c) (arrR V c) (arrB V c) (((cfg3.win 7).blk t).view.emb j)
  refine point7 V c t _ _ ?_ ?_
  · show win3_7.index t (0 : Fin 2) * 5000 + 1 * (j 0).val = 5000 * t.val + (j 0).val; omega
  · show win3_7.index t (1 : Fin 2) * 128 + 1 * (j 1).val = (j 1).val; omega

/-- An index of the first output's array is in point `t`'s block iff each coordinate is in the block's range. -/
theorem mem_blk6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v66_0).slice (win3_6.rect t)).set ↔ _
  rw [View.set_slice_whole, Rect.mem_set_unit]
  exact Iff.rfl

theorem mem_blk7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v66_1).slice (win3_7.rect t)).set ↔ _
  rw [View.set_slice_whole, Rect.mem_set_unit]
  exact Iff.rfl

/-- Row `r` of the first output is written back by point `r / 5000`. -/
theorem cover6 (i : S50000x128.Idx) : ∃ t : Fin cfg3.N, (cfg3.win 6).flush t = true ∧ i ∈ ((cfg3.win 6).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, ⟨e0, e1⟩, -⟩ := idx_facts t
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

theorem cover7 (i : S50000x128.Idx) : ∃ t : Fin cfg3.N, (cfg3.win 7).flush t = true ∧ i ∈ ((cfg3.win 7).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, -, ⟨e0, e1⟩⟩ := idx_facts t
  refine ⟨t, flush3_7 t, ?_⟩
  rw [mem_blk7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- THE FIRST OUTPUT ARRAY after the region: `hOut` of the six window arrays as the region finds them. -/
theorem final6 (c : Dev nD) :
    (dat3 (F := Ideal) V c).arrAt 6 cfg3.N = hOut (arrA V c) (arrRt V c) (arrD V c) (arrW V c) :=
  (dat3 V c).arrAt_eq_of_cover 6 _ (fun t _ => flushed6_eq V c t) cover6

/-- THE SECOND OUTPUT ARRAY after the region: `rootOut` of the six window arrays as the region finds them. -/
theorem final7 (c : Dev nD) :
    (dat3 (F := Ideal) V c).arrAt 7 cfg3.N = rootOut (arrA V c) (arrRt V c) (arrD V c) (arrR V c) (arrB V c) :=
  (dat3 V c).arrAt_eq_of_cover 7 _ (fun t _ => flushed7_eq V c t) cover7

/-- The same two posts with the functions written out index by index. -/
theorem final6_fun (c : Dev nD) :
    (dat3 (F := Ideal) V c).arrAt 6 cfg3.N = fun i : S50000x128.Idx => arrD V c (ix2 (i 0) (0 : Fin 1)) * ∑ k : Fin 128, relu1 (arrA V c) (arrRt V c) (arrD V c) (ix2 (i 0) k) * arrW V c (ix2 k (i 1)) :=
  final6 V c
theorem final7_fun (c : Dev nD) :
    (dat3 (F := Ideal) V c).arrAt 7 cfg3.N = fun i : S50000x128.Idx => (∑ k : Fin 128, relu1 (arrA V c) (arrRt V c) (arrD V c) (ix2 (i 0) k) * arrR V c (ix2 k (i 1))) + arrB V c (ix1 (i 1)) :=
  final7 V c

end Arrays

end Cert.KernelIdeal.Dense3
end
-- ==== Proof.DenseValue4.lean ====
/-
  The fifth region of the kernel program (the final epilogue of the graph layers), read as a value.

  The region walks ten grid points; at point t every window's block is rows 5000·t … 5000·t + 4999 of its array
  (all 128 lanes, or the one lane of the column). The body is pointwise: it scales the aggregate block by the
  column block broadcast along the lanes, adds the root block and clamps below at zero. So what point t writes
  back is block t of ONE function of the three operand arrays,

      G A Rt D i = max (D (i₀, 0) · A i + Rt i) 0,

  and since the ten row blocks tile the 50000 rows (row r lies in the block of point r / 5000) the output array
  ends holding G of the operand arrays as the region finds them. Everything is stated for arbitrary region-entry
  contents V and at the exact extended-real reading of the floats.
-/
import proofs.«153091_j996432413504_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense4

open Cert.KernelIdeal Cert.KernelIdeal.Gen

/-- A column [5000,1] broadcast along the 128 lanes reads, at row p, the column's entry of row p. -/
theorem bcast_col (d : Vec Ideal S5000x1 .f32) (h : S5000x1.Broadcasts S5000x128) (p : Fin 5000) (q : Fin 128) :
    broadcastTo S5000x128 d h (ix2 p q) = d (ix2 p 0) := by
  refine broadcastTo_apply d h (ix2 p q) (ix2 p 0) (fun a => ?_)
  match a with
  | ⟨0, _⟩ => rfl
  | ⟨1, _⟩ => rfl

/-- The body's stored value at row p, lane q: the scaled aggregate plus the root term, clamped below at zero. -/
theorem pay_apply (d : Vec Ideal S5000x1 .f32) (a r : Vec Ideal S5000x128 .f32) (p : Fin 5000) (q : Fin 128) :
    k4_pay1 d a r (ix2 p q) = max (d (ix2 p 0) * a (ix2 p q) + r (ix2 p q)) 0 := by
  unfold k4_pay1
  simp only [shapeCast_self]
  rw [maximumf_apply, addf_apply, mulf_apply, bcast_col, broadcast_apply]
  show max _ (Ideal.ofBits .f32 0x00000000#32) = _
  rw [Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The region's result as one function of its three operand arrays, index by index: row i's aggregate scaled by the
    row's entry of the column, plus the root term, clamped below at zero. -/
abbrev G (A Rt : S50000x128.Idx → EReal) (D : S50000x1.Idx → EReal) : S50000x128.Idx → EReal :=
  fun i => max (D (ix2 (i 0) 0) * A i + Rt i) 0

/-- The stored value at (p, q) of a block is `G` at an array index `i` as soon as the three loaded blocks read, at
    (p, q) and at (p, 0), the arrays at `i` and at row `i 0` of the column. -/
theorem pay_at (A Rt : S50000x128.Idx → EReal) (D : S50000x1.Idx → EReal)
    (d : Vec Ideal S5000x1 .f32) (a r : Vec Ideal S5000x128 .f32)
    (i : S50000x128.Idx) (p : Fin 5000) (q : Fin 128)
    (ha : a (ix2 p q) = A i) (hr : r (ix2 p q) = Rt i) (hd : d (ix2 p 0) = D (ix2 (i 0) 0)) :
    k4_pay1 d a r (ix2 p q) = G A Rt D i := by
  rw [pay_apply, ha, hr, hd]

/-- The four windows' index maps over the ten grid points: point t's block is block row t, block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Window 0's block at point t reads its array where the output's block sits. -/
theorem rd0 (c : Dev nD) (t : Fin cfg4.N) (p : Fin 5000) (q : Fin 128) :
    iblk4 V c 0 t (ix2 p q) = V c (Pipeline.arrRef spec4 0) (((cfg4.win 3).blk t).view.emb (ix2 p q)) := by
  obtain ⟨e00, e01, -, -, -, -, e30, e31⟩ := idx_facts t
  show V c (Pipeline.arrRef spec4 0) (((cfg4.win 0).blk t).view.emb (ix2 p q)) = V c (Pipeline.arrRef spec4 0) (((cfg4.win 3).blk t).view.emb (ix2 p q))
  refine congrArg _ (funext fun a => Fin.ext ?_)
  match a with
  | ⟨0, _⟩ => show win4_0.index t (0 : Fin 2) * 5000 + 1 * p.val = win4_3.index t (0 : Fin 2) * 5000 + 1 * p.val; omega
  | ⟨1, _⟩ => show win4_0.index t (1 : Fin 2) * 128 + 1 * q.val = win4_3.index t (1 : Fin 2) * 128 + 1 * q.val; omega

/-- Window 1's block at point t reads its array where the output's block sits. -/
theorem rd1 (c : Dev nD) (t : Fin cfg4.N) (p : Fin 5000) (q : Fin 128) :
    iblk4 V c 1 t (ix2 p q) = V c (Pipeline.arrRef spec4 1) (((cfg4.win 3).blk t).view.emb (ix2 p q)) := by
  obtain ⟨-, -, e10, e11, -, -, e30, e31⟩ := idx_facts t
  show V c (Pipeline.arrRef spec4 1) (((cfg4.win 1).blk t).view.emb (ix2 p q)) = V c (Pipeline.arrRef spec4 1) (((cfg4.win 3).blk t).view.emb (ix2 p q))
  refine congrArg _ (funext fun a => Fin.ext ?_)
  match a with
  | ⟨0, _⟩ => show win4_1.index t (0 : Fin 2) * 5000 + 1 * p.val = win4_3.index t (0 : Fin 2) * 5000 + 1 * p.val; omega
  | ⟨1, _⟩ => show win4_1.index t (1 : Fin 2) * 128 + 1 * q.val = win4_3.index t (1 : Fin 2) * 128 + 1 * q.val; omega

/-- Window 2's block (a column) at point t reads, at row p, its array at the row of the output's block. -/
theorem rd2 (c : Dev nD) (t : Fin cfg4.N) (p : Fin 5000) (q : Fin 128) :
    iblk4 V c 2 t (ix2 p 0) = V c (Pipeline.arrRef spec4 2) (ix2 ((((cfg4.win 3).blk t).view.emb (ix2 p q)) 0) 0) := by
  obtain ⟨-, -, -, -, e20, e21, e30, e31⟩ := idx_facts t
  show V c (Pipeline.arrRef spec4 2) (((cfg4.win 2).blk t).view.emb (ix2 p 0)) = V c (Pipeline.arrRef spec4 2) (ix2 ((((cfg4.win 3).blk t).view.emb (ix2 p q)) 0) 0)
  refine congrArg _ (funext fun a => Fin.ext ?_)
  match a with
  | ⟨0, _⟩ => show win4_2.index t (0 : Fin 2) * 5000 + 1 * p.val = win4_3.index t (0 : Fin 2) * 5000 + 1 * p.val; omega
  | ⟨1, _⟩ => show win4_2.index t (1 : Fin 2) * 1 + 1 * 0 = 0; omega

set_option maxHeartbeats 1000000 in
/-- What point t writes back is block t of `G` of the three operand arrays as the region finds them. -/
theorem flushed_eq (c : Dev nD) (t : Fin cfg4.N) :
    (dat4 (F := Ideal) V c).flushed 3 t = ((cfg4.win 3).blk t).view.read (Elt Ideal)
      (G (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 j⟩
  exact pay_at (V c (Pipeline.arrRef spec4 0)) (V c (Pipeline.arrRef spec4 1)) (V c (Pipeline.arrRef spec4 2))
    (iblk4 V c 2 t) (iblk4 V c 0 t) (iblk4 V c 1 t) (((cfg4.win 3).blk t).view.emb (ix2 p q)) p q
    (rd0 V c t p q) (rd1 V c t p q) (rd2 V c t p q)

/-- An index of the array is in point t's block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v77).slice (win4_3.rect t)).set ↔ _
  rw [View.set_slice_whole, Rect.mem_set_unit]
  exact Iff.rfl

/-- Row r of the array lies in the block of point r / 5000: the ten blocks of 5000 rows tile the 50000 rows. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, -, -, -, -, e30, e31⟩ := idx_facts ⟨(i 0).val / 5000, hlt⟩
  refine ⟨⟨(i 0).val / 5000, hlt⟩, flush4_3 _, ?_⟩
  rw [mem_blk]
  intro a
  match a with
  | ⟨0, _⟩ => show win4_3.index ⟨(i 0).val / 5000, hlt⟩ (0 : Fin 2) * 5000 ≤ (i 0).val ∧ (i 0).val < win4_3.index ⟨(i 0).val / 5000, hlt⟩ (0 : Fin 2) * 5000 + 5000; rw [e30]; show (i 0).val / 5000 * 5000 ≤ (i 0).val ∧ (i 0).val < (i 0).val / 5000 * 5000 + 5000; omega
  | ⟨1, _⟩ => show win4_3.index ⟨(i 0).val / 5000, hlt⟩ (1 : Fin 2) * 128 ≤ (i 1).val ∧ (i 1).val < win4_3.index ⟨(i 0).val / 5000, hlt⟩ (1 : Fin 2) * 128 + 128; rw [e31]; omega

/-- THE ARRAY the region leaves in its output window: `G` of the three operand arrays as the region finds them. -/
theorem final3 (c : Dev nD) :
    (dat4 (F := Ideal) V c).arrAt 3 cfg4.N
      = G (V c (Pipeline.arrRef spec4 0)) (V c (Pipeline.arrRef spec4 1)) (V c (Pipeline.arrRef spec4 2)) :=
  (dat4 (F := Ideal) V c).arrAt_eq_of_cover 3 _ (fun t _ => flushed_eq V c t) cover

end Cert.KernelIdeal.Dense4

end
-- ==== Proof.RefLayer.lean ====
/-
  One graph-convolution layer of the reference as a function of whole arrays, and its value at an index.

  A layer takes the node features X (50000 × 128), two weight matrices W and R (128 × 128), a bias b (128),
  the per-edge source and destination index columns (600000 × 1, 32-bit words) and the per-edge coefficient nv
  (600000), and returns  relu((A + X·R) + b)  where row r of A is the sum, over the edges e whose destination is r,
  of  nv e · (X·W)[source of e].  Which rows an edge reads and writes is left to the gather's operand index and the
  scatter's result index, as opaque functions of the index columns.
-/
import proofs.«153091_j996432413504_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Gen Idealize.ShloMosaic Idealize.ShloMosaic.ValueIdx
open scoped BigOperators

/-- One graph-convolution layer of the reference, as the composition of its whole-array host operations:
    relu((scatterAdd(0, dst, gather(X·W, src) ⊙ nv) + X·R) + b). -/
def refLayer (X : S50000x128.Idx → EReal) (W R : S128x128.Idx → EReal) (b : S128.Idx → EReal)
    (srcw dsti : IVec S600000x1 32) (nv : S600000.Idx → EReal) : S50000x128.Idx → EReal :=
  maximumf (F := Ideal) (φ := .f32)
    (addf (F := Ideal) (φ := .f32)
      (addf (F := Ideal) (φ := .f32)
        (Host.scatterAdd (F := Ideal) (φ := .f32) scatter_S50000x128_S600000x1_S600000x128_1_0_0_1
          (broadcastInDim S50000x128 ![] bcast_S_S50000x128 (constant (F := Ideal) S_ .f32 0x00000000#32))
          dsti
          (mulf (F := Ideal) (φ := .f32)
            (Host.gather gather_S50000x128_S600000x1_S600000x128_1_0_n_n_0_1_1128
              (Host.dotGeneral (F := Ideal) (φ₁ := .f32) (φ₂ := .f32) dot_S50000x128_S128x128_S50000x128_1_0_0_1_n_n none X W) srcw)
            (broadcastInDim S600000x128 ![0, 1] bcast_S600000x1_S600000x128_0_1
              (broadcastInDim S600000x1 ![0] bcast_S600000_S600000x1_0 nv))))
        (Host.dotGeneral (F := Ideal) (φ₁ := .f32) (φ₂ := .f32) dot_S50000x128_S128x128_S50000x128_1_0_0_1_n_n none X R))
      (broadcastInDim S50000x128 ![0, 1] bcast_S1x128_S50000x128_0_1
        (broadcastInDim S1x128 ![1] bcast_S128_S1x128_1 b)))
    (broadcastInDim S50000x128 ![] bcast_S_S50000x128 (constant (F := Ideal) S_ .f32 0x00000000#32))

/-- The layer's matrix product read at an index: row (i 0) of the left operand against column (i 1) of the right. -/
theorem dot_apply (X : S50000x128.Idx → EReal) (W : S128x128.Idx → EReal) (i : S50000x128.Idx) :
    Host.dotGeneral (F := Ideal) (φ₁ := .f32) (φ₂ := .f32) dot_S50000x128_S128x128_S50000x128_1_0_0_1_n_n none X W i
      = ∑ k : Fin 128, X (ix2 (i 0) k) * W (ix2 k (i 1)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (n0 := 50000) (n1 := 128) (i 0) k := funext fun a => Fin.ext (by
    match a with
    | ⟨0, _⟩ => rfl
    | ⟨1, _⟩ => exact (dot_S50000x128_S128x128_S50000x128_1_0_0_1_n_n.lhsIdx_val_of_single rfl i _).trans hk)
  have er : dot_S50000x128_S128x128_S50000x128_1_0_0_1_n_n.rhsIdx i ((ValueIdx.contrEquiv1 dot_S50000x128_S128x128_S50000x128_1_0_0_1_n_n 128 rfl rfl).symm k) = ix2 (n0 := 128) (n1 := 128) k (i 1) := funext fun a => Fin.ext (by
    match a with
    | ⟨0, _⟩ => exact (dot_S50000x128_S128x128_S50000x128_1_0_0_1_n_n.rhsIdx_val_of_single rfl i _).trans hk
    | ⟨1, _⟩ => rfl)
  rw [el, er]

/-- The broadcast zero constant is 0 at every index. -/
theorem zeros_apply (i : S50000x128.Idx) :
    broadcastInDim S50000x128 ![] bcast_S_S50000x128 (constant (F := Ideal) S_ .f32 0x00000000#32) i = (0 : EReal) := by
  rw [broadcastInDim_apply _ bcast_S_S50000x128 _ i ix0 (fun a => a.elim0), constant_apply, Ideal.ofBits_zero_f32]

/-- The bias broadcast along the rows reads the bias at the column. -/
theorem bias_apply (b : S128.Idx → EReal) (i : S50000x128.Idx) :
    broadcastInDim S50000x128 ![0, 1] bcast_S1x128_S50000x128_0_1 (broadcastInDim S1x128 ![1] bcast_S128_S1x128_1 b) i
      = b (ix1 (i 1)) := by
  rw [broadcastInDim_apply _ bcast_S1x128_S50000x128_0_1 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ bcast_S128_S1x128_1 b (ix2 (0 : Fin 1) (i 1)) (ix1 (i 1)) (fun a => match a with
      | ⟨0, _⟩ => by show (i 1).val = if (128 : Nat) = 1 then 0 else (i 1).val; rw [if_neg (by decide)])]

/-- The per-edge coefficient broadcast along the features reads the coefficient at the edge. -/
theorem coef_apply (nv : S600000.Idx → EReal) (j : S600000x128.Idx) :
    broadcastInDim S600000x128 ![0, 1] bcast_S600000x1_S600000x128_0_1 (broadcastInDim S600000x1 ![0] bcast_S600000_S600000x1_0 nv) j
      = nv (ix1 (j 0)) := by
  rw [broadcastInDim_apply _ bcast_S600000x1_S600000x128_0_1 _ j (ix2 (j 0) (0 : Fin 1)) (fun a => match a with
      | ⟨0, _⟩ => by show (j 0).val = if (600000 : Nat) = 1 then 0 else (j 0).val; rw [if_neg (by decide)]
      | ⟨1, _⟩ => by show 0 = if (1 : Nat) = 1 then 0 else (j 1).val; rw [if_pos rfl]),
    broadcastInDim_apply _ bcast_S600000_S600000x1_0 nv (ix2 (j 0) (0 : Fin 1)) (ix1 (j 0)) (fun a => match a with
      | ⟨0, _⟩ => by show (j 0).val = if (600000 : Nat) = 1 then 0 else (j 0).val; rw [if_neg (by decide)])]

/-- The accumulating scatter read at an index: the operand's element plus the sum of the updates that land on it. -/
theorem scatterAdd_apply (x : S50000x128.Idx → EReal) (idx : IVec S600000x1 32) (upd : S600000x128.Idx → EReal)
    (i : S50000x128.Idx) :
    Host.scatterAdd (F := Ideal) (φ := .f32) scatter_S50000x128_S600000x1_S600000x128_1_0_0_1 x idx upd i
      = x i + ∑ j ∈ Finset.univ.filter (fun j => scatter_S50000x128_S600000x1_S600000x128_1_0_0_1.resultIdx? j idx = some i), upd j :=
  rfl

/-- The row gather read at an index: the operand at the gather's operand index. -/
theorem gather_apply (x : S50000x128.Idx → EReal) (idx : IVec S600000x1 32) (j : S600000x128.Idx) :
    Host.gather gather_S50000x128_S600000x1_S600000x128_1_0_n_n_0_1_1128 x idx j
      = x (gather_S50000x128_S600000x1_S600000x128_1_0_n_n_0_1_1128.operandIdx j idx) :=
  rfl

/-- The scatter's update array at an index: the gathered row of X·W scaled by the edge's coefficient. -/
theorem upd_apply (X : S50000x128.Idx → EReal) (W : S128x128.Idx → EReal) (srcw : IVec S600000x1 32)
    (nv : S600000.Idx → EReal) (j : S600000x128.Idx) :
    mulf (F := Ideal) (φ := .f32)
        (Host.gather gather_S50000x128_S600000x1_S600000x128_1_0_n_n_0_1_1128
          (Host.dotGeneral (F := Ideal) (φ₁ := .f32) (φ₂ := .f32) dot_S50000x128_S128x128_S50000x128_1_0_0_1_n_n none X W) srcw)
        (broadcastInDim S600000x128 ![0, 1] bcast_S600000x1_S600000x128_0_1
          (broadcastInDim S600000x1 ![0] bcast_S600000_S600000x1_0 nv)) j
      = (∑ k : Fin 128,
            X (ix2 ((gather_S50000x128_S600000x1_S600000x128_1_0_n_n_0_1_1128.operandIdx j srcw) 0) k)
              * W (ix2 k ((gather_S50000x128_S600000x1_S600000x128_1_0_n_n_0_1_1128.operandIdx j srcw) 1)))
          * nv (ix1 (j 0)) := by
  rw [mulf_apply, coef_apply, gather_apply, dot_apply]

/-- One layer at an index: every update row that the scatter sends to row (i 0) contributes the gathered row of X·W
    scaled by the edge's coefficient; then the skip product X·R, the bias, and the rectifier. -/
theorem refLayer_apply (X : S50000x128.Idx → EReal) (W R : S128x128.Idx → EReal) (b : S128.Idx → EReal)
    (srcw dsti : IVec S600000x1 32) (nv : S600000.Idx → EReal) (i : S50000x128.Idx) :
    refLayer X W R b srcw dsti nv i =
      max (((0 + ∑ j ∈ Finset.univ.filter (fun j => scatter_S50000x128_S600000x1_S600000x128_1_0_0_1.resultIdx? j dsti = some i),
                (∑ k : Fin 128,
                    X (ix2 ((gather_S50000x128_S600000x1_S600000x128_1_0_n_n_0_1_1128.operandIdx j srcw) 0) k)
                      * W (ix2 k ((gather_S50000x128_S600000x1_S600000x128_1_0_n_n_0_1_1128.operandIdx j srcw) 1)))
                  * nv (ix1 (j 0)))
            + ∑ k : Fin 128, X (ix2 (i 0) k) * R (ix2 k (i 1)))
          + b (ix1 (i 1))) 0 := by
  unfold refLayer
  rw [maximumf_apply, addf_apply, addf_apply, zeros_apply, bias_apply, dot_apply, scatterAdd_apply, zeros_apply]
  rw [Finset.sum_congr rfl (fun j _ => upd_apply X W srcw nv j)]

end Cert.ReferenceIdeal.Layers
-- ==== Proof.ScaleLaw.lean ====
/-
  The one algebraic law of this certificate, on the extended reals.

  A graph-convolution layer sums, over the edges that end in a node `i`, the transformed features of the edge's
  source node scaled by `dinv src · dinv i`. One program scales every edge message by that product before the sum;
  the other scales the source rows by `dinv src` before the sum and the sum by `dinv i` after it. The two agree
  because `dinv i` is a NONNEGATIVE REAL: on the extended reals a nonnegative real factor distributes over a sum
  whatever the summands are (infinite ones included), while commutativity and associativity of the product hold
  unconditionally. No finiteness of the summed features is used.
-/
import Idealize.ShloMosaic.PureOps.Ideal

open scoped BigOperators

namespace Cert.ScaleLaw

/-- A nonnegative real factor distributes over a finite sum of extended reals. -/
theorem coe_mul_sum {ι : Type*} (s : Finset ι) (a : ℝ) (ha : 0 ≤ a) (f : ι → EReal) :
    (a : EReal) * ∑ j ∈ s, f j = ∑ j ∈ s, (a : EReal) * f j := by
  classical
  induction s using Finset.induction_on with
  | empty => simp
  | insert x s hx ih =>
    rw [Finset.sum_insert hx, Finset.sum_insert hx,
      EReal.left_distrib_of_nonneg_of_ne_top (by exact_mod_cast ha) (EReal.coe_ne_top a), ih]

/-- The layer's law. `d` is the scale of the receiving node, `ds j` the scale of the source of message `j`, `y j`
    the message, `nrm j` the per-message coefficient `ds j · d`: scaling the sources before the sum and the sum by
    `d` after it is the sum of the messages each scaled by its coefficient. -/
theorem scale_sum {ι : Type*} (s : Finset ι) (d : EReal) (hd : ∃ r : ℝ, 0 ≤ r ∧ d = (r : EReal))
    (ds y nrm : ι → EReal) (h : ∀ j ∈ s, nrm j = ds j * d) :
    d * (0 + ∑ j ∈ s, ds j * y j) = 0 + ∑ j ∈ s, y j * nrm j := by
  obtain ⟨r, hr, rfl⟩ := hd
  rw [zero_add, zero_add, coe_mul_sum s r hr]
  refine Finset.sum_congr rfl fun j hj => ?_
  rw [h j hj, mul_left_comm, mul_comm (y j), mul_assoc]

end Cert.ScaleLaw
-- ==== Proof.LayerLaw.lean ====
/-
  One graph-convolution layer: scaling at the nodes against scaling at the edges.

  With `D` the column of node scales, the idealized kernel computes a layer as
      rect (D ⊙ segSum (gather (D ⊙ (X·W)))) + (X·R + b)),   rect z = max z 0,
  scaling the rows of X·W by the scale of the SOURCE node before the gather and the segment sum by the scale of the
  RECEIVING node after it; the reference scales each gathered row by the edge's coefficient `nv e` and adds X·R and b
  one after the other. When `nv e` is the product of the two scales for every edge that reaches the node, and the
  scales are nonnegative reals, the two are one function: a nonnegative real factor distributes over the sum of the
  messages whatever their values (Proof/ScaleLaw.lean), and the sum of three terms does not depend on its bracketing.
-/
import proofs.«153091_j996432413504_2_alg».proof.Proof.RefLayer
import proofs.«153091_j996432413504_2_alg».proof.Proof.ScaleLaw

noncomputable section

namespace Cert.ReferenceIdeal.Layers

open Cert.ReferenceIdeal Cert.ReferenceIdeal.Gen Idealize.ShloMosaic Idealize.ShloMosaic.ValueIdx
open scoped BigOperators

/-- The rows of X·W, each scaled by its node's scale. -/
def srcScaled (D : S50000x1.Idx → EReal) (X : S50000x128.Idx → EReal) (W : S128x128.Idx → EReal) :
    S50000x128.Idx → EReal :=
  fun i => D (ix2 (i 0) (0 : Fin 1)) * ∑ k : Fin 128, X (ix2 (i 0) k) * W (ix2 k (i 1))

/-- The skip connection X·R + b. -/
def skip (X : S50000x128.Idx → EReal) (R : S128x128.Idx → EReal) (b : S128.Idx → EReal) : S50000x128.Idx → EReal :=
  fun i => (∑ k : Fin 128, X (ix2 (i 0) k) * R (ix2 k (i 1))) + b (ix1 (i 1))

/-- The segment sum over the edges of the gathered rows of `H`, from zero. -/
def segSum (H : S50000x128.Idx → EReal) (srcw dsti : IVec S600000x1 32) : S50000x128.Idx → EReal :=
  Host.scatterAdd (F := Ideal) (φ := .f32) scatter_S50000x128_S600000x1_S600000x128_1_0_0_1
    (broadcastInDim S50000x128 ![] bcast_S_S50000x128 (constant (F := Ideal) S_ .f32 0x00000000#32))
    dsti (Host.gather gather_S50000x128_S600000x1_S600000x128_1_0_n_n_0_1_1128 H srcw)

/-- The rectified sum of the node-scaled aggregate and the skip term. -/
def rect (A Rt : S50000x128.Idx → EReal) (D : S50000x1.Idx → EReal) : S50000x128.Idx → EReal :=
  fun i => max (D (ix2 (i 0) (0 : Fin 1)) * A i + Rt i) 0

/-- THE LAYER'S LAW: node-side scaling is edge-side scaling. -/
theorem layer_eq (X : S50000x128.Idx → EReal) (W R : S128x128.Idx → EReal) (b : S128.Idx → EReal)
    (srcw dsti : IVec S600000x1 32) (nv : S600000.Idx → EReal) (D : S50000x1.Idx → EReal)
    (hD : ∀ n : Fin 50000, ∃ r : ℝ, 0 ≤ r ∧ D (ix2 n (0 : Fin 1)) = (r : EReal))
    (hnv : ∀ (i : S50000x128.Idx) (j : S600000x128.Idx),
      scatter_S50000x128_S600000x1_S600000x128_1_0_0_1.resultIdx? j dsti = some i →
      nv (ix1 (j 0)) = D (ix2 ((gather_S50000x128_S600000x1_S600000x128_1_0_n_n_0_1_1128.operandIdx j srcw) 0) (0 : Fin 1))
        * D (ix2 (i 0) (0 : Fin 1))) :
    rect (segSum (srcScaled D X W) srcw dsti) (skip X R b) D = refLayer X W R b srcw dsti nv := by
  funext i
  rw [refLayer_apply]
  have key : D (ix2 (i 0) (0 : Fin 1)) *
        (0 + ∑ j ∈ Finset.univ.filter (fun j => scatter_S50000x128_S600000x1_S600000x128_1_0_0_1.resultIdx? j dsti = some i),
          D (ix2 ((gather_S50000x128_S600000x1_S600000x128_1_0_n_n_0_1_1128.operandIdx j srcw) 0) (0 : Fin 1)) *
            ∑ k : Fin 128, X (ix2 ((gather_S50000x128_S600000x1_S600000x128_1_0_n_n_0_1_1128.operandIdx j srcw) 0) k)
              * W (ix2 k ((gather_S50000x128_S600000x1_S600000x128_1_0_n_n_0_1_1128.operandIdx j srcw) 1)))
      = 0 + ∑ j ∈ Finset.univ.filter (fun j => scatter_S50000x128_S600000x1_S600000x128_1_0_0_1.resultIdx? j dsti = some i),
          (∑ k : Fin 128, X (ix2 ((gather_S50000x128_S600000x1_S600000x128_1_0_n_n_0_1_1128.operandIdx j srcw) 0) k)
              * W (ix2 k ((gather_S50000x128_S600000x1_S600000x128_1_0_n_n_0_1_1128.operandIdx j srcw) 1)))
            * nv (ix1 (j 0)) :=
    Cert.ScaleLaw.scale_sum _ _ (hD (i 0)) _ _ _ (fun j hj => hnv i j (Finset.mem_filter.mp hj).2)
  show max (D (ix2 (i 0) (0 : Fin 1)) * segSum (srcScaled D X W) srcw dsti i + skip X R b i) 0 = _
  unfold segSum skip
  rw [scatterAdd_apply, zeros_apply]
  simp only [gather_apply, srcScaled]
  rw [key, ← add_assoc]

end Cert.ReferenceIdeal.Layers

end
-- ==== Proof.KernelLayers.lean ====
/-
  The four graph layers of the idealized kernel program in closed form.

  The program computes the node scales D (a column), gathers along the wrapped source indices and segment-sums along the
  destination indices of the edge list. Its first launch leaves H₀ = D ⊙ (X₀·W₀) and R₀ = X₀·R₀ + b₀; between launches
  the host forms the segment sum of the gathered rows of H; each of the next three launches takes that aggregate, the
  previous skip term and D, rectifies X' = max (D ⊙ agg + R) 0 and leaves H' = D ⊙ (X'·W') and R' = X'·R' + b' for its
  own slices W', R', b' of the stacked weights; the last launch only rectifies. Reading each launch's arrays through
  the boundary chain and each launch's value through its closed form, every array the launches leave is the
  corresponding term of the recursion

      X_{l+1} = rect (segSum H_l src dst) R_l D,   H_l = srcScaled D X_l W_l,   R_l = skip X_l R_l b_l,

  written with the layer functions the algebraic law is stated over. The program's first result is X₄.
-/
import proofs.«153091_j996432413504_2_alg».proof.Proof.KernelChain
import proofs.«153091_j996432413504_2_alg».proof.Proof.DenseValue0
import proofs.«153091_j996432413504_2_alg».proof.Proof.DenseValue1
import proofs.«153091_j996432413504_2_alg».proof.Proof.DenseValue2
import proofs.«153091_j996432413504_2_alg».proof.Proof.DenseValue3
import proofs.«153091_j996432413504_2_alg».proof.Proof.DenseValue4
import proofs.«153091_j996432413504_2_alg».proof.Proof.LayerLaw

set_option maxRecDepth 16384

noncomputable section

namespace Cert.KernelIdeal.Layers4

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open Cert.ReferenceIdeal.Layers (srcScaled skip segSum rect)

/-! ## Each launch's closed form is a layer function of its operands -/

/-- The first launch's scaled product is `srcScaled`. -/
theorem G5_as (X X' : S50000x128.Idx → EReal) (D D' : S50000x1.Idx → EReal) (W W' : S128x128.Idx → EReal)
    (hX : X = X') (hD : D = D') (hW : W = W') : Dense0.G5 X D W = srcScaled D' X' W' := by
  subst hX hD hW; rfl

/-- The first launch's skip term is `skip`. -/
theorem G6_as (X X' : S50000x128.Idx → EReal) (R R' : S128x128.Idx → EReal) (b b' : S128.Idx → EReal)
    (hX : X = X') (hR : R = R') (hb : b = b') : Dense0.G6 X R b = skip X' R' b' := by
  subst hX hR hb; rfl

/-- Launch 2's first output is `srcScaled` of the rectified layer input. -/
theorem hOut1_as (A A' Rt Rt' : S50000x128.Idx → EReal) (D D' : S50000x1.Idx → EReal) (W W' : S128x128.Idx → EReal)
    (hA : A = A') (hRt : Rt = Rt') (hD : D = D') (hW : W = W') :
    Dense1.hOut A Rt D W = srcScaled D' (rect A' Rt' D') W' := by
  subst hA hRt hD hW; rfl

/-- Launch 2's second output is `skip` of the rectified layer input. -/
theorem rootOut1_as (A A' Rt Rt' : S50000x128.Idx → EReal) (D D' : S50000x1.Idx → EReal) (R R' : S128x128.Idx → EReal) (b b' : S128.Idx → EReal)
    (hA : A = A') (hRt : Rt = Rt') (hD : D = D') (hR : R = R') (hb : b = b') :
    Dense1.rootOut A Rt D R b = skip (rect A' Rt' D') R' b' := by
  subst hA hRt hD hR hb; rfl

/-- Launch 3's first output is `srcScaled` of the rectified layer input. -/
theorem hOut2_as (A A' Rt Rt' : S50000x128.Idx → EReal) (D D' : S50000x1.Idx → EReal) (W W' : S128x128.Idx → EReal)
    (hA : A = A') (hRt : Rt = Rt') (hD : D = D') (hW : W = W') :
    Dense2.hOut A Rt D W = srcScaled D' (rect A' Rt' D') W' := by
  subst hA hRt hD hW; rfl

/-- Launch 3's second output is `skip` of the rectified layer input. -/
theorem rootOut2_as (A A' Rt Rt' : S50000x128.Idx → EReal) (D D' : S50000x1.Idx → EReal) (R R' : S128x128.Idx → EReal) (b b' : S128.Idx → EReal)
    (hA : A = A') (hRt : Rt = Rt') (hD : D = D') (hR : R = R') (hb : b = b') :
    Dense2.rootOut A Rt D R b = skip (rect A' Rt' D') R' b' := by
  subst hA hRt hD hR hb; rfl

/-- Launch 4's first output is `srcScaled` of the rectified layer input. -/
theorem hOut3_as (A A' Rt Rt' : S50000x128.Idx → EReal) (D D' : S50000x1.Idx → EReal) (W W' : S128x128.Idx → EReal)
    (hA : A = A') (hRt : Rt = Rt') (hD : D = D') (hW : W = W') :
    Dense3.hOut A Rt D W = srcScaled D' (rect A' Rt' D') W' := by
  subst hA hRt hD hW; rfl

/-- Launch 4's second output is `skip` of the rectified layer input. -/
theorem rootOut3_as (A A' Rt Rt' : S50000x128.Idx → EReal) (D D' : S50000x1.Idx → EReal) (R R' : S128x128.Idx → EReal) (b b' : S128.Idx → EReal)
    (hA : A = A') (hRt : Rt = Rt') (hD : D = D') (hR : R = R') (hb : b = b') :
    Dense3.rootOut A Rt D R b = skip (rect A' Rt' D') R' b' := by
  subst hA hRt hD hR hb; rfl

/-- The last launch's output is `rect`. -/
theorem G_as (A A' Rt Rt' : S50000x128.Idx → EReal) (D D' : S50000x1.Idx → EReal)
    (hA : A = A') (hRt : Rt = Rt') (hD : D = D') : Dense4.G A Rt D = rect A' Rt' D' := by
  subst hA hRt hD; rfl

/-- The host's scatter-add from zero of the gathered rows, as the boundary chain spells it, is `segSum`. -/
theorem segSum_as (H H' : S50000x128.Idx → EReal) (s d : IVec S600000x1 32) (hH : H = H') :
    (((fun x i u => Host.scatterAdd (F := Ideal) (φ := .f32) scatter_S50000x128_S600000x1_S600000x128_1_0_0_1 x i u) : (⟨S50000x128, .f32⟩ : BufTy).Contents (Elt Ideal) → (⟨S600000x1, .i32⟩ : BufTy).Contents (Elt Ideal) → (⟨S600000x128, .f32⟩ : BufTy).Contents (Elt Ideal) → (⟨S50000x128, .f32⟩ : BufTy).Contents (Elt Ideal)) ((broadcastInDim S50000x128 ![] bcast_S_S50000x128 : (⟨S_, .f32⟩ : BufTy).Contents (Elt Ideal) → (⟨S50000x128, .f32⟩ : BufTy).Contents (Elt Ideal)) (constant (F := Ideal) S_ .f32 0x00000000#32)) d (((fun x i => Host.gather gather_S50000x128_S600000x1_S600000x128_1_0_n_n_0_1_1128 x i) : (⟨S50000x128, .f32⟩ : BufTy).Contents (Elt Ideal) → (⟨S600000x1, .i32⟩ : BufTy).Contents (Elt Ideal) → (⟨S600000x128, .f32⟩ : BufTy).Contents (Elt Ideal)) H s)) = segSum H' s d := by
  subst hH; rfl

variable (m : (ℓ : Loc nD τ sig) → Buf (Elt Ideal) ℓ) (ρ : Dev nD → PrngReg) (c : Dev nD)

/-! ## The program's fixed operands, as closed terms of the launch memory -/

/-- The column of node scales: where a node's in-degree (the segment sum of ones along the destination row of the edge
    list) is positive its reciprocal square root, else zero, as a column [50000, 1]. -/
def kD : S50000x1.Idx → EReal :=
  (shapeCast _ (select ((cmpf (F := Ideal) (φ := .f32) .ogt : (⟨S50000, .f32⟩ : BufTy).Contents (Elt Ideal) → (⟨S50000, .f32⟩ : BufTy).Contents (Elt Ideal) → (⟨S50000, .i1⟩ : BufTy).Contents (Elt Ideal)) (((fun x i u => Host.scatterAdd (F := Ideal) (φ := .f32) scatter_S50000_S600000x1_S600000_n_0_0_1 x i u) : (⟨S50000, .f32⟩ : BufTy).Contents (Elt Ideal) → (⟨S600000x1, .i32⟩ : BufTy).Contents (Elt Ideal) → (⟨S600000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S600000x1 ![0] bcast_S600000_S600000x1_0 : (⟨S600000, .i32⟩ : BufTy).Contents (Elt Ideal) → (⟨S600000x1, .i32⟩ : BufTy).Contents (Elt Ideal)) (shapeCast _ (((extractStridedSlice S1x600000 ![1, 0] · slices_S2x600000_S1x600000_1_0) : (⟨S2x600000, .i32⟩ : BufTy).Contents (Elt Ideal) → (⟨S1x600000, .i32⟩ : BufTy).Contents (Elt Ideal)) (m ((c : Thread nD τ).loc main_arg1))) shapeCasts_S1x600000_S600000)) ((broadcastInDim S600000 ![] bcast_S_S600000 : (⟨S_, .f32⟩ : BufTy).Contents (Elt Ideal) → (⟨S600000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x00000000#32))) ((Host.rsqrt (F := Ideal) (φ := .f32) : (⟨S50000, .f32⟩ : BufTy).Contents (Elt Ideal) → (⟨S50000, .f32⟩ : BufTy).Contents (Elt Ideal)) ((maximumf (F := Ideal) (φ := .f32) : (⟨S50000, .f32⟩ : BufTy).Contents (Elt Ideal) → (⟨S50000, .f32⟩ : BufTy).Contents (Elt Ideal) → (⟨S50000, .f32⟩ : BufTy).Contents (Elt Ideal)) (((fun x i u => Host.scatterAdd (F := Ideal) (φ := .f32) scatter_S50000_S600000x1_S600000_n_0_0_1 x i u) : (⟨S50000, .f32⟩ : BufTy).Contents (Elt Ideal) → (⟨S600000x1, .i32⟩ : BufTy).Contents (Elt Ideal) → (⟨S600000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S600000x1 ![0] bcast_S600000_S600000x1_0 : (⟨S600000, .i32⟩ : BufTy).Contents (Elt Ideal) → (⟨S600000x1, .i32⟩ : BufTy).Contents (Elt Ideal)) (shapeCast _ (((extractStridedSlice S1x600000 ![1, 0] · slices_S2x600000_S1x600000_1_0) : (⟨S2x600000, .i32⟩ : BufTy).Contents (Elt Ideal) → (⟨S1x600000, .i32⟩ : BufTy).Contents (Elt Ideal)) (m ((c : Thread nD τ).loc main_arg1))) shapeCasts_S1x600000_S600000)) ((broadcastInDim S600000 ![] bcast_S_S600000 : (⟨S_, .f32⟩ : BufTy).Contents (Elt Ideal) → (⟨S600000, .f32⟩ : BufTy).Contents (Elt Ideal)) (constant (F := Ideal) S_ .f32 0x3F800000#32))) ((broadcastInDim S50000 ![] bcast_S_S50000 : (⟨S_, .f32⟩ : BufTy).Contents (Elt Ideal) → (⟨S50000, .f32⟩ : BufTy).Contents (Elt Ideal)) (constant (F := Ideal) S_ .f32 0x3F800000#32)))) ((broadcastInDim S50000 ![] bcast_S_S50000) (id (constant (F := Ideal) S_ .f32 0x00000000#32)))) shapeCasts_S50000_S50000x1)

/-- The source row of the edge list with negative entries wrapped by the node count, as a column of gather indices. -/
def kSrc : IVec S600000x1 32 :=
  ((broadcastInDim S600000x1 ![0] bcast_S600000_S600000x1_0 : (⟨S600000, .i32⟩ : BufTy).Contents (Elt Ideal) → (⟨S600000x1, .i32⟩ : BufTy).Contents (Elt Ideal)) ((select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal)) ((cmpi .slt : (⟨S600000, .i32⟩ : BufTy).Contents (Elt Ideal) → (⟨S600000, .i32⟩ : BufTy).Contents (Elt Ideal) → (⟨S600000, .i1⟩ : BufTy).Contents (Elt Ideal)) (shapeCast _ (((extractStridedSlice S1x600000 ![0, 0] · slices_S2x600000_S1x600000_0_0) : (⟨S2x600000, .i32⟩ : BufTy).Contents (Elt Ideal) → (⟨S1x600000, .i32⟩ : BufTy).Contents (Elt Ideal)) (m ((c : Thread nD τ).loc main_arg1))) shapeCasts_S1x600000_S600000) ((broadcastInDim S600000 ![] bcast_S_S600000 : (⟨S_, .i32⟩ : BufTy).Contents (Elt Ideal) → (⟨S600000, .i32⟩ : BufTy).Contents (Elt Ideal)) (constantI S_ 32 0#32))) ((addi : (⟨S600000, .i32⟩ : BufTy).Contents (Elt Ideal) → (⟨S600000, .i32⟩ : BufTy).Contents (Elt Ideal) → (⟨S600000, .i32⟩ : BufTy).Contents (Elt Ideal)) (shapeCast _ (((extractStridedSlice S1x600000 ![0, 0] · slices_S2x600000_S1x600000_0_0) : (⟨S2x600000, .i32⟩ : BufTy).Contents (Elt Ideal) → (⟨S1x600000, .i32⟩ : BufTy).Contents (Elt Ideal)) (m ((c : Thread nD τ).loc main_arg1))) shapeCasts_S1x600000_S600000) ((broadcastInDim S600000 ![] bcast_S_S600000 : (⟨S_, .i32⟩ : BufTy).Contents (Elt Ideal) → (⟨S600000, .i32⟩ : BufTy).Contents (Elt Ideal)) (constantI S_ 32 50000#32))) (shapeCast _ (((extractStridedSlice S1x600000 ![0, 0] · slices_S2x600000_S1x600000_0_0) : (⟨S2x600000, .i32⟩ : BufTy).Contents (Elt Ideal) → (⟨S1x600000, .i32⟩ : BufTy).Contents (Elt Ideal)) (m ((c : Thread nD τ).loc main_arg1))) shapeCasts_S1x600000_S600000)))

/-- The destination row of the edge list, as a column of scatter indices. -/
def kDst : IVec S600000x1 32 :=
  ((broadcastInDim S600000x1 ![0] bcast_S600000_S600000x1_0 : (⟨S600000, .i32⟩ : BufTy).Contents (Elt Ideal) → (⟨S600000x1, .i32⟩ : BufTy).Contents (Elt Ideal)) (shapeCast _ (((extractStridedSlice S1x600000 ![1, 0] · slices_S2x600000_S1x600000_1_0) : (⟨S2x600000, .i32⟩ : BufTy).Contents (Elt Ideal) → (⟨S1x600000, .i32⟩ : BufTy).Contents (Elt Ideal)) (m ((c : Thread nD τ).loc main_arg1))) shapeCasts_S1x600000_S600000))

/-- Slice 0 of the stacked weights W. -/
def kW1 : S128x128.Idx → EReal :=
  (shapeCast _ (((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (m ((c : Thread nD τ).loc main_arg6))) shapeCasts_S1x128x128_S128x128)
/-- Slice 0 of the stacked weights R. -/
def kR1 : S128x128.Idx → EReal :=
  (shapeCast _ (((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (m ((c : Thread nD τ).loc main_arg7))) shapeCasts_S1x128x128_S128x128)
/-- Slice 0 of the stacked biases. -/
def kb1 : S128.Idx → EReal :=
  (shapeCast _ (((extractStridedSlice S1x128 ![0, 0] · slices_S3x128_S1x128_0_0) : (⟨S3x128, .f32⟩ : BufTy).Contents (Elt Ideal) → (⟨S1x128, .f32⟩ : BufTy).Contents (Elt Ideal)) (m ((c : Thread nD τ).loc main_arg8))) shapeCasts_S1x128_S128)

/-- Slice 1 of the stacked weights W. -/
def kW2 : S128x128.Idx → EReal :=
  (shapeCast _ (((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (m ((c : Thread nD τ).loc main_arg6))) shapeCasts_S1x128x128_S128x128)
/-- Slice 1 of the stacked weights R. -/
def kR2 : S128x128.Idx → EReal :=
  (shapeCast _ (((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (m ((c : Thread nD τ).loc main_arg7))) shapeCasts_S1x128x128_S128x128)
/-- Slice 1 of the stacked biases. -/
def kb2 : S128.Idx → EReal :=
  (shapeCast _ (((extractStridedSlice S1x128 ![1, 0] · slices_S3x128_S1x128_1_0) : (⟨S3x128, .f32⟩ : BufTy).Contents (Elt Ideal) → (⟨S1x128, .f32⟩ : BufTy).Contents (Elt Ideal)) (m ((c : Thread nD τ).loc main_arg8))) shapeCasts_S1x128_S128)

/-- Slice 2 of the stacked weights W. -/
def kW3 : S128x128.Idx → EReal :=
  (shapeCast _ (((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (m ((c : Thread nD τ).loc main_arg6))) shapeCasts_S1x128x128_S128x128)
/-- Slice 2 of the stacked weights R. -/
def kR3 : S128x128.Idx → EReal :=
  (shapeCast _ (((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (m ((c : Thread nD τ).loc main_arg7))) shapeCasts_S1x128x128_S128x128)
/-- Slice 2 of the stacked biases. -/
def kb3 : S128.Idx → EReal :=
  (shapeCast _ (((extractStridedSlice S1x128 ![2, 0] · slices_S3x128_S1x128_2_0) : (⟨S3x128, .f32⟩ : BufTy).Contents (Elt Ideal) → (⟨S1x128, .f32⟩ : BufTy).Contents (Elt Ideal)) (m ((c : Thread nD τ).loc main_arg8))) shapeCasts_S1x128_S128)

/-! ## The recursion -/

/-- The input features. -/
def X0 : S50000x128.Idx → EReal := (m ((c : Thread nD τ).loc main_arg0))
/-- Layer 0's scaled product. -/
def H0 : S50000x128.Idx → EReal := srcScaled (kD m c) (X0 m c) (m ((c : Thread nD τ).loc main_arg3))
/-- Layer 0's skip term. -/
def R0 : S50000x128.Idx → EReal := skip (X0 m c) (m ((c : Thread nD τ).loc main_arg4)) (m ((c : Thread nD τ).loc main_arg5))
/-- Layer 1's input: the rectified layer 0. -/
def X1 : S50000x128.Idx → EReal := rect (segSum (H0 m c) (kSrc m c) (kDst m c)) (R0 m c) (kD m c)
/-- Layer 1's scaled product. -/
def H1 : S50000x128.Idx → EReal := srcScaled (kD m c) (X1 m c) (kW1 m c)
/-- Layer 1's skip term. -/
def R1 : S50000x128.Idx → EReal := skip (X1 m c) (kR1 m c) (kb1 m c)
/-- Layer 2's input: the rectified layer 1. -/
def X2 : S50000x128.Idx → EReal := rect (segSum (H1 m c) (kSrc m c) (kDst m c)) (R1 m c) (kD m c)
/-- Layer 2's scaled product. -/
def H2 : S50000x128.Idx → EReal := srcScaled (kD m c) (X2 m c) (kW2 m c)
/-- Layer 2's skip term. -/
def R2 : S50000x128.Idx → EReal := skip (X2 m c) (kR2 m c) (kb2 m c)
/-- Layer 3's input: the rectified layer 2. -/
def X3 : S50000x128.Idx → EReal := rect (segSum (H2 m c) (kSrc m c) (kDst m c)) (R2 m c) (kD m c)
/-- Layer 3's scaled product. -/
def H3 : S50000x128.Idx → EReal := srcScaled (kD m c) (X3 m c) (kW3 m c)
/-- Layer 3's skip term. -/
def R3 : S50000x128.Idx → EReal := skip (X3 m c) (kR3 m c) (kb3 m c)
/-- The fourth layer's output. -/
def X4 : S50000x128.Idx → EReal := rect (segSum (H3 m c) (kSrc m c) (kDst m c)) (R3 m c) (kD m c)

/-! ## What each launch leaves -/

/-- The first launch leaves H₀ … -/
theorem out0_5 : (dat0 (V3 m ρ) c).arrAt 5 cfg0.N = H0 m c :=
  (Dense0.final5 (V3 m ρ) c).trans
    (G5_as (V3 m ρ c (Pipeline.arrRef spec0 0)) (X0 m c) (V3 m ρ c (Pipeline.arrRef spec0 1)) (kD m c)
      (V3 m ρ c (Pipeline.arrRef spec0 2)) (m ((c : Thread nD τ).loc main_arg3))
      (Chain.entry0_0 m ρ c) (Chain.entry0_1 m ρ c) (Chain.entry0_2 m ρ c))

/-- … and R₀. -/
theorem out0_6 : (dat0 (V3 m ρ) c).arrAt 6 cfg0.N = R0 m c :=
  (Dense0.final6 (V3 m ρ) c).trans
    (G6_as (V3 m ρ c (Pipeline.arrRef spec0 0)) (X0 m c) (V3 m ρ c (Pipeline.arrRef spec0 3)) (m ((c : Thread nD τ).loc main_arg4))
      (V3 m ρ c (Pipeline.arrRef spec0 4)) (m ((c : Thread nD τ).loc main_arg5))
      (Chain.entry0_0 m ρ c) (Chain.entry0_3 m ρ c) (Chain.entry0_4 m ρ c))

/-- The aggregate launch 2 reads: the segment sum of the gathered rows of H₀. -/
theorem agg1 : V5 m ρ c (Pipeline.arrRef spec1 0) = segSum (H0 m c) (kSrc m c) (kDst m c) :=
  (Chain.entry1_0 m ρ c).trans
    (segSum_as ((dat0 (V3 m ρ) c).arrAt 5 cfg0.N) (H0 m c) (kSrc m c) (kDst m c) (out0_5 m ρ c))

/-- Launch 2 leaves H₁ … -/
theorem out1_6 : (dat1 (V5 m ρ) c).arrAt 6 cfg1.N = H1 m c :=
  (Dense1.final6 (V5 m ρ) c).trans
    (hOut1_as (V5 m ρ c (Pipeline.arrRef spec1 0)) (segSum (H0 m c) (kSrc m c) (kDst m c))
      (V5 m ρ c (Pipeline.arrRef spec1 1)) (R0 m c)
      (V5 m ρ c (Pipeline.arrRef spec1 2)) (kD m c)
      (V5 m ρ c (Pipeline.arrRef spec1 3)) (kW1 m c)
      (agg1 m ρ c) ((Chain.entry1_1 m ρ c).trans (out0_6 m ρ c)) (Chain.entry1_2 m ρ c) (Chain.entry1_3 m ρ c))

/-- … and R₁. -/
theorem out1_7 : (dat1 (V5 m ρ) c).arrAt 7 cfg1.N = R1 m c :=
  (Dense1.final7 (V5 m ρ) c).trans
    (rootOut1_as (V5 m ρ c (Pipeline.arrRef spec1 0)) (segSum (H0 m c) (kSrc m c) (kDst m c))
      (V5 m ρ c (Pipeline.arrRef spec1 1)) (R0 m c)
      (V5 m ρ c (Pipeline.arrRef spec1 2)) (kD m c)
      (V5 m ρ c (Pipeline.arrRef spec1 4)) (kR1 m c)
      (V5 m ρ c (Pipeline.arrRef spec1 5)) (kb1 m c)
      (agg1 m ρ c) ((Chain.entry1_1 m ρ c).trans (out0_6 m ρ c)) (Chain.entry1_2 m ρ c) (Chain.entry1_4 m ρ c) (Chain.entry1_5 m ρ c))

/-- The aggregate launch 3 reads: the segment sum of the gathered rows of H₁. -/
theorem agg2 : V7 m ρ c (Pipeline.arrRef spec2 0) = segSum (H1 m c) (kSrc m c) (kDst m c) :=
  (Chain.entry2_0 m ρ c).trans
    (segSum_as ((dat1 (V5 m ρ) c).arrAt 6 cfg1.N) (H1 m c) (kSrc m c) (kDst m c) (out1_6 m ρ c))

/-- Launch 3 leaves H₂ … -/
theorem out2_6 : (dat2 (V7 m ρ) c).arrAt 6 cfg2.N = H2 m c :=
  (Dense2.final6 (V7 m ρ) c).trans
    (hOut2_as (V7 m ρ c (Pipeline.arrRef spec2 0)) (segSum (H1 m c) (kSrc m c) (kDst m c))
      (V7 m ρ c (Pipeline.arrRef spec2 1)) (R1 m c)
      (V7 m ρ c (Pipeline.arrRef spec2 2)) (kD m c)
      (V7 m ρ c (Pipeline.arrRef spec2 3)) (kW2 m c)
      (agg2 m ρ c) ((Chain.entry2_1 m ρ c).trans (out1_7 m ρ c)) (Chain.entry2_2 m ρ c) (Chain.entry2_3 m ρ c))

/-- … and R₂. -/
theorem out2_7 : (dat2 (V7 m ρ) c).arrAt 7 cfg2.N = R2 m c :=
  (Dense2.final7 (V7 m ρ) c).trans
    (rootOut2_as (V7 m ρ c (Pipeline.arrRef spec2 0)) (segSum (H1 m c) (kSrc m c) (kDst m c))
      (V7 m ρ c (Pipeline.arrRef spec2 1)) (R1 m c)
      (V7 m ρ c (Pipeline.arrRef spec2 2)) (kD m c)
      (V7 m ρ c (Pipeline.arrRef spec2 4)) (kR2 m c)
      (V7 m ρ c (Pipeline.arrRef spec2 5)) (kb2 m c)
      (agg2 m ρ c) ((Chain.entry2_1 m ρ c).trans (out1_7 m ρ c)) (Chain.entry2_2 m ρ c) (Chain.entry2_4 m ρ c) (Chain.entry2_5 m ρ c))

/-- The aggregate launch 4 reads: the segment sum of the gathered rows of H₂. -/
theorem agg3 : V9 m ρ c (Pipeline.arrRef spec3 0) = segSum (H2 m c) (kSrc m c) (kDst m c) :=
  (Chain.entry3_0 m ρ c).trans
    (segSum_as ((dat2 (V7 m ρ) c).arrAt 6 cfg2.N) (H2 m c) (kSrc m c) (kDst m c) (out2_6 m ρ c))

/-- Launch 4 leaves H₃ … -/
theorem out3_6 : (dat3 (V9 m ρ) c).arrAt 6 cfg3.N = H3 m c :=
  (Dense3.final6 (V9 m ρ) c).trans
    (hOut3_as (V9 m ρ c (Pipeline.arrRef spec3 0)) (segSum (H2 m c) (kSrc m c) (kDst m c))
      (V9 m ρ c (Pipeline.arrRef spec3 1)) (R2 m c)
      (V9 m ρ c (Pipeline.arrRef spec3 2)) (kD m c)
      (V9 m ρ c (Pipeline.arrRef spec3 3)) (kW3 m c)
      (agg3 m ρ c) ((Chain.entry3_1 m ρ c).trans (out2_7 m ρ c)) (Chain.entry3_2 m ρ c) (Chain.entry3_3 m ρ c))

/-- … and R₃. -/
theorem out3_7 : (dat3 (V9 m ρ) c).arrAt 7 cfg3.N = R3 m c :=
  (Dense3.final7 (V9 m ρ) c).trans
    (rootOut3_as (V9 m ρ c (Pipeline.arrRef spec3 0)) (segSum (H2 m c) (kSrc m c) (kDst m c))
      (V9 m ρ c (Pipeline.arrRef spec3 1)) (R2 m c)
      (V9 m ρ c (Pipeline.arrRef spec3 2)) (kD m c)
      (V9 m ρ c (Pipeline.arrRef spec3 4)) (kR3 m c)
      (V9 m ρ c (Pipeline.arrRef spec3 5)) (kb3 m c)
      (agg3 m ρ c) ((Chain.entry3_1 m ρ c).trans (out2_7 m ρ c)) (Chain.entry3_2 m ρ c) (Chain.entry3_4 m ρ c) (Chain.entry3_5 m ρ c))

/-- The aggregate launch 5 reads: the segment sum of the gathered rows of H₃. -/
theorem agg4 : V11 m ρ c (Pipeline.arrRef spec4 0) = segSum (H3 m c) (kSrc m c) (kDst m c) :=
  (Chain.entry4_0 m ρ c).trans
    (segSum_as ((dat3 (V9 m ρ) c).arrAt 6 cfg3.N) (H3 m c) (kSrc m c) (kDst m c) (out3_6 m ρ c))

/-- The last launch leaves X₄ … -/
theorem out4_3 : (dat4 (V11 m ρ) c).arrAt 3 cfg4.N = X4 m c :=
  (Dense4.final3 (V11 m ρ) c).trans
    (G_as (V11 m ρ c (Pipeline.arrRef spec4 0)) (segSum (H3 m c) (kSrc m c) (kDst m c))
      (V11 m ρ c (Pipeline.arrRef spec4 1)) (R3 m c)
      (V11 m ρ c (Pipeline.arrRef spec4 2)) (kD m c)
      (agg4 m ρ c) ((Chain.entry4_1 m ρ c).trans (out3_7 m ρ c)) (Chain.entry4_2 m ρ c))

/-- … which is what the program's first result buffer holds at the end. -/
theorem last : W14 m ρ c (Proc.devRef .tc main_v77) = X4 m c :=
  (Chain.at14_main_v77 m ρ c).trans (out4_3 m ρ c)

end Cert.KernelIdeal.Layers4

end
-- ==== Proof.RefLayers.lean ====
/-
  The reference's four graph-convolution layers, read off its stages.

  The second result of the reference is four applications of one layer function (RefLayer.lean) — the first to the
  node features and the first weights, the next three to the previous result and slices 0, 1, 2 of the stacked
  weights — all four at the same wrapped source column, destination column and edge coefficients. The stacked
  weights' slices are read at an index, and the inverse square-root degree the coefficients are built from is shown
  to be a nonnegative real at every node.
-/
import proofs.«153091_j996432413504_2_alg».proof.Proof.RefReadP
import proofs.«153091_j996432413504_2_alg».proof.Proof.RefLayer

noncomputable section

namespace Cert.ReferenceIdeal.Layers

open Cert.ReferenceIdeal Cert.ReferenceIdeal.Gen Idealize.ShloMosaic Idealize.ShloMosaic.ValueIdx
open scoped BigOperators

section Chain

variable (x0 : (⟨S50000x128, .f32⟩ : BufTy).Contents (Elt Ideal)) (x1 : (⟨S2x600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S3x128x128, .f32⟩ : BufTy).Contents (Elt Ideal)) (x8 : (⟨S3x128, .f32⟩ : BufTy).Contents (Elt Ideal))

/-- The first layer's result is the layer function of the node features and the first weights, at the wrapped source
    column, the destination column and the edge coefficients. -/
theorem v52_eq :
    Read.val_main_v52 (F := Ideal) x0 x1 x3 x4 x5
      = refLayer x0 x3 x4 x5 (Read.val_main_v39 (F := Ideal) x1) (Read.val_main_v45 (F := Ideal) x1)
          (Read.val_main_v32 (F := Ideal) x1) := rfl

/-- The second layer's result is the layer function of the first layer's result and slice 0 of the stacked weights;
    its own copies of the two index columns are the first layer's. -/
theorem v78_eq :
    Read.val_main_v78 (F := Ideal) x0 x1 x3 x4 x5 x6 x7 x8
      = refLayer (Read.val_main_v52 (F := Ideal) x0 x1 x3 x4 x5) (Read.val_main_v54 (F := Ideal) x6)
          (Read.val_main_v56 (F := Ideal) x7) (Read.val_main_v58 (F := Ideal) x8)
          (Read.val_main_v39 (F := Ideal) x1) (Read.val_main_v45 (F := Ideal) x1) (Read.val_main_v32 (F := Ideal) x1) := rfl

/-- The third layer's result, likewise, from the second's and slice 1. -/
theorem v104_eq :
    Read.val_main_v104 (F := Ideal) x0 x1 x3 x4 x5 x6 x7 x8
      = refLayer (Read.val_main_v78 (F := Ideal) x0 x1 x3 x4 x5 x6 x7 x8) (Read.val_main_v80 (F := Ideal) x6)
          (Read.val_main_v82 (F := Ideal) x7) (Read.val_main_v84 (F := Ideal) x8)
          (Read.val_main_v39 (F := Ideal) x1) (Read.val_main_v45 (F := Ideal) x1) (Read.val_main_v32 (F := Ideal) x1) := rfl

/-- The fourth layer's result, likewise, from the third's and slice 2. -/
theorem v130_step :
    Read.val_main_v130 (F := Ideal) x0 x1 x3 x4 x5 x6 x7 x8
      = refLayer (Read.val_main_v104 (F := Ideal) x0 x1 x3 x4 x5 x6 x7 x8) (Read.val_main_v106 (F := Ideal) x6)
          (Read.val_main_v108 (F := Ideal) x7) (Read.val_main_v110 (F := Ideal) x8)
          (Read.val_main_v39 (F := Ideal) x1) (Read.val_main_v45 (F := Ideal) x1) (Read.val_main_v32 (F := Ideal) x1) := rfl

/-- The program's second result is four applications of the layer function. -/
theorem v130_eq :
    Read.val_main_v130 (F := Ideal) x0 x1 x3 x4 x5 x6 x7 x8
      = refLayer
          (refLayer
            (refLayer
              (refLayer x0 x3 x4 x5 (Read.val_main_v39 (F := Ideal) x1) (Read.val_main_v45 (F := Ideal) x1)
                (Read.val_main_v32 (F := Ideal) x1))
              (Read.val_main_v54 (F := Ideal) x6) (Read.val_main_v56 (F := Ideal) x7) (Read.val_main_v58 (F := Ideal) x8)
              (Read.val_main_v39 (F := Ideal) x1) (Read.val_main_v45 (F := Ideal) x1) (Read.val_main_v32 (F := Ideal) x1))
            (Read.val_main_v80 (F := Ideal) x6) (Read.val_main_v82 (F := Ideal) x7) (Read.val_main_v84 (F := Ideal) x8)
            (Read.val_main_v39 (F := Ideal) x1) (Read.val_main_v45 (F := Ideal) x1) (Read.val_main_v32 (F := Ideal) x1))
          (Read.val_main_v106 (F := Ideal) x6) (Read.val_main_v108 (F := Ideal) x7) (Read.val_main_v110 (F := Ideal) x8)
          (Read.val_main_v39 (F := Ideal) x1) (Read.val_main_v45 (F := Ideal) x1) (Read.val_main_v32 (F := Ideal) x1) := by
  rw [v130_step, v104_eq, v78_eq, v52_eq]

end Chain

/-- The reciprocal square root of an extended real that is at least 1 is a nonnegative real
    (of +∞ it is 0; of a real x ≥ 1 it is 1/√x). -/
theorem rsqrt_of_one_le {y : EReal} (h : 1 ≤ y) : ∃ r : ℝ, 0 ≤ r ∧ Ideal.rsqrt y = (r : EReal) := by
  induction y using EReal.rec with
  | bot => rw [← EReal.coe_one] at h; exact absurd h (not_le.mpr (EReal.bot_lt_coe 1))
  | top => exact ⟨0, le_rfl, by rw [Ideal.rsqrt_top]; rfl⟩
  | coe x =>
    have hx : (1 : ℝ) ≤ x := by exact_mod_cast h
    refine ⟨(Real.sqrt x)⁻¹, inv_nonneg.mpr (Real.sqrt_nonneg x), ?_⟩
    rw [Ideal.rsqrt_coe, if_neg (by linarith), if_neg (by linarith)]

/-- A one-bit choice between the reciprocal square root of max(d, 1) and 0 is a nonnegative real, whatever d is. -/
theorem select_rsqrt_real (c : BitVec 1) (d : EReal) :
    ∃ r : ℝ, 0 ≤ r ∧ Scalar.select c (Ideal.rsqrt (max d 1)) (0 : EReal) = (r : EReal) := by
  rcases BitVec.eq_zero_or_eq_one c with h | h
  · subst h
    exact ⟨0, le_rfl, by rw [select_zero]; rfl⟩
  · subst h
    rw [select_one]
    exact rsqrt_of_one_le (le_max_right d 1)

section Dinv

variable (x1 : (⟨S2x600000, .i32⟩ : BufTy).Contents (Elt Ideal))

/-- The inverse square-root degree is 0 or 1/√max(deg, 1): a nonnegative real at every node, whatever the degree is. -/
theorem dinv_nonneg_real (n : S50000.Idx) :
    ∃ r : ℝ, 0 ≤ r ∧ Read.val_main_v17 (F := Ideal) x1 n = (r : EReal) := by
  have h1 : Ideal.ofBits .f32 0x3F800000#32 = 1 := IdealRules.sign_bit.ideal_onePat .f32
  have h : Read.val_main_v17 (F := Ideal) x1 n
      = Scalar.select (Read.val_main_v13 (F := Ideal) x1 n)
          (Ideal.rsqrt (max (Read.val_main_v11 (F := Ideal) x1 n) 1)) (0 : EReal) := by
    rw [Read.val_main_v17_apply, Read.val_main_v16_apply, Read.val_main_v15_apply, Read.val_main_v14_apply,
      Read.val_main_cst_2_apply, Read.val_main_call0_v1_apply, Read.val_main_call0_v0_apply, Read.val_main_cst_3_apply,
      Ideal.hostUnary_rsqrt_def, Ideal.maximumf_def, Ideal.ofBits_def, Ideal.ofBits_def, Ideal.ofBits_zero_f32, h1]
  rw [h]
  exact select_rsqrt_real _ _

end Dinv

section Slices

variable (x6 x7 : (⟨S3x128x128, .f32⟩ : BufTy).Contents (Elt Ideal)) (x8 : (⟨S3x128, .f32⟩ : BufTy).Contents (Elt Ideal))

/-- Slice 0 of the stacked aggregation weights, as a 128 × 128 matrix, at (k, c). -/
theorem v54_apply (k c : Fin 128) :
    Read.val_main_v54 (F := Ideal) x6 (ix2 k c) = x6 (ix3 (0 : Fin 3) k c) := by
  rw [Read.val_main_v54_apply, Read.val_main_v53_apply]
  refine congrArg x6 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 0 of the stacked skip weights at (k, c). -/
theorem v56_apply (k c : Fin 128) :
    Read.val_main_v56 (F := Ideal) x7 (ix2 k c) = x7 (ix3 (0 : Fin 3) k c) := by
  rw [Read.val_main_v56_apply, Read.val_main_v55_apply]
  refine congrArg x7 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 0 of the stacked biases at c. -/
theorem v58_apply (c : Fin 128) :
    Read.val_main_v58 (F := Ideal) x8 (ix1 c) = x8 (ix2 (0 : Fin 3) c) := by
  rw [Read.val_main_v58_apply, Read.val_main_v57_apply]
  refine congrArg x8 (funext fun a => Fin.ext ?_)
  have hc := c.isLt
  match a with
  | ⟨0, _⟩ => rfl
  | ⟨1, _⟩ => show c.val % 128 = c.val; omega

/-- Slice 1 of the stacked aggregation weights at (k, c). -/
theorem v80_apply (k c : Fin 128) :
    Read.val_main_v80 (F := Ideal) x6 (ix2 k c) = x6 (ix3 (1 : Fin 3) k c) := by
  rw [Read.val_main_v80_apply, Read.val_main_v79_apply]
  refine congrArg x6 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 1 of the stacked skip weights at (k, c). -/
theorem v82_apply (k c : Fin 128) :
    Read.val_main_v82 (F := Ideal) x7 (ix2 k c) = x7 (ix3 (1 : Fin 3) k c) := by
  rw [Read.val_main_v82_apply, Read.val_main_v81_apply]
  refine congrArg x7 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 1 of the stacked biases at c. -/
theorem v84_apply (c : Fin 128) :
    Read.val_main_v84 (F := Ideal) x8 (ix1 c) = x8 (ix2 (1 : Fin 3) c) := by
  rw [Read.val_main_v84_apply, Read.val_main_v83_apply]
  refine congrArg x8 (funext fun a => Fin.ext ?_)
  have hc := c.isLt
  match a with
  | ⟨0, _⟩ => rfl
  | ⟨1, _⟩ => show c.val % 128 = c.val; omega

/-- Slice 2 of the stacked aggregation weights at (k, c). -/
theorem v106_apply (k c : Fin 128) :
    Read.val_main_v106 (F := Ideal) x6 (ix2 k c) = x6 (ix3 (2 : Fin 3) k c) := by
  rw [Read.val_main_v106_apply, Read.val_main_v105_apply]
  refine congrArg x6 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 2 of the stacked skip weights at (k, c). -/
theorem v108_apply (k c : Fin 128) :
    Read.val_main_v108 (F := Ideal) x7 (ix2 k c) = x7 (ix3 (2 : Fin 3) k c) := by
  rw [Read.val_main_v108_apply, Read.val_main_v107_apply]
  refine congrArg x7 (funext fun a => Fin.ext ?_)
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Slice 2 of the stacked biases at c. -/
theorem v110_apply (c : Fin 128) :
    Read.val_main_v110 (F := Ideal) x8 (ix1 c) = x8 (ix2 (2 : Fin 3) c) := by
  rw [Read.val_main_v110_apply, Read.val_main_v109_apply]
  refine congrArg x8 (funext fun a => Fin.ext ?_)
  have hc := c.isLt
  match a with
  | ⟨0, _⟩ => rfl
  | ⟨1, _⟩ => show c.val % 128 = c.val; omega

end Slices

end Cert.ReferenceIdeal.Layers
-- ==== Proof.RefBridge.lean ====
/-
  The reference's four layers in the node-scaled form.

  A layer can scale at the edges (each gathered row of X·W by the edge's coefficient) or at the nodes (each row of
  X·W by its node's scale before the gather, the segment sum by the receiving node's scale after it). With the
  reference's own inverse square-root degrees as the node scales — nonnegative reals — and its edge coefficient the
  product of the two scales on every edge that lands on a node, the two forms are one function (LayerLaw.lean), so
  the reference's second result is four node-scaled layers.
-/
import proofs.«153091_j996432413504_2_alg».proof.Proof.RefLayers
import proofs.«153091_j996432413504_2_alg».proof.Proof.LayerLaw

noncomputable section

namespace Cert.ReferenceIdeal.Layers

open Cert.ReferenceIdeal Cert.ReferenceIdeal.Gen Idealize.ShloMosaic Idealize.ShloMosaic.ValueIdx
open scoped BigOperators

/-- The node scales (the inverse square-root degrees) as a column. -/
def Dcol (x1 : (⟨S2x600000, .i32⟩ : BufTy).Contents (Elt Ideal)) : S50000x1.Idx → EReal :=
  fun i => Read.val_main_v17 (F := Ideal) x1 (ix1 (i 0))

/-- One layer in the node-scaled form: the rows of X·W scaled at the source, gathered and summed over the edges, the
    sum scaled at the receiving node, then the skip term and the rectifier. -/
def kLayer (D : S50000x1.Idx → EReal) (srcw dsti : IVec S600000x1 32) (X : S50000x128.Idx → EReal)
    (W R : S128x128.Idx → EReal) (b : S128.Idx → EReal) : S50000x128.Idx → EReal :=
  rect (segSum (srcScaled D X W) srcw dsti) (skip X R b) D

section Bridge

variable (x0 : (⟨S50000x128, .f32⟩ : BufTy).Contents (Elt Ideal)) (x1 : (⟨S2x600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S3x128x128, .f32⟩ : BufTy).Contents (Elt Ideal)) (x8 : (⟨S3x128, .f32⟩ : BufTy).Contents (Elt Ideal))

/-- With the reference's own scales, index columns and edge coefficients, the node-scaled layer is the reference's
    layer, once every edge that lands on a node has the product of the two scales for its coefficient. -/
theorem kLayer_eq
    (hcoef : ∀ (i : S50000x128.Idx) (j : S600000x128.Idx),
      scatter_S50000x128_S600000x1_S600000x128_1_0_0_1.resultIdx? j (Read.val_main_v45 (F := Ideal) x1) = some i →
      Read.val_main_v32 (F := Ideal) x1 (ix1 (j 0))
        = Read.val_main_v17 (F := Ideal) x1
              (ix1 ((gather_S50000x128_S600000x1_S600000x128_1_0_n_n_0_1_1128.operandIdx j (Read.val_main_v39 (F := Ideal) x1)) 0))
            * Read.val_main_v17 (F := Ideal) x1 (ix1 (i 0)))
    (X : S50000x128.Idx → EReal) (W R : S128x128.Idx → EReal) (b : S128.Idx → EReal) :
    kLayer (Dcol x1) (Read.val_main_v39 (F := Ideal) x1) (Read.val_main_v45 (F := Ideal) x1) X W R b
      = refLayer X W R b (Read.val_main_v39 (F := Ideal) x1) (Read.val_main_v45 (F := Ideal) x1)
          (Read.val_main_v32 (F := Ideal) x1) :=
  layer_eq X W R b _ _ _ (Dcol x1) (fun n => dinv_nonneg_real x1 (ix1 n)) (fun i j h => hcoef i j h)

/-- The reference's second result is four node-scaled layers: the first on the node features and the first weights,
    the next three on the previous result and slices 0, 1, 2 of the stacked weights. -/
theorem four_layers
    (hcoef : ∀ (i : S50000x128.Idx) (j : S600000x128.Idx),
      scatter_S50000x128_S600000x1_S600000x128_1_0_0_1.resultIdx? j (Read.val_main_v45 (F := Ideal) x1) = some i →
      Read.val_main_v32 (F := Ideal) x1 (ix1 (j 0))
        = Read.val_main_v17 (F := Ideal) x1
              (ix1 ((gather_S50000x128_S600000x1_S600000x128_1_0_n_n_0_1_1128.operandIdx j (Read.val_main_v39 (F := Ideal) x1)) 0))
            * Read.val_main_v17 (F := Ideal) x1 (ix1 (i 0))) :
    kLayer (Dcol x1) (Read.val_main_v39 (F := Ideal) x1) (Read.val_main_v45 (F := Ideal) x1)
        (kLayer (Dcol x1) (Read.val_main_v39 (F := Ideal) x1) (Read.val_main_v45 (F := Ideal) x1)
          (kLayer (Dcol x1) (Read.val_main_v39 (F := Ideal) x1) (Read.val_main_v45 (F := Ideal) x1)
            (kLayer (Dcol x1) (Read.val_main_v39 (F := Ideal) x1) (Read.val_main_v45 (F := Ideal) x1) x0 x3 x4 x5)
            (Read.val_main_v54 (F := Ideal) x6) (Read.val_main_v56 (F := Ideal) x7) (Read.val_main_v58 (F := Ideal) x8))
          (Read.val_main_v80 (F := Ideal) x6) (Read.val_main_v82 (F := Ideal) x7) (Read.val_main_v84 (F := Ideal) x8))
        (Read.val_main_v106 (F := Ideal) x6) (Read.val_main_v108 (F := Ideal) x7) (Read.val_main_v110 (F := Ideal) x8)
      = Read.val_main_v130 (F := Ideal) x0 x1 x3 x4 x5 x6 x7 x8 := by
  rw [v130_eq, kLayer_eq x1 hcoef, kLayer_eq x1 hcoef, kLayer_eq x1 hcoef, kLayer_eq x1 hcoef]

end Bridge

end Cert.ReferenceIdeal.Layers
-- ==== Proof.IndexFacts.lean ====
/-
  Where a row gather, a vector gather and a row scatter-add read and write, for the dimension numbers of
  `table[idx]` along axis 0 and of a segment sum.

  * `rowGather`: the result row `e` of `table[idx]` is the table's row `idx[e]`, the index read signed and clamped into
    `[0, N − 1]`, the column kept.
  * `vecGather`: the same for a vector `v[idx]`.
  * `rowScatter`: update `(e, c)` of a segment sum lands on operand element `(idx[e], c)`, the index read signed and NOT
    clamped; an update whose index is outside `[0, N)` lands nowhere.
  Hence the two gathers through ONE index column read the same row, and an update that lands on row `n` carries the
  index `n` itself.
-/
import Idealize.ShloMosaic.PureOps.Ideal
import Idealize.ShloMosaic.Lib.ValueIdx

noncomputable section

namespace Cert.IndexFacts

open Idealize.ShloMosaic Idealize.ShloMosaic.ValueIdx

/-- The dimension numbers of `table[idx]` for a table of `N` rows of `C` columns and a column of `E` indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- The dimension numbers of `v[idx]` for a vector of `N` entries and a column of `E` indices. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The dimension numbers of a segment sum of `E` rows of `C` columns into `N` rows. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

variable {N E C w : Nat}

/-- The row a row gather reads: the index of the result's row, read signed and clamped. -/
theorem rowGather_row (wf) (j : (⟨2, ![E, C]⟩ : Shape).Idx) (idx : IVec ⟨2, ![E, 1]⟩ w) :
    ((rowGather N E C wf).operandIdx j idx 0).val = min (idx (ix2 (j 0) 0)).toInt.toNat (N - 1) := by
  show (rowGather N E C wf).start j idx 0 + (rowGather N E C wf).batchCoord j 0 + (rowGather N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx j ⟨List.idxOf (0 : Fin 2) (rowGather N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The column a row gather reads: the result's column. -/
theorem rowGather_col (wf) (j : (⟨2, ![E, C]⟩ : Shape).Idx) (idx : IVec ⟨2, ![E, 1]⟩ w) :
    ((rowGather N E C wf).operandIdx j idx 1).val = (j 1).val := by
  show (rowGather N E C wf).start j idx 1 + (rowGather N E C wf).batchCoord j 1 + (rowGather N E C wf).offCoord j 1 = _
  rw [GatherDims.batchCoord_eq_zero _ _ _ List.not_mem_nil]
  unfold GatherDims.start
  rw [dif_neg (show (1 : Fin 2) ∉ (rowGather N E C wf).startIndexMap from (by decide : (1 : Fin 2) ∉ [(0 : Fin 2)]))]
  unfold GatherDims.offCoord
  rw [dif_pos (show (1 : Fin 2) ∈ (rowGather N E C wf).sKept from (GatherDims.mem_sKept _ _).mpr
    ⟨(by decide : (1 : Fin 2) ∉ [(0 : Fin 2)]), List.not_mem_nil⟩)]
  simp only [Nat.zero_add]
  rfl

/-- The entry a vector gather reads: the index of the result's position, read signed and clamped. -/
theorem vecGather_val (wf) (e : (⟨1, ![E]⟩ : Shape).Idx) (idx : IVec ⟨2, ![E, 1]⟩ w) :
    ((vecGather N E wf).operandIdx e idx 0).val = min (idx (ix2 (e 0) 0)).toInt.toNat (N - 1) := by
  show (vecGather N E wf).start e idx 0 + (vecGather N E wf).batchCoord e 0 + (vecGather N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx e ⟨List.idxOf (0 : Fin 1) (vecGather N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update of a row scatter that lands on operand element `i` has index `i`'s row (read signed) and `i`'s column. -/
theorem rowScatter_some (wf) (j : (⟨2, ![E, C]⟩ : Shape).Idx) (idx : IVec ⟨2, ![E, 1]⟩ w)
    (i : (⟨2, ![N, C]⟩ : Shape).Idx) (h : (rowScatter N E C wf).resultIdx? j idx = some i) :
    (idx (ix2 (j 0) 0)).toInt = ((i 0).val : Int) ∧ (j 1).val = (i 1).val := by
  unfold ScatterDims.resultIdx? at h
  split at h
  · rename_i hin
    have hi := Option.some.inj h
    have h0 : ((rowScatter N E C wf).start j idx 0 + ((rowScatter N E C wf).window j 0 : Int)).toNat = (i 0).val := by
      rw [← hi]
    have h1 : ((rowScatter N E C wf).start j idx 1 + ((rowScatter N E C wf).window j 1 : Int)).toNat = (i 1).val := by
      rw [← hi]
    have s0 : (rowScatter N E C wf).start j idx 0 = (idx (ix2 (j 0) 0)).toInt := by
      unfold ScatterDims.start
      rw [dif_pos (show (0 : Fin 2) ∈ (rowScatter N E C wf).scatterDimsToOperandDims from List.mem_singleton.mpr rfl)]
      have hsi : (rowScatter N E C wf).siIdx j ⟨List.idxOf (0 : Fin 2) (rowScatter N E C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have w0 : (rowScatter N E C wf).window j 0 = 0 := by
      unfold ScatterDims.window
      rw [dif_neg (show (0 : Fin 2) ∉ (rowScatter N E C wf).sKept by
        simp [ScatterDims.sKept, Shape.kept, List.mem_filter, List.mem_finRange])]
    have s1 : (rowScatter N E C wf).start j idx 1 = 0 := by
      unfold ScatterDims.start
      rw [dif_neg (show (1 : Fin 2) ∉ (rowScatter N E C wf).scatterDimsToOperandDims from
        (by decide : (1 : Fin 2) ∉ [(0 : Fin 2)]))]
    have w1 : (rowScatter N E C wf).window j 1 = (j 1).val := by
      unfold ScatterDims.window
      rw [dif_pos (show (1 : Fin 2) ∈ (rowScatter N E C wf).sKept by
        simp [ScatterDims.sKept, Shape.kept, List.mem_filter, List.mem_finRange])]
      rfl
    have p0 := (hin 0).1
    rw [s0, w0] at h0 p0
    rw [s1, w1] at h1
    constructor
    · omega
    · omega
  · exact absurd h (by simp)

end Cert.IndexFacts

end
-- ==== Proof.EdgeCoef.lean ====
/-
  The reference's per-edge coefficient, for an edge whose message reaches a node.

  The reference multiplies the gathered row of edge e by norm e = dinv[src e] · dinv[dst e], both factors vector gathers of the
  node scales through index columns built from the edge array: the source column is the wrapped source word
  (v < 0 ? v + 50000 : v), the destination column the wrapped destination word. The row gather of the messages reads
  through the same wrapped source column, and the segment sum scatters through the RAW destination column. Every gather
  reads its index signed and clamped into [0, 49999]; the scatter reads it signed and unclamped and drops an update whose
  index is outside [0, 50000). So for a message j of edge e that the segment sum sends to row i: the vector gather and
  the row gather through the one source column read the same row; the raw destination word of e is i, nonnegative, so
  the wrap leaves it, and its clamp is i. Hence norm e = dinv[row read for j] · dinv[i].
-/
import proofs.«153091_j996432413504_2_alg».proof.Proof.RefReadP
import proofs.«153091_j996432413504_2_alg».proof.Proof.IndexFacts
import Idealize.ShloMosaic.PureOps.Ideal
import Idealize.ShloMosaic.Lib.ValueIdx

noncomputable section

namespace Cert.ReferenceIdeal.Edge

open Cert.ReferenceIdeal Cert.ReferenceIdeal.Gen Idealize.ShloMosaic Idealize.ShloMosaic.ValueIdx
open Cert.IndexFacts

/-- A nonnegative index word is left as it is by the wrap `v < 0 ? v + 50000 : v`. -/
theorem wrap_of_nonneg (v : BitVec 32) (n : Nat) (hv : v.toInt = (n : Int)) :
    Scalar.select (IntOp.cmpi .slt v 0#32) (IntOp.addi v 50000#32) v = v := by
  have h : v.slt 0#32 = false := by
    simp only [BitVec.slt, hv]
    simp
  unfold IntOp.cmpi
  simp only [h]
  exact select_zero _ _

/-- An index word whose signed value is a row number below 50000 is its own clamp into `[0, 49999]`. -/
theorem clamp_of_eq (v : BitVec 32) (n : Nat) (hn : n < 50000) (hv : v.toInt = (n : Int)) :
    min v.toInt.toNat (50000 - 1) = n := by
  rw [hv]; simp; omega

abbrev gV := gather_S50000_S600000x1_S600000_n_0_n_n_0_1_1
abbrev gR := gather_S50000x128_S600000x1_S600000x128_1_0_n_n_0_1_1128
abbrev sR := scatter_S50000x128_S600000x1_S600000x128_1_0_0_1

/-- The entry the vector gather reads for edge `e` through the index column `col`. -/
theorem vec_row (e : Fin 600000) (col : IVec S600000x1 32) :
    (gV.operandIdx (ix1 e) col 0).val = min (col (ix2 e (0 : Fin 1))).toInt.toNat (50000 - 1) :=
  vecGather_val (N := 50000) (E := 600000) gV.wf (ix1 e) col

/-- The row the row gather reads for message `j` through the index column `col`. -/
theorem row_row (j : S600000x128.Idx) (col : IVec S600000x1 32) :
    (gR.operandIdx j col 0).val = min (col (ix2 (j 0) (0 : Fin 1))).toInt.toNat (50000 - 1) :=
  rowGather_row (N := 50000) (E := 600000) (C := 128) gR.wf j col

/-- The source column is computed twice from the same slice of the edge array: one array. -/
theorem src_cols (x1 : (⟨S2x600000, .i32⟩ : BufTy).Contents (Elt Ideal)) :
    Read.val_main_v23 (F := Ideal) x1 = Read.val_main_v39 (F := Ideal) x1 := rfl

/-- The two reshaped destination rows are the same slice of the edge array. -/
theorem dst_rows (x1 : (⟨S2x600000, .i32⟩ : BufTy).Contents (Elt Ideal)) :
    Read.val_main_v7 (F := Ideal) x1 = Read.val_main_v3 (F := Ideal) x1 := rfl

/-- The destination column read at edge `e`: the wrapped destination word of that edge. -/
theorem dst_col_apply (x1 : (⟨S2x600000, .i32⟩ : BufTy).Contents (Elt Ideal)) (e : Fin 600000) :
    Read.val_main_v30 (F := Ideal) x1 (ix2 e (0 : Fin 1))
      = Scalar.select (IntOp.cmpi .slt (Read.val_main_v7 (F := Ideal) x1 (ix1 e)) 0#32)
          (IntOp.addi (Read.val_main_v7 (F := Ideal) x1 (ix1 e)) 50000#32) (Read.val_main_v7 (F := Ideal) x1 (ix1 e)) := by
  have hk : Read.idx_main_v30 (ix2 e (0 : Fin 1)) = ix1 e := funext fun a => by match a with | ⟨0, _⟩ => rfl
  rw [Read.val_main_v30_apply, hk, Read.val_main_v29_apply, Read.val_main_v26_apply, Read.val_main_v28_apply,
    Read.val_main_v25_apply, Read.val_main_v27_apply, Read.val_main_c_5_apply, Read.val_main_c_6_apply]

/-- The raw destination column read at edge `e`: the destination word of that edge. -/
theorem raw_col_apply (x1 : (⟨S2x600000, .i32⟩ : BufTy).Contents (Elt Ideal)) (e : Fin 600000) :
    Read.val_main_v45 (F := Ideal) x1 (ix2 e (0 : Fin 1)) = Read.val_main_v3 (F := Ideal) x1 (ix1 e) := by
  have hk : Read.idx_main_v45 (ix2 e (0 : Fin 1)) = ix1 e := funext fun a => by match a with | ⟨0, _⟩ => rfl
  rw [Read.val_main_v45_apply, hk]

/-- The two vector gathers of the node scales, read at an edge. -/
theorem src_gather_apply (x1 : (⟨S2x600000, .i32⟩ : BufTy).Contents (Elt Ideal)) (k : S600000.Idx) :
    Read.val_main_v24 (F := Ideal) x1 k = Read.val_main_v17 (F := Ideal) x1 (gV.operandIdx k (Read.val_main_v23 (F := Ideal) x1)) := rfl
theorem dst_gather_apply (x1 : (⟨S2x600000, .i32⟩ : BufTy).Contents (Elt Ideal)) (k : S600000.Idx) :
    Read.val_main_v31 (F := Ideal) x1 k = Read.val_main_v17 (F := Ideal) x1 (gV.operandIdx k (Read.val_main_v30 (F := Ideal) x1)) := rfl

/-- THE EDGE COEFFICIENT: for a message `j` that the segment sum sends to node row `i`, the per-edge coefficient is the
    node scale at the row the row gather reads times the node scale at row `i`. Both vector gathers and the row gather
    read their index signed and clamped into `[0, 49999]`; the source column is one array; a message that lands on row
    `i` carries the destination word `i`, which is nonnegative, so the wrap leaves it and the clamp is `i` itself. -/
theorem coef_eq (x1 : (⟨S2x600000, .i32⟩ : BufTy).Contents (Elt Ideal)) (i : S50000x128.Idx) (j : S600000x128.Idx)
    (h : scatter_S50000x128_S600000x1_S600000x128_1_0_0_1.resultIdx? j (Read.val_main_v45 (F := Ideal) x1) = some i) :
    Read.val_main_v32 (F := Ideal) x1 (ix1 (j 0))
      = Read.val_main_v17 (F := Ideal) x1 (ix1 ((gather_S50000x128_S600000x1_S600000x128_1_0_n_n_0_1_1128.operandIdx j (Read.val_main_v39 (F := Ideal) x1)) 0))
        * Read.val_main_v17 (F := Ideal) x1 (ix1 (i 0)) := by
  obtain ⟨e, he⟩ : ∃ e : Fin 600000, e = j 0 := ⟨j 0, rfl⟩
  have hsrc : gV.operandIdx (ix1 e) (Read.val_main_v23 (F := Ideal) x1)
      = ix1 ((gR.operandIdx j (Read.val_main_v39 (F := Ideal) x1)) 0) := by
    funext a; apply Fin.ext
    match a with
    | ⟨0, _⟩ =>
      show (gV.operandIdx (ix1 e) (Read.val_main_v23 (F := Ideal) x1) 0).val = ((gR.operandIdx j (Read.val_main_v39 (F := Ideal) x1)) 0).val
      rw [vec_row, row_row, src_cols, he]
  have hs := rowScatter_some (N := 50000) (E := 600000) (C := 128) sR.wf j (Read.val_main_v45 (F := Ideal) x1) i h
  have hw : (Read.val_main_v7 (F := Ideal) x1 (ix1 e)).toInt = ((i 0).val : Int) := by
    rw [dst_rows, ← raw_col_apply, he]; exact hs.1
  have hdst : gV.operandIdx (ix1 e) (Read.val_main_v30 (F := Ideal) x1) = ix1 (i 0) := by
    funext a; apply Fin.ext
    match a with
    | ⟨0, _⟩ =>
      show (gV.operandIdx (ix1 e) (Read.val_main_v30 (F := Ideal) x1) 0).val = (i 0).val
      rw [vec_row, dst_col_apply, wrap_of_nonneg _ (i 0).val hw]
      exact clamp_of_eq _ (i 0).val (i 0).isLt hw
  rw [Read.val_main_v32_apply, Ideal.mulf_def, src_gather_apply, dst_gather_apply, ← he, hsrc, hdst]
  rfl

end Cert.ReferenceIdeal.Edge
end
-- ==== Proof.HeadValue.lean ====
/-
  The MLP head: region 5 of the kernel against the tail of the reference.

  Both programs end by the same computation on a pooled array `P` [128,128]: a hidden layer `g = max (P·w1 + b1) 0`,
  the logits `g·w2 + b2` [128,10], and the log-softmax of each row of ten logits — the row shifted by its maximum
  (taken from negative infinity), minus the logarithm of the sum of the exponentials of the shifted row. `headOf`
  states that result as ONE function of `P` and the four parameters, index by index, on the extended reals.
  The kernel computes it in one grid point whose blocks are the whole arrays (two matrix products into a zero
  accumulator, the biases laid along the rows, the row maximum and the row sum as lane reductions laid along the
  columns); the reference computes it by a `dot_general`, broadcasts and two `reduce`s. Each side is read at an index
  `(r, c)` and meets `headOf` there: the products as sums over the contracted coordinate, the reductions as the fold
  of `max` and the sum over the ten classes. Nothing is assumed finite: both sides are the same sums, maxima,
  exponentials and logarithms of extended reals.
-/
import proofs.«153091_j996432413504_2_alg».proof.Proof.Gen.KernelIdeal.Frame
import proofs.«153091_j996432413504_2_alg».proof.Proof.RefReadP
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Idealize.ShloMosaic.TcCoe Idealize.SL.Sem
open Idealize.ShloMosaic.Pipeline (Dat)

namespace Cert.KernelIdeal.Head

open Cert.KernelIdeal Cert.KernelIdeal.Gen

/-! ## The specification: the head, index by index -/

/-- Negative infinity as the programs write it: the neutral element of the row maximum. -/
abbrev ninf : EReal := Ideal.ofBits .f32 0xFF800000#32

/-- The hidden layer at row `r`, unit `q`: the rectified affine image of row `r` of `P`. -/
def hid (P w1 : S128x128.Idx → EReal) (b1 : S128.Idx → EReal) (r q : Fin 128) : EReal :=
  max ((∑ k : Fin 128, P (ix2 r k) * w1 (ix2 k q)) + b1 (ix1 q)) 0

/-- The logits at row `r`, class `c`: the affine image of the hidden row. -/
def logit (P w1 : S128x128.Idx → EReal) (b1 : S128.Idx → EReal) (w2 : S128x10.Idx → EReal) (b2 : S10.Idx → EReal)
    (r : Fin 128) (c : Fin 10) : EReal :=
  (∑ k : Fin 128, hid P w1 b1 r k * w2 (ix2 k c)) + b2 (ix1 c)

/-- The maximum of a row of ten, taken from negative infinity (and once more against it, as both programs do). -/
def rmax (L : Fin 10 → EReal) : EReal := max ninf ((Finset.univ : Finset (Fin 10)).fold max ninf L)

/-- The log-softmax of a row of ten at class `c`: the row shifted by its maximum, minus the logarithm of the sum
    of the exponentials of the shifted row. -/
def lsmRow (L : Fin 10 → EReal) (c : Fin 10) : EReal :=
  (L c - rmax L) - Ideal.log (∑ c' : Fin 10, Ideal.exp (L c' - rmax L))

/-- THE HEAD: the log-probabilities [128,10] as one function of the pooled array and the four parameters. -/
def headOf (P w1 : S128x128.Idx → EReal) (b1 : S128.Idx → EReal) (w2 : S128x10.Idx → EReal) (b2 : S10.Idx → EReal) :
    S128x10.Idx → EReal :=
  fun i => lsmRow (logit P w1 b1 w2 b2 (i 0)) (i 1)

theorem headOf_ix2 (P w1 : S128x128.Idx → EReal) (b1 : S128.Idx → EReal) (w2 : S128x10.Idx → EReal) (b2 : S10.Idx → EReal)
    (r : Fin 128) (c : Fin 10) : headOf P w1 b1 w2 b2 (ix2 r c) = lsmRow (logit P w1 b1 w2 b2 r) c := rfl

/-! ## The two matrix products, read at an index -/

theorem mm1_lhs0 (i : S128x128.Idx) (k : dot_S128x128_S128x128_S128x128_1_0_0_1_n_n.contr.Idx) : (dot_S128x128_S128x128_S128x128_1_0_0_1_n_n.lhsIdx i k 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mm1_lhs1 (i : S128x128.Idx) (k : dot_S128x128_S128x128_S128x128_1_0_0_1_n_n.contr.Idx) : (dot_S128x128_S128x128_S128x128_1_0_0_1_n_n.lhsIdx i k 1).val = (k ⟨0, by decide⟩).val :=
  dot_S128x128_S128x128_S128x128_1_0_0_1_n_n.lhsIdx_val_of_single rfl i k
theorem mm1_rhs0 (i : S128x128.Idx) (k : dot_S128x128_S128x128_S128x128_1_0_0_1_n_n.contr.Idx) : (dot_S128x128_S128x128_S128x128_1_0_0_1_n_n.rhsIdx i k 0).val = (k ⟨0, by decide⟩).val :=
  dot_S128x128_S128x128_S128x128_1_0_0_1_n_n.rhsIdx_val_of_single rfl i k
theorem mm1_rhs1 (i : S128x128.Idx) (k : dot_S128x128_S128x128_S128x128_1_0_0_1_n_n.contr.Idx) : (dot_S128x128_S128x128_S128x128_1_0_0_1_n_n.rhsIdx i k 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A [128,128] by [128,128] product into the zero accumulator, at row `r`, column `q`: the sum over the
    contracted coordinate. -/
theorem mm1_apply {φ₁ φ₂ : FTy} (L : FVec Ideal S128x128 φ₁) (R : FVec Ideal S128x128 φ₂) (r : Fin 128) (q : Fin 128) :
    matmul (F := Ideal) dot_S128x128_S128x128_S128x128_1_0_0_1_n_n none L R (constant (F := Ideal) S128x128 .f32 0x00000000#32) (ix2 r q)
      = ∑ k : Fin 128, L (ix2 r k) * R (ix2 k q) := by
  refine (Ideal.matmul_constant_zero_apply dot_S128x128_S128x128_S128x128_1_0_0_1_n_n none L R (ix2 r q)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r q) ((contrEquiv1 dot_S128x128_S128x128_S128x128_1_0_0_1_n_n 128 rfl rfl).symm k) = ix2 r k := funext fun a => Fin.ext (by
    match a with
    | ⟨0, _⟩ => exact mm1_lhs0 _ _
    | ⟨1, _⟩ => exact (mm1_lhs1 _ _).trans hk)
  have er : dot_S128x128_S128x128_S128x128_1_0_0_1_n_n.rhsIdx (ix2 r q) ((contrEquiv1 dot_S128x128_S128x128_S128x128_1_0_0_1_n_n 128 rfl rfl).symm k) = ix2 k q := funext fun a => Fin.ext (by
    match a with
    | ⟨0, _⟩ => exact (mm1_rhs0 _ _).trans hk
    | ⟨1, _⟩ => exact mm1_rhs1 _ _)
  rw [el, er]

theorem mm2_lhs0 (i : S128x10.Idx) (k : dot_S128x128_S128x10_S128x10_1_0_0_1_n_n.contr.Idx) : (dot_S128x128_S128x10_S128x10_1_0_0_1_n_n.lhsIdx i k 0).val = (i 0).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl
theorem mm2_lhs1 (i : S128x10.Idx) (k : dot_S128x128_S128x10_S128x10_1_0_0_1_n_n.contr.Idx) : (dot_S128x128_S128x10_S128x10_1_0_0_1_n_n.lhsIdx i k 1).val = (k ⟨0, by decide⟩).val :=
  dot_S128x128_S128x10_S128x10_1_0_0_1_n_n.lhsIdx_val_of_single rfl i k
theorem mm2_rhs0 (i : S128x10.Idx) (k : dot_S128x128_S128x10_S128x10_1_0_0_1_n_n.contr.Idx) : (dot_S128x128_S128x10_S128x10_1_0_0_1_n_n.rhsIdx i k 0).val = (k ⟨0, by decide⟩).val :=
  dot_S128x128_S128x10_S128x10_1_0_0_1_n_n.rhsIdx_val_of_single rfl i k
theorem mm2_rhs1 (i : S128x10.Idx) (k : dot_S128x128_S128x10_S128x10_1_0_0_1_n_n.contr.Idx) : (dot_S128x128_S128x10_S128x10_1_0_0_1_n_n.rhsIdx i k 1).val = (i 1).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-- A [128,128] by [128,10] product into the zero accumulator, at row `r`, column `q`: the sum over the
    contracted coordinate. -/
theorem mm2_apply {φ₁ φ₂ : FTy} (L : FVec Ideal S128x128 φ₁) (R : FVec Ideal S128x10 φ₂) (r : Fin 128) (q : Fin 10) :
    matmul (F := Ideal) dot_S128x128_S128x10_S128x10_1_0_0_1_n_n none L R (constant (F := Ideal) S128x10 .f32 0x00000000#32) (ix2 r q)
      = ∑ k : Fin 128, L (ix2 r k) * R (ix2 k q) := by
  refine (Ideal.matmul_constant_zero_apply dot_S128x128_S128x10_S128x10_1_0_0_1_n_n none L R (ix2 r q)).trans ?_
  rw [← Equiv.sum_comp (contrEquiv1 dot_S128x128_S128x10_S128x10_1_0_0_1_n_n 128 rfl rfl).symm]
  refine Finset.sum_congr rfl fun k _ => ?_
  have hk := contrEquiv1_symm_val dot_S128x128_S128x10_S128x10_1_0_0_1_n_n 128 rfl rfl k
  have el : dot_S128x128_S128x10_S128x10_1_0_0_1_n_n.lhsIdx (ix2 r q) ((contrEquiv1 dot_S128x128_S128x10_S128x10_1_0_0_1_n_n 128 rfl rfl).symm k) = ix2 r k := funext fun a => Fin.ext (by
    match a with
    | ⟨0, _⟩ => exact mm2_lhs0 _ _
    | ⟨1, _⟩ => exact (mm2_lhs1 _ _).trans hk)
  have er : dot_S128x128_S128x10_S128x10_1_0_0_1_n_n.rhsIdx (ix2 r q) ((contrEquiv1 dot_S128x128_S128x10_S128x10_1_0_0_1_n_n 128 rfl rfl).symm k) = ix2 k q := funext fun a => Fin.ext (by
    match a with
    | ⟨0, _⟩ => exact (mm2_rhs0 _ _).trans hk
    | ⟨1, _⟩ => exact mm2_rhs1 _ _)
  rw [el, er]

/-! ## Layout operations read at an index: a vector as a column, a column over the columns -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid along the rows: `[b]` as `[1, b]` over `[a, b]` reads, at `(p, c)`, the vector at `c`. -/
theorem row_bcast_apply {α : Type} {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A vector laid along the columns: `[a]` as `[a, 1]` over `[a, b]` reads, at `(p, c)`, the vector at `p`. -/
theorem col_bcast_apply {α : Type} {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-! ## The kernel's two lane reductions, read at a row -/

/-- The index of a [128,10] array over row `r` with class coordinate `k` inserted is `(r, k)`. -/
theorem lift_row (h : S128x10.Reduces [1] S128) (r : Fin 128) (k : Fin 10) : h.lift (ix1 r) k = ix2 r k :=
  funext fun a => Fin.ext (by match a with | ⟨0, _⟩ => rfl | ⟨1, _⟩ => rfl)

/-- The row maximum of a [128,10] vector at row `r`: the fold of `max` from negative infinity over the row. -/
theorem kmax_apply (L : FVec Ideal S128x10 .f32) (h : S128x10.Reduces [1] S128) (hφ : FKind.Formats .f32)
    (hacc : (0xFF800000#32 : BitVec 32) = FKind.maximumf.neutral .f32 hφ) (r : Fin 128) :
    multiReduction (F := Ideal) .maximumf [1] S128 L 0xFF800000#32 h hφ hacc (ix1 r)
      = (Finset.univ : Finset (Fin 10)).fold max ninf (fun c => L (ix2 r c)) := by
  refine (Ideal.multiReduction_maximumf_single L 0xFF800000#32 h hφ hacc (ix1 r)).trans ?_
  refine congrArg (Finset.fold max ninf · (Finset.univ : Finset (Fin 10))) (funext fun k => ?_)
  exact congrArg L (lift_row h r k)

/-- The row sum of a [128,10] vector at row `r`. -/
theorem ksum_apply (L : FVec Ideal S128x10 .f32) (h : S128x10.Reduces [1] S128) (hφ : FKind.Formats .f32)
    (hacc : (0x00000000#32 : BitVec 32) = FKind.add.neutral .f32 hφ) (r : Fin 128) :
    multiReduction (F := Ideal) .add [1] S128 L 0x00000000#32 h hφ hacc (ix1 r) = ∑ c : Fin 10, L (ix2 r c) := by
  refine (Ideal.multiReduction_add_single L 0x00000000#32 h hφ hacc (ix1 r)).trans ?_
  exact Finset.sum_congr rfl fun k _ => congrArg L (lift_row h r k)

/-! ## The kernel's payload as three vector terms, each read at an index -/

/-- The kernel's first dense layer with its rectifier, as one vector term of the loaded blocks. -/
def klin1 (P w1 : Vec Ideal S128x128 .f32) (b1 : Vec Ideal S128 .f32) : FVec Ideal S128x128 .f32 :=
  maximumf (F := Ideal) (addf (F := Ideal) (matmul (F := Ideal) dot_S128x128_S128x128_S128x128_1_0_0_1_n_n none
        (truncf (F := Ideal) .bf16 (shapeCast S128x128 P shapeCasts_S128x128_S128x128) bitsLt_bf16_f32)
        (truncf (F := Ideal) .bf16 w1 bitsLt_bf16_f32) (constant (F := Ideal) S128x128 .f32 0x00000000#32))
      (broadcastTo S128x128 (shapeCast S1x128 b1 shapeCasts_S128_S1x128) broadcasts_S1x128_S128x128))
    (broadcast S128x128 (Scalar.ofBits (F := Ideal) .f32 0x00000000#32))

/-- The kernel's second dense layer. -/
def klin2 (g : FVec Ideal S128x128 .f32) (w2 : Vec Ideal S128x10 .f32) (b2 : Vec Ideal S10 .f32) : FVec Ideal S128x10 .f32 :=
  addf (F := Ideal) (matmul (F := Ideal) dot_S128x128_S128x10_S128x10_1_0_0_1_n_n none
      (truncf (F := Ideal) .bf16 g bitsLt_bf16_f32) (truncf (F := Ideal) .bf16 w2 bitsLt_bf16_f32)
      (constant (F := Ideal) S128x10 .f32 0x00000000#32))
    (broadcastTo S128x10 (shapeCast S1x10 b2 shapeCasts_S10_S1x10) broadcasts_S1x10_S128x10)

/-- The kernel's row maximum, taken once more against negative infinity. -/
def kmax (L : FVec Ideal S128x10 .f32) : FVec Ideal S128 .f32 :=
  maximumf (F := Ideal) (broadcast S128 (Scalar.ofBits (F := Ideal) .f32 0xFF800000#32))
    (multiReduction (F := Ideal) .maximumf [1] S128 L 0xFF800000#32 reduces_S128x10_S128 (.inl rfl) rfl)

/-- The kernel's shifted logits. -/
def kshift (L : FVec Ideal S128x10 .f32) : FVec Ideal S128x10 .f32 :=
  subf (F := Ideal) L (broadcastTo S128x10 (shapeCast S128x1 (kmax L) shapeCasts_S128_S128x1) broadcasts_S128x1_S128x10)

/-- The kernel's log-softmax along the classes. -/
def klsm (L : FVec Ideal S128x10 .f32) : FVec Ideal S128x10 .f32 :=
  subf (F := Ideal) (kshift L) (broadcastTo S128x10
    (log (F := Ideal) (shapeCast S128x1 (multiReduction (F := Ideal) .add [1] S128 (exp (F := Ideal) (kshift L)) 0x00000000#32
      reduces_S128x10_S128 (.inl rfl) rfl) shapeCasts_S128_S128x1)) broadcasts_S128x1_S128x10)

/-- The payload is the three composed. -/
theorem pay_split (P w1 : Vec Ideal S128x128 .f32) (b1 : Vec Ideal S128 .f32) (w2 : Vec Ideal S128x10 .f32) (b2 : Vec Ideal S10 .f32) :
    k5_pay1 (F := Ideal) P w1 b1 w2 b2 = klsm (klin2 (klin1 P w1 b1) w2 b2) := rfl

theorem klin1_apply (P w1 : Vec Ideal S128x128 .f32) (b1 : Vec Ideal S128 .f32) (r q : Fin 128) :
    klin1 P w1 b1 (ix2 r q) = hid P w1 b1 r q := by
  unfold klin1 hid
  rw [maximumf_apply, addf_apply, broadcast_apply]
  refine congrArg₂ max (congrArg₂ (· + ·) ?_ ?_) Ideal.ofBits_zero_f32
  · refine (mm1_apply _ _ r q).trans (Finset.sum_congr rfl fun k _ => ?_)
    show shapeCast S128x128 P shapeCasts_S128x128_S128x128 (ix2 r k) * w1 (ix2 k q) = _
    rw [shapeCast_self]
  · exact row_bcast_apply b1 _ _ r q

theorem klin2_apply (g : FVec Ideal S128x128 .f32) (w2 : Vec Ideal S128x10 .f32) (b2 : Vec Ideal S10 .f32) (r : Fin 128) (c : Fin 10) :
    klin2 g w2 b2 (ix2 r c) = (∑ k : Fin 128, g (ix2 r k) * w2 (ix2 k c)) + b2 (ix1 c) := by
  unfold klin2
  rw [addf_apply]
  refine congrArg₂ (· + ·) ?_ ?_
  · exact mm2_apply _ _ r c
  · exact row_bcast_apply b2 _ _ r c

theorem kmax_row (L : FVec Ideal S128x10 .f32) (r : Fin 128) : kmax L (ix1 r) = rmax fun c => L (ix2 r c) := by
  unfold kmax rmax
  rw [maximumf_apply, broadcast_apply]
  exact congrArg (max ninf) (kmax_apply L _ _ _ r)

theorem kshift_apply (L : FVec Ideal S128x10 .f32) (r : Fin 128) (c : Fin 10) :
    kshift L (ix2 r c) = L (ix2 r c) - rmax fun c' => L (ix2 r c') := by
  unfold kshift
  rw [subf_apply]
  refine congrArg (L (ix2 r c) - ·) ?_
  exact (col_bcast_apply (kmax L) _ _ r c).trans (kmax_row L r)

theorem klsm_apply (L : FVec Ideal S128x10 .f32) (r : Fin 128) (c : Fin 10) :
    klsm L (ix2 r c) = lsmRow (fun c' => L (ix2 r c')) c := by
  unfold klsm lsmRow
  rw [subf_apply]
  refine congrArg₂ (· - ·) (kshift_apply L r c) ?_
  refine (broadcastTo_a1_ab_apply _ _ r c).trans ?_
  show Ideal.log (shapeCast S128x1 _ shapeCasts_S128_S128x1 (ix2 r (0 : Fin 1))) = _
  refine congrArg Ideal.log ?_
  refine (shapeCast_a_a1_apply _ _ r 0).trans ?_
  refine (ksum_apply _ _ _ _ r).trans ?_
  exact Finset.sum_congr rfl fun c' _ => congrArg Ideal.exp (kshift_apply L r c')

/-- THE KERNEL'S PAYLOAD IS THE HEAD of its five loaded blocks. -/
theorem pay_eq (P w1 : Vec Ideal S128x128 .f32) (b1 : Vec Ideal S128 .f32) (w2 : Vec Ideal S128x10 .f32) (b2 : Vec Ideal S10 .f32) :
    k5_pay1 (F := Ideal) P w1 b1 w2 b2 = headOf P w1 b1 w2 b2 := by
  rw [pay_split]
  funext i
  obtain ⟨r, c, rfl⟩ : ∃ (r : Fin 128) (c : Fin 10), i = ix2 r c := ⟨i 0, i 1, eq_ix2 i⟩
  rw [klsm_apply, headOf_ix2]
  refine congrArg (lsmRow · c) (funext fun c' => ?_)
  rw [klin2_apply]
  unfold logit
  refine congrArg (· + b2 (ix1 c')) (Finset.sum_congr rfl fun k _ => ?_)
  rw [klin1_apply]

/-! ## From the one grid point's block to the array -/

theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer is the head of the five input buffers. -/
theorem out5_eq (x0 x1 : Vec Ideal S128x128 .f32) (x2 : Vec Ideal S128 .f32) (x3 : Vec Ideal S128x10 .f32) (x4 : Vec Ideal S10 .f32) :
    out5_5 (F := Ideal) x0 x1 x2 x3 x4 = headOf x0 x1 x2 x3 x4 := by
  unfold out5_5
  rw [View.canon_unit_zero hz2]
  simp only [View.ld_unit_zero (S := S128x128) hz2, View.ld_unit_zero (S := S128x10) hz2, View.ld_unit_zero (S := S128) hz1,
    View.ld_unit_zero (S := S10) hz1]
  exact pay_eq x0 x1 x2 x3 x4

variable (V : (c : Dev nD) → (b : Ref sig .tc) → Buf (Elt Ideal) ((c : Thread nD τ).loc b))

/-! Each window's block at the one grid point is its whole array. -/

theorem iblk5_0 (c : Dev nD) : iblk5 V c 0 t5_0 = V c (Pipeline.arrRef spec5 0) := by
  unfold iblk5
  have hz' : (fun a => win5_0.index t5_0 a * main_v89.ty.shape.size a) = fun _ => 0 := funext fun a => by fin_cases a <;> decide
  exact Memref.read_access_unit_zero (Elt Ideal) main_v89 hz' (fun a => by rw [congrFun hz' a]; simp) (V c main_v89)

theorem iblk5_1 (c : Dev nD) : iblk5 V c 1 t5_0 = V c (Pipeline.arrRef spec5 1) := by
  unfold iblk5
  have hz' : (fun a => win5_1.index t5_0 a * main_arg9.ty.shape.size a) = fun _ => 0 := funext fun a => by fin_cases a <;> decide
  exact Memref.read_access_unit_zero (Elt Ideal) main_arg9 hz' (fun a => by rw [congrFun hz' a]; simp) (V c main_arg9)

theorem iblk5_2 (c : Dev nD) : iblk5 V c 2 t5_0 = V c (Pipeline.arrRef spec5 2) := by
  unfold iblk5
  have hz' : (fun a => win5_2.index t5_0 a * main_arg10.ty.shape.size a) = fun _ => 0 := funext fun a => by fin_cases a <;> decide
  exact Memref.read_access_unit_zero (Elt Ideal) main_arg10 hz' (fun a => by rw [congrFun hz' a]; simp) (V c main_arg10)

theorem iblk5_3 (c : Dev nD) : iblk5 V c 3 t5_0 = V c (Pipeline.arrRef spec5 3) := by
  unfold iblk5
  have hz' : (fun a => win5_3.index t5_0 a * main_arg11.ty.shape.size a) = fun _ => 0 := funext fun a => by fin_cases a <;> decide
  exact Memref.read_access_unit_zero (Elt Ideal) main_arg11 hz' (fun a => by rw [congrFun hz' a]; simp) (V c main_arg11)

theorem iblk5_4 (c : Dev nD) : iblk5 V c 4 t5_0 = V c (Pipeline.arrRef spec5 4) := by
  unfold iblk5
  have hz' : (fun a => win5_4.index t5_0 a * main_arg12.ty.shape.size a) = fun _ => 0 := funext fun a => by fin_cases a <;> decide
  exact Memref.read_access_unit_zero (Elt Ideal) main_arg12 hz' (fun a => by rw [congrFun hz' a]; simp) (V c main_arg12)

/-- The head of the arrays region 5 finds in its five input windows. -/
abbrev headV (c : Dev nD) : S128x10.Idx → EReal :=
  headOf (V c (Pipeline.arrRef spec5 0)) (V c (Pipeline.arrRef spec5 1)) (V c (Pipeline.arrRef spec5 2))
    (V c (Pipeline.arrRef spec5 3)) (V c (Pipeline.arrRef spec5 4))

/-- What the one grid point writes back is the whole of that head. -/
theorem flushed5 (c : Dev nD) (t : Fin cfg5.N) :
    (dat5 V c).flushed 5 t = ((cfg5.win 5).blk t).view.read (Elt Ideal) (headV V c) := by
  obtain rfl : t = t5_0 := fin_N5 t
  show (cfg5.win 5).cut (grid5.coords t5_0) ((dat5 V c).after 5 t5_0) = _
  rw [after5_5, out5_eq, iblk5_0 V c, iblk5_1 V c, iblk5_2 V c, iblk5_3 V c, iblk5_4 V c]
  have hz' : (fun a => win5_5.index t5_0 a * main_v90.ty.shape.size a) = fun _ => 0 := funext fun a => by fin_cases a <;> decide
  exact (Memref.read_access_unit_zero (Elt Ideal) main_v90 hz' (fun a => by rw [congrFun hz' a]; simp) (headV V c)).symm

/-- THE OUTPUT ARRAY after region 5: the head of the arrays the region finds. -/
theorem final5 (c : Dev nD) :
    (dat5 (F := Ideal) V c).arrAt 5 cfg5.N
      = headOf (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 (headV V c) (fun t _ => flushed5 V c t) fun i =>
    ⟨t5_0, flush5_5 t5_0, by
      show i ∈ ((View.whole main_v90).slice (win5_5.rect t5_0)).set
      rw [View.set_slice_whole, Rect.mem_set_unit]
      intro a
      have h0 : (i 0 : Nat) < 128 := (i 0).isLt
      have h1 : (i 1 : Nat) < 10 := (i 1).isLt
      match a with
      | ⟨0, _⟩ =>
        show win5_5.index t5_0 0 * win5_5.size 0 ≤ (i 0 : Nat) ∧ (i 0 : Nat) < win5_5.index t5_0 0 * win5_5.size 0 + win5_5.xsize (grid5.coords t5_0) 0
        rw [show win5_5.index t5_0 0 * win5_5.size 0 = 0 from by decide +kernel, show win5_5.xsize (grid5.coords t5_0) 0 = 128 from by decide +kernel]; omega
      | ⟨1, _⟩ =>
        show win5_5.index t5_0 1 * win5_5.size 1 ≤ (i 1 : Nat) ∧ (i 1 : Nat) < win5_5.index t5_0 1 * win5_5.size 1 + win5_5.xsize (grid5.coords t5_0) 1
        rw [show win5_5.index t5_0 1 * win5_5.size 1 = 0 from by decide +kernel, show win5_5.xsize (grid5.coords t5_0) 1 = 10 from by decide +kernel]; omega⟩

end Cert.KernelIdeal.Head

/-! # The reference's tail -/

namespace Cert.ReferenceIdeal.Head

open Cert.ReferenceIdeal Cert.ReferenceIdeal.Gen Cert.KernelIdeal.Head

/-! ## The reference's layout operations read at an index -/

/-- A vector laid along the rows by two `broadcast_in_dim`s: `[b]` to `[1, b]` on axis 1, then over `[a, b]`. -/
theorem row_bcastInDim_apply {α : Type} {a b : ℕ} (x : (⟨1, ![b]⟩ : Shape).Idx → α)
    (h : (⟨1, ![b]⟩ : Shape).BroadcastsInDim ⟨2, ![1, b]⟩ ![1])
    (h' : (⟨2, ![1, b]⟩ : Shape).BroadcastsInDim ⟨2, ![a, b]⟩ ![0, 1]) (p : Fin a) (c : Fin b) :
    broadcastInDim ⟨2, ![a, b]⟩ ![0, 1] h' (broadcastInDim ⟨2, ![1, b]⟩ ![1] h x) (ix2 p c) = x (ix1 c) := by
  refine (broadcastInDim_apply _ h' _ (ix2 p c) (ix2 (0 : Fin 1) c) fun ax => ?_).trans
    (broadcastInDim_apply _ h x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A vector laid along the columns by two `broadcast_in_dim`s: `[a]` to `[a, 1]` on axis 0, then over `[a, b]`. -/
theorem col_bcastInDim_apply {α : Type} {a b : ℕ} (x : (⟨1, ![a]⟩ : Shape).Idx → α)
    (h : (⟨1, ![a]⟩ : Shape).BroadcastsInDim ⟨2, ![a, 1]⟩ ![0])
    (h' : (⟨2, ![a, 1]⟩ : Shape).BroadcastsInDim ⟨2, ![a, b]⟩ ![0, 1]) (f : α → α) (p : Fin a) (c : Fin b) :
    broadcastInDim ⟨2, ![a, b]⟩ ![0, 1] h' (fun j => f (broadcastInDim ⟨2, ![a, 1]⟩ ![0] h x j)) (ix2 p c) = f (x (ix1 p)) := by
  refine (broadcastInDim_apply _ h' _ (ix2 p c) (ix2 p (0 : Fin 1)) fun ax => ?_).trans
    (congrArg f (broadcastInDim_apply _ h x (ix2 p (0 : Fin 1)) (ix1 p) fun ax => ?_))
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

/-! ## The reference's two products, read at an index -/

theorem dg1_lhs0 (i : S128x128.Idx) (k : dot_S128x128_S128x128_S128x128_1_0_0_1_n_n.contr.Idx) : (dot_S128x128_S128x128_S128x128_1_0_0_1_n_n.lhsIdx i k 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem dg1_lhs1 (i : S128x128.Idx) (k : dot_S128x128_S128x128_S128x128_1_0_0_1_n_n.contr.Idx) : (dot_S128x128_S128x128_S128x128_1_0_0_1_n_n.lhsIdx i k 1).val = (k ⟨0, by decide⟩).val :=
  dot_S128x128_S128x128_S128x128_1_0_0_1_n_n.lhsIdx_val_of_single rfl i k
theorem dg1_rhs0 (i : S128x128.Idx) (k : dot_S128x128_S128x128_S128x128_1_0_0_1_n_n.contr.Idx) : (dot_S128x128_S128x128_S128x128_1_0_0_1_n_n.rhsIdx i k 0).val = (k ⟨0, by decide⟩).val :=
  dot_S128x128_S128x128_S128x128_1_0_0_1_n_n.rhsIdx_val_of_single rfl i k
theorem dg1_rhs1 (i : S128x128.Idx) (k : dot_S128x128_S128x128_S128x128_1_0_0_1_n_n.contr.Idx) : (dot_S128x128_S128x128_S128x128_1_0_0_1_n_n.rhsIdx i k 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The reference's [128,128] by [128,128] `dot_general` at row `r`, column `q`: the sum over the contracted coordinate. -/
theorem dg1_apply {φ₁ φ₂ : FTy} (L : FVec Ideal S128x128 φ₁) (R : FVec Ideal S128x128 φ₂) (r : Fin 128) (q : Fin 128) :
    Host.dotGeneral (F := Ideal) dot_S128x128_S128x128_S128x128_1_0_0_1_n_n none L R (ix2 r q) = ∑ k : Fin 128, L (ix2 r k) * R (ix2 k q) := by
  refine (Ideal.dotGeneral_apply dot_S128x128_S128x128_S128x128_1_0_0_1_n_n none .single L R (ix2 r q)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r q) ((contrEquiv1 dot_S128x128_S128x128_S128x128_1_0_0_1_n_n 128 rfl rfl).symm k) = ix2 r k := funext fun a => Fin.ext (by
    match a with
    | ⟨0, _⟩ => exact dg1_lhs0 _ _
    | ⟨1, _⟩ => exact (dg1_lhs1 _ _).trans hk)
  have er : dot_S128x128_S128x128_S128x128_1_0_0_1_n_n.rhsIdx (ix2 r q) ((contrEquiv1 dot_S128x128_S128x128_S128x128_1_0_0_1_n_n 128 rfl rfl).symm k) = ix2 k q := funext fun a => Fin.ext (by
    match a with
    | ⟨0, _⟩ => exact (dg1_rhs0 _ _).trans hk
    | ⟨1, _⟩ => exact dg1_rhs1 _ _)
  rw [el, er]

theorem dg2_lhs0 (i : S128x10.Idx) (k : dot_S128x128_S128x10_S128x10_1_0_0_1_n_n.contr.Idx) : (dot_S128x128_S128x10_S128x10_1_0_0_1_n_n.lhsIdx i k 0).val = (i 0).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl
theorem dg2_lhs1 (i : S128x10.Idx) (k : dot_S128x128_S128x10_S128x10_1_0_0_1_n_n.contr.Idx) : (dot_S128x128_S128x10_S128x10_1_0_0_1_n_n.lhsIdx i k 1).val = (k ⟨0, by decide⟩).val :=
  dot_S128x128_S128x10_S128x10_1_0_0_1_n_n.lhsIdx_val_of_single rfl i k
theorem dg2_rhs0 (i : S128x10.Idx) (k : dot_S128x128_S128x10_S128x10_1_0_0_1_n_n.contr.Idx) : (dot_S128x128_S128x10_S128x10_1_0_0_1_n_n.rhsIdx i k 0).val = (k ⟨0, by decide⟩).val :=
  dot_S128x128_S128x10_S128x10_1_0_0_1_n_n.rhsIdx_val_of_single rfl i k
theorem dg2_rhs1 (i : S128x10.Idx) (k : dot_S128x128_S128x10_S128x10_1_0_0_1_n_n.contr.Idx) : (dot_S128x128_S128x10_S128x10_1_0_0_1_n_n.rhsIdx i k 1).val = (i 1).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-- The reference's [128,128] by [128,10] `dot_general` at row `r`, column `q`: the sum over the contracted coordinate. -/
theorem dg2_apply {φ₁ φ₂ : FTy} (L : FVec Ideal S128x128 φ₁) (R : FVec Ideal S128x10 φ₂) (r : Fin 128) (q : Fin 10) :
    Host.dotGeneral (F := Ideal) dot_S128x128_S128x10_S128x10_1_0_0_1_n_n none L R (ix2 r q) = ∑ k : Fin 128, L (ix2 r k) * R (ix2 k q) := by
  refine (Ideal.dotGeneral_apply dot_S128x128_S128x10_S128x10_1_0_0_1_n_n none .single L R (ix2 r q)).trans ?_
  rw [← Equiv.sum_comp (contrEquiv1 dot_S128x128_S128x10_S128x10_1_0_0_1_n_n 128 rfl rfl).symm]
  refine Finset.sum_congr rfl fun k _ => ?_
  have hk := contrEquiv1_symm_val dot_S128x128_S128x10_S128x10_1_0_0_1_n_n 128 rfl rfl k
  have el : dot_S128x128_S128x10_S128x10_1_0_0_1_n_n.lhsIdx (ix2 r q) ((contrEquiv1 dot_S128x128_S128x10_S128x10_1_0_0_1_n_n 128 rfl rfl).symm k) = ix2 r k := funext fun a => Fin.ext (by
    match a with
    | ⟨0, _⟩ => exact dg2_lhs0 _ _
    | ⟨1, _⟩ => exact (dg2_lhs1 _ _).trans hk)
  have er : dot_S128x128_S128x10_S128x10_1_0_0_1_n_n.rhsIdx (ix2 r q) ((contrEquiv1 dot_S128x128_S128x10_S128x10_1_0_0_1_n_n 128 rfl rfl).symm k) = ix2 k q := funext fun a => Fin.ext (by
    match a with
    | ⟨0, _⟩ => exact (dg2_rhs0 _ _).trans hk
    | ⟨1, _⟩ => exact dg2_rhs1 _ _)
  rw [el, er]

/-! ## The reference's two reductions over the classes, read at a row -/

theorem hred : S128x10.Reduces [1] S128 := by decide

/-- The reference's row maximum: the fold of `max` from the initial value over the row. -/
theorem rmax_apply (L : FVec Ideal S128x10 .f32) (init : S_.Idx → Ideal .f32) (r : Fin 128) :
    Host.reduce (FloatOps.maximumf (F := Ideal) (φ := .f32)) L init reducesTo_S128x10_S128_d1 h_S_ (ix1 r)
      = (Finset.univ : Finset (Fin 10)).fold max (init (Shape.Idx.first h_S_)) (fun c => L (ix2 r c)) := by
  refine (Host.reduce_eq_fold_single (FloatOps.maximumf (F := Ideal) (φ := .f32)) L init reducesTo_S128x10_S128_d1 hred h_S_ (ix1 r)).trans ?_
  refine congrArg (Finset.fold max (init (Shape.Idx.first h_S_)) · (Finset.univ : Finset (Fin 10))) (funext fun k => ?_)
  exact congrArg L (funext fun a => Fin.ext (by match a with | ⟨0, _⟩ => rfl | ⟨1, _⟩ => rfl))

/-- The reference's row sum from the initial value zero. -/
theorem rsum_apply (L : FVec Ideal S128x10 .f32) (r : Fin 128) :
    Host.reduceAdd (F := Ideal) L (constant (F := Ideal) S_ .f32 0x00000000#32) reducesTo_S128x10_S128_d1 h_S_ (ix1 r)
      = ∑ c : Fin 10, L (ix2 r c) := by
  show Ideal.hostReduceAdd reducesTo_S128x10_S128_d1 L (Ideal.ofBits .f32 0x00000000#32) (ix1 r) = _
  rw [Ideal.hostReduceAdd_single reducesTo_S128x10_S128_d1 hred, Ideal.ofBits_zero_f32, zero_add]
  exact Finset.sum_congr rfl fun k _ => congrArg L (funext fun a => Fin.ext (by match a with | ⟨0, _⟩ => rfl | ⟨1, _⟩ => rfl))

/-! ## The reference's tail as vector terms of the pooled array, each read at an index -/

/-- The reference's first dense layer with `relu`. -/
def rlin1 (P x9 : FVec Ideal S128x128 .f32) (x10 : FVec Ideal S128 .f32) : FVec Ideal S128x128 .f32 :=
  maximumf (F := Ideal) (addf (F := Ideal) (Host.dotGeneral (F := Ideal) dot_S128x128_S128x128_S128x128_1_0_0_1_n_n none P x9)
      (broadcastInDim S128x128 ![0, 1] bcast_S1x128_S128x128_0_1 (broadcastInDim S1x128 ![1] bcast_S128_S1x128_1 x10)))
    (broadcastInDim S128x128 ![] bcast_S_S128x128 (constant (F := Ideal) S_ .f32 0x00000000#32))

/-- The reference's second dense layer. -/
def rlin2 (g : FVec Ideal S128x128 .f32) (x11 : FVec Ideal S128x10 .f32) (x12 : FVec Ideal S10 .f32) : FVec Ideal S128x10 .f32 :=
  addf (F := Ideal) (Host.dotGeneral (F := Ideal) dot_S128x128_S128x10_S128x10_1_0_0_1_n_n none g x11)
    (broadcastInDim S128x10 ![0, 1] bcast_S1x10_S128x10_0_1 (broadcastInDim S1x10 ![1] bcast_S10_S1x10_1 x12))

/-- The reference's row maximum, taken once more against negative infinity. -/
def rmaxv (L : FVec Ideal S128x10 .f32) : FVec Ideal S128 .f32 :=
  maximumf (F := Ideal) (broadcastInDim S128 ![] bcast_S_S128 (constant (F := Ideal) S_ .f32 0xFF800000#32))
    (Host.reduce (FloatOps.maximumf (F := Ideal) (φ := .f32)) L (constant (F := Ideal) S_ .f32 0xFF800000#32) reducesTo_S128x10_S128_d1 h_S_)

/-- The reference's shifted logits. -/
def rshift (L : FVec Ideal S128x10 .f32) : FVec Ideal S128x10 .f32 :=
  subf (F := Ideal) L (broadcastInDim S128x10 ![0, 1] bcast_S128x1_S128x10_0_1 (broadcastInDim S128x1 ![0] bcast_S128_S128x1_0 (rmaxv L)))

/-- The reference's `log_softmax`. -/
def rlsm (L : FVec Ideal S128x10 .f32) : FVec Ideal S128x10 .f32 :=
  subf (F := Ideal) (rshift L) (broadcastInDim S128x10 ![0, 1] bcast_S128x1_S128x10_0_1
    (Host.log (F := Ideal) (broadcastInDim S128x1 ![0] bcast_S128_S128x1_0
      (Host.reduceAdd (F := Ideal) (Host.exp (F := Ideal) (rshift L)) (constant (F := Ideal) S_ .f32 0x00000000#32) reducesTo_S128x10_S128_d1 h_S_))))

/-- THE REFERENCE'S TAIL as one term of its pooled array `P` and its last four arguments. -/
def rtail (P x9 : FVec Ideal S128x128 .f32) (x10 : FVec Ideal S128 .f32) (x11 : FVec Ideal S128x10 .f32) (x12 : FVec Ideal S10 .f32) :
    FVec Ideal S128x10 .f32 :=
  rlsm (rlin2 (rlin1 P x9 x10) x11 x12)

theorem rlin1_apply (P x9 : FVec Ideal S128x128 .f32) (x10 : FVec Ideal S128 .f32) (r q : Fin 128) :
    rlin1 P x9 x10 (ix2 r q) = hid P x9 x10 r q := by
  unfold rlin1 hid
  rw [maximumf_apply, addf_apply]
  refine congrArg₂ max (congrArg₂ (· + ·) ?_ ?_) ?_
  · exact dg1_apply P x9 r q
  · exact row_bcastInDim_apply x10 _ _ r q
  · refine (broadcastInDim_apply _ bcast_S_S128x128 _ (ix2 r q) ix0 fun a => a.elim0).trans ?_
    exact Ideal.ofBits_zero_f32

theorem rlin2_apply (g : FVec Ideal S128x128 .f32) (x11 : FVec Ideal S128x10 .f32) (x12 : FVec Ideal S10 .f32) (r : Fin 128) (c : Fin 10) :
    rlin2 g x11 x12 (ix2 r c) = (∑ k : Fin 128, g (ix2 r k) * x11 (ix2 k c)) + x12 (ix1 c) := by
  unfold rlin2
  rw [addf_apply]
  refine congrArg₂ (· + ·) ?_ ?_
  · exact dg2_apply g x11 r c
  · exact row_bcastInDim_apply x12 _ _ r c

theorem rmaxv_row (L : FVec Ideal S128x10 .f32) (r : Fin 128) : rmaxv L (ix1 r) = rmax fun c => L (ix2 r c) := by
  unfold rmaxv rmax
  rw [maximumf_apply]
  refine congrArg₂ max ?_ ?_
  · exact broadcastInDim_apply _ bcast_S_S128 _ (ix1 r) ix0 fun a => a.elim0
  · exact rmax_apply L _ r

theorem rshift_apply (L : FVec Ideal S128x10 .f32) (r : Fin 128) (c : Fin 10) :
    rshift L (ix2 r c) = L (ix2 r c) - rmax fun c' => L (ix2 r c') := by
  unfold rshift
  rw [subf_apply]
  refine congrArg (L (ix2 r c) - ·) ?_
  exact (col_bcastInDim_apply (rmaxv L) _ _ id r c).trans (rmaxv_row L r)

theorem rlsm_apply (L : FVec Ideal S128x10 .f32) (r : Fin 128) (c : Fin 10) :
    rlsm L (ix2 r c) = lsmRow (fun c' => L (ix2 r c')) c := by
  unfold rlsm lsmRow
  rw [subf_apply]
  refine congrArg₂ (· - ·) (rshift_apply L r c) ?_
  refine (col_bcastInDim_apply _ _ _ Ideal.log r c).trans (congrArg Ideal.log ?_)
  refine (rsum_apply _ r).trans ?_
  exact Finset.sum_congr rfl fun c' _ => congrArg Ideal.exp (rshift_apply L r c')

/-- THE REFERENCE'S TAIL IS THE HEAD of its pooled array and its last four arguments, whatever the pooled array. -/
theorem rtail_eq (P x9 : FVec Ideal S128x128 .f32) (x10 : FVec Ideal S128 .f32) (x11 : FVec Ideal S128x10 .f32) (x12 : FVec Ideal S10 .f32) :
    rtail P x9 x10 x11 x12 = headOf P x9 x10 x11 x12 := by
  unfold rtail
  funext i
  obtain ⟨r, c, rfl⟩ : ∃ (r : Fin 128) (c : Fin 10), i = ix2 r c := ⟨i 0, i 1, eq_ix2 i⟩
  rw [rlsm_apply, headOf_ix2]
  refine congrArg (lsmRow · c) (funext fun c' => ?_)
  rw [rlin2_apply]
  unfold logit
  refine congrArg (· + x12 (ix1 c')) (Finset.sum_congr rfl fun k _ => ?_)
  rw [rlin1_apply]

/-! ## The reference's last stage is that tail of its pooled stage -/

open Cert.ReferenceIdeal.Read in
/-- The stage of `%152` (the result of `@log_softmax`) is the tail applied to the stage of the pooled array `%142`
    and the arguments 9 to 12: the stages between them, unfolded. -/
theorem val152_unfold (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 x4 : (⟨S128x128, .f32⟩ : BufTy).Contents (Elt Ideal)) (x5 : (⟨S128, .f32⟩ : BufTy).Contents (Elt Ideal)) (x6 x7 : (⟨S3x128x128, .f32⟩ : BufTy).Contents (Elt Ideal)) (x8 : (⟨S3x128, .f32⟩ : BufTy).Contents (Elt Ideal)) (x9 : (⟨S128x128, .f32⟩ : BufTy).Contents (Elt Ideal)) (x10 : (⟨S128, .f32⟩ : BufTy).Contents (Elt Ideal)) (x11 : (⟨S128x10, .f32⟩ : BufTy).Contents (Elt Ideal)) (x12 : (⟨S10, .f32⟩ : BufTy).Contents (Elt Ideal)) :
    val_main_v152 (F := Ideal) x0 x1 x2 x3 x4 x5 x6 x7 x8 x9 x10 x11 x12
      = rtail (val_main_v142 (F := Ideal) x0 x1 x2 x3 x4 x5 x6 x7 x8) x9 x10 x11 x12 := by
  unfold val_main_v152 val_main_call6_v10 val_main_call6_v9 val_main_call6_v8 val_main_call6_v7 val_main_call6_cst_1
    val_main_call6_v6 val_main_call6_v5 val_main_call6_v4 val_main_call6_v3 val_main_call6_v2 val_main_call6_v1
    val_main_call6_cst_0 val_main_call6_v0 val_main_call6_cst val_main_v151 val_main_v150 val_main_v149 val_main_v148
    val_main_v147 val_main_call5_v0 val_main_call5_cst val_main_v146 val_main_v145 val_main_v144 val_main_v143
  generalize val_main_v142 (F := Ideal) x0 x1 x2 x3 x4 x5 x6 x7 x8 = P
  rfl

end Cert.ReferenceIdeal.Head

namespace Cert.KernelIdeal.Head

/-- THE REFERENCE'S RESULT `%152` IS THE HEAD of its pooled array `%142` and its arguments 9 to 12. -/
theorem ref_tail (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S50000, .i32⟩ : BufTy).Contents (Elt Ideal)) (x3 x4 : (⟨Cert.ReferenceIdeal.S128x128, .f32⟩ : BufTy).Contents (Elt Ideal)) (x5 : (⟨Cert.ReferenceIdeal.S128, .f32⟩ : BufTy).Contents (Elt Ideal)) (x6 x7 : (⟨Cert.ReferenceIdeal.S3x128x128, .f32⟩ : BufTy).Contents (Elt Ideal)) (x8 : (⟨Cert.ReferenceIdeal.S3x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x10, .f32⟩ : BufTy).Contents (Elt Ideal)) (x12 : (⟨Cert.ReferenceIdeal.S10, .f32⟩ : BufTy).Contents (Elt Ideal)) :
    Cert.ReferenceIdeal.Read.val_main_v152 (F := Ideal) x0 x1 x2 x3 x4 x5 x6 x7 x8 x9 x10 x11 x12
      = headOf (Cert.ReferenceIdeal.Read.val_main_v142 (F := Ideal) x0 x1 x2 x3 x4 x5 x6 x7 x8) x9 x10 x11 x12 :=
  (Cert.ReferenceIdeal.Head.val152_unfold x0 x1 x2 x3 x4 x5 x6 x7 x8 x9 x10 x11 x12).trans
    (Cert.ReferenceIdeal.Head.rtail_eq _ x9 x10 x11 x12)

end Cert.KernelIdeal.Head

end
-- ==== Proof.TermBridge.lean ====
/-
  The idealized kernel's host operations are the reference's, term by term.

  Between its launches the kernel program computes on the host exactly what the reference computes: the two slices of the
  edge-index array, the index columns (the source wrapped when negative, the destination as given), the degree, its
  inverse square root under the guard, the slices of the stacked weights, and the mean pool of the last activations.
  Each closed term the kernel's boundary chain states is the reference's stage of the same name, by unfolding: the same
  operations applied to the same arguments.
-/
import proofs.«153091_j996432413504_2_alg».proof.Proof.Gen.KernelIdeal
import proofs.«153091_j996432413504_2_alg».proof.Proof.RefReadP

set_option maxRecDepth 16384

noncomputable section

namespace Cert.KernelIdeal.Bridge

open Cert.KernelIdeal Cert.KernelIdeal.Gen
open Idealize.ShloMosaic Idealize.ShloMosaic.TcCoe

variable {F : FTy → Type} [FloatOps F]
variable (x0 : (⟨S50000x128, .f32⟩ : BufTy).Contents (Elt F)) (x1 : (⟨S2x600000, .i32⟩ : BufTy).Contents (Elt F))
  (x2 : (⟨S50000, .i32⟩ : BufTy).Contents (Elt F)) (x3 x4 : (⟨S128x128, .f32⟩ : BufTy).Contents (Elt F))
  (x5 : (⟨S128, .f32⟩ : BufTy).Contents (Elt F)) (x6 x7 : (⟨S3x128x128, .f32⟩ : BufTy).Contents (Elt F))
  (x8 : (⟨S3x128, .f32⟩ : BufTy).Contents (Elt F))

set_option maxHeartbeats 4000000 in
theorem src_eq :
    ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000)))
    = Cert.ReferenceIdeal.Read.val_main_v39 (F := F) x1 := rfl

set_option maxHeartbeats 4000000 in
theorem src_eq2 :
    ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000)))
    = Cert.ReferenceIdeal.Read.val_main_v39 (F := F) x1 := rfl

set_option maxHeartbeats 4000000 in
theorem src_eq3 :
    ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000)))
    = Cert.ReferenceIdeal.Read.val_main_v39 (F := F) x1 := rfl

set_option maxHeartbeats 4000000 in
theorem src_eq4 :
    ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 0#32))) ((addi : (⟨S600000, .i32⟩ : BufTy).Contents (Elt F) → (⟨S600000, .i32⟩ : BufTy).Contents (Elt F) → (⟨S600000, .i32⟩ : BufTy).Contents (Elt F)) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000) ((broadcastInDim S600000 ![] bcast_S_S600000 : (⟨S_, .i32⟩ : BufTy).Contents (Elt F) → (⟨S600000, .i32⟩ : BufTy).Contents (Elt F)) (constantI S_ 32 50000#32))) (shapeCast _ (((extractStridedSlice S1x600000 ![0, 0] · slices_S2x600000_S1x600000_0_0) : (⟨S2x600000, .i32⟩ : BufTy).Contents (Elt F) → (⟨S1x600000, .i32⟩ : BufTy).Contents (Elt F)) x1) shapeCasts_S1x600000_S600000)))
    = Cert.ReferenceIdeal.Read.val_main_v39 (F := F) x1 := rfl

set_option maxHeartbeats 4000000 in
theorem dst_eq :
    ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) x1) shapeCasts_S1x600000_S600000))
    = Cert.ReferenceIdeal.Read.val_main_v45 (F := F) x1 := rfl

set_option maxHeartbeats 4000000 in
theorem dinv_eq :
    (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) x1) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S600000x1 ![0] bcast_S600000_S600000x1_0 : (⟨S600000, .i32⟩ : BufTy).Contents (Elt F) → (⟨S600000x1, .i32⟩ : BufTy).Contents (Elt F)) (shapeCast _ (((extractStridedSlice S1x600000 ![1, 0] · slices_S2x600000_S1x600000_1_0) : (⟨S2x600000, .i32⟩ : BufTy).Contents (Elt F) → (⟨S1x600000, .i32⟩ : BufTy).Contents (Elt F)) x1) shapeCasts_S1x600000_S600000)) ((broadcastInDim S600000 ![] bcast_S_S600000 : (⟨S_, .f32⟩ : BufTy).Contents (Elt F) → (⟨S600000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32)))) ((broadcastInDim S50000 ![] bcast_S_S50000) (id (constant S_ .f32 0x00000000#32))))
    = Cert.ReferenceIdeal.Read.val_main_v17 (F := F) x1 := rfl

set_option maxHeartbeats 4000000 in
theorem w1_eq :
    (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) x6) shapeCasts_S1x128x128_S128x128)
    = Cert.ReferenceIdeal.Read.val_main_v54 (F := F) x6 := rfl

set_option maxHeartbeats 4000000 in
theorem r1_eq :
    (shapeCast _ (((extractStridedSlice S1x128x128 ![0, 0, 0] · slices_S3x128x128_S1x128x128_0_0_0) : (⟨S3x128x128, .f32⟩ : BufTy).Contents (Elt F) → (⟨S1x128x128, .f32⟩ : BufTy).Contents (Elt F)) x7) shapeCasts_S1x128x128_S128x128)
    = Cert.ReferenceIdeal.Read.val_main_v56 (F := F) x7 := rfl

set_option maxHeartbeats 4000000 in
theorem b1_eq :
    (shapeCast _ (((extractStridedSlice S1x128 ![0, 0] · slices_S3x128_S1x128_0_0) : (⟨S3x128, .f32⟩ : BufTy).Contents (Elt F) → (⟨S1x128, .f32⟩ : BufTy).Contents (Elt F)) x8) shapeCasts_S1x128_S128)
    = Cert.ReferenceIdeal.Read.val_main_v58 (F := F) x8 := rfl

set_option maxHeartbeats 4000000 in
theorem w2_eq :
    (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) x6) shapeCasts_S1x128x128_S128x128)
    = Cert.ReferenceIdeal.Read.val_main_v80 (F := F) x6 := rfl

set_option maxHeartbeats 4000000 in
theorem r2_eq :
    (shapeCast _ (((extractStridedSlice S1x128x128 ![1, 0, 0] · slices_S3x128x128_S1x128x128_1_0_0) : (⟨S3x128x128, .f32⟩ : BufTy).Contents (Elt F) → (⟨S1x128x128, .f32⟩ : BufTy).Contents (Elt F)) x7) shapeCasts_S1x128x128_S128x128)
    = Cert.ReferenceIdeal.Read.val_main_v82 (F := F) x7 := rfl

set_option maxHeartbeats 4000000 in
theorem b2_eq :
    (shapeCast _ (((extractStridedSlice S1x128 ![1, 0] · slices_S3x128_S1x128_1_0) : (⟨S3x128, .f32⟩ : BufTy).Contents (Elt F) → (⟨S1x128, .f32⟩ : BufTy).Contents (Elt F)) x8) shapeCasts_S1x128_S128)
    = Cert.ReferenceIdeal.Read.val_main_v84 (F := F) x8 := rfl

set_option maxHeartbeats 4000000 in
theorem w3_eq :
    (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) x6) shapeCasts_S1x128x128_S128x128)
    = Cert.ReferenceIdeal.Read.val_main_v106 (F := F) x6 := rfl

set_option maxHeartbeats 4000000 in
theorem r3_eq :
    (shapeCast _ (((extractStridedSlice S1x128x128 ![2, 0, 0] · slices_S3x128x128_S1x128x128_2_0_0) : (⟨S3x128x128, .f32⟩ : BufTy).Contents (Elt F) → (⟨S1x128x128, .f32⟩ : BufTy).Contents (Elt F)) x7) shapeCasts_S1x128x128_S128x128)
    = Cert.ReferenceIdeal.Read.val_main_v108 (F := F) x7 := rfl

set_option maxHeartbeats 4000000 in
theorem b3_eq :
    (shapeCast _ (((extractStridedSlice S1x128 ![2, 0] · slices_S3x128_S1x128_2_0) : (⟨S3x128, .f32⟩ : BufTy).Contents (Elt F) → (⟨S1x128, .f32⟩ : BufTy).Contents (Elt F)) x8) shapeCasts_S1x128_S128)
    = Cert.ReferenceIdeal.Read.val_main_v110 (F := F) x8 := rfl

set_option maxHeartbeats 4000000 in
theorem pool_eq :
    ((Host.divf : (⟨S128x128, .f32⟩ : BufTy).Contents (Elt F) → (⟨S128x128, .f32⟩ : BufTy).Contents (Elt F) → (⟨S128x128, .f32⟩ : BufTy).Contents (Elt F)) (((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) ((broadcastInDim S128x128 ![] bcast_S_S128x128 : (⟨S_, .f32⟩ : BufTy).Contents (Elt F) → (⟨S128x128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) x2) (Cert.ReferenceIdeal.Read.val_main_v130 (F := F) x0 x1 x3 x4 x5 x6 x7 x8)) ((broadcastInDim S128x128 ![0, 1] bcast_S128x1_S128x128_0_1 : (⟨S128x1, .f32⟩ : BufTy).Contents (Elt F) → (⟨S128x128, .f32⟩ : BufTy).Contents (Elt F)) ((broadcastInDim S128x1 ![0] bcast_S128_S128x1_0 : (⟨S128, .f32⟩ : BufTy).Contents (Elt F) → (⟨S128x1, .f32⟩ : BufTy).Contents (Elt F)) ((maximumf : (⟨S128, .f32⟩ : BufTy).Contents (Elt F) → (⟨S128, .f32⟩ : BufTy).Contents (Elt F) → (⟨S128, .f32⟩ : BufTy).Contents (Elt F)) (((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) x2) ((broadcastInDim S50000 ![] bcast_S_S50000 : (⟨S_, .f32⟩ : BufTy).Contents (Elt F) → (⟨S50000, .f32⟩ : BufTy).Contents (Elt F)) (constant S_ .f32 0x3F800000#32))) ((broadcastInDim S128 ![] bcast_S_S128 : (⟨S_, .f32⟩ : BufTy).Contents (Elt F) → (⟨S128, .f32⟩ : BufTy).Contents (Elt F)) (constant S_ .f32 0x3F800000#32))))))
    = Cert.ReferenceIdeal.Read.val_main_v142 (F := F) x0 x1 x2 x3 x4 x5 x6 x7 x8 := rfl

end Cert.KernelIdeal.Bridge

end
-- ==== Proof.ColumnRead.lean ====
/-
  A vector of 50000 entries viewed as a column [50000, 1]: the reshape keeps the row-major position, and row n of the
  column sits at position n·1 + 0 = n, so the column's entry of row n is the vector's entry n.
-/
import proofs.«153091_j996432413504_2_alg».proof.Proof.Gen.KernelIdeal
import Idealize.ShloMosaic.Lib.Pipeline.Value
import Idealize.ShloMosaic.Lib.ValueIdx

noncomputable section

open Idealize.ShloMosaic
open Idealize.ShloMosaic.ValueIdx

namespace Cert.KernelIdeal.Col

open Cert.KernelIdeal Cert.KernelIdeal.Gen

/-- The [50000] → [50000, 1] reshape read at row n is the operand at n (for any element type, and whatever proof of
    the two shapes' equal sizes the reshape carries). -/
theorem col_read {α : Type} (v : S50000.Idx → α) (h : S50000.ShapeCasts S50000x1) (n : Fin 50000) :
    shapeCast S50000x1 v h (ix2 n (0 : Fin 1)) = v (ix1 n) := by
  refine shapeCast_apply v h (ix2 n (0 : Fin 1)) (ix1 n) ?_
  rw [Shape.rowMajor_val_one, Shape.rowMajor_val_two]
  show n.val = n.val * 1 + 0
  omega

/-- The same at the reshape's stated side condition. -/
theorem col_read' {α : Type} (v : S50000.Idx → α) (n : Fin 50000) :
    shapeCast S50000x1 v Gen.shapeCasts_S50000_S50000x1 (ix2 n (0 : Fin 1)) = v (ix1 n) :=
  col_read v _ n

end Cert.KernelIdeal.Col

end
-- ==== Proof.KernelValue.lean ====
/-
  The idealized kernel's two results are the reference's two stages of the same arguments.

  The last layer's activations: the kernel's four layers in closed form (each: node-side scaling, segment sum of the
  gathered rows, rectified sum with the skip term) are the reference's four layers by the layer law, once the kernel's
  host terms — the scale column, the two index columns, the weight slices — are read as the reference's stages: the scale
  column is the scale vector reshaped to one column, read row by row; everything else is the same term.
  The log-probabilities: the head applied to the mean pool of those activations, on both sides.
-/
import proofs.«153091_j996432413504_2_alg».proof.Proof.KernelLayers
import proofs.«153091_j996432413504_2_alg».proof.Proof.RefBridge
import proofs.«153091_j996432413504_2_alg».proof.Proof.EdgeCoef
import proofs.«153091_j996432413504_2_alg».proof.Proof.HeadValue
import proofs.«153091_j996432413504_2_alg».proof.Proof.TermBridge
import proofs.«153091_j996432413504_2_alg».proof.Proof.ColumnRead

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The kernel's scale column is the reference's scale vector, one entry per row. -/
theorem kD_eq : Layers4.kD m c = Cert.ReferenceIdeal.Layers.Dcol (m ((c : Thread nD τ).loc main_arg1)) := by
  funext i
  have hi : i = ix2 (n0 := 50000) (n1 := 1) (i 0) (0 : Fin 1) := by
    funext a
    match a with
    | ⟨0, _⟩ => rfl
    | ⟨1, _⟩ => exact Fin.ext (by have h : (i 1).val < 1 := (i 1).isLt; show (i 1).val = 0; omega)
  rw [hi]
  exact (Cert.KernelIdeal.Col.col_read _ _ (i 0)).trans (congrFun (Bridge.dinv_eq (F := Ideal) (m ((c : Thread nD τ).loc main_arg1))) _)

theorem kSrc_eq : Layers4.kSrc m c = Cert.ReferenceIdeal.Read.val_main_v39 (F := Ideal) (m ((c : Thread nD τ).loc main_arg1)) :=
  Bridge.src_eq (F := Ideal) _
theorem kDst_eq : Layers4.kDst m c = Cert.ReferenceIdeal.Read.val_main_v45 (F := Ideal) (m ((c : Thread nD τ).loc main_arg1)) :=
  Bridge.dst_eq (F := Ideal) _
theorem kW1_eq : Layers4.kW1 m c = Cert.ReferenceIdeal.Read.val_main_v54 (F := Ideal) (m ((c : Thread nD τ).loc main_arg6)) := Bridge.w1_eq (F := Ideal) _
theorem kR1_eq : Layers4.kR1 m c = Cert.ReferenceIdeal.Read.val_main_v56 (F := Ideal) (m ((c : Thread nD τ).loc main_arg7)) := Bridge.r1_eq (F := Ideal) _
theorem kb1_eq : Layers4.kb1 m c = Cert.ReferenceIdeal.Read.val_main_v58 (F := Ideal) (m ((c : Thread nD τ).loc main_arg8)) := Bridge.b1_eq (F := Ideal) _
theorem kW2_eq : Layers4.kW2 m c = Cert.ReferenceIdeal.Read.val_main_v80 (F := Ideal) (m ((c : Thread nD τ).loc main_arg6)) := Bridge.w2_eq (F := Ideal) _
theorem kR2_eq : Layers4.kR2 m c = Cert.ReferenceIdeal.Read.val_main_v82 (F := Ideal) (m ((c : Thread nD τ).loc main_arg7)) := Bridge.r2_eq (F := Ideal) _
theorem kb2_eq : Layers4.kb2 m c = Cert.ReferenceIdeal.Read.val_main_v84 (F := Ideal) (m ((c : Thread nD τ).loc main_arg8)) := Bridge.b2_eq (F := Ideal) _
theorem kW3_eq : Layers4.kW3 m c = Cert.ReferenceIdeal.Read.val_main_v106 (F := Ideal) (m ((c : Thread nD τ).loc main_arg6)) := Bridge.w3_eq (F := Ideal) _
theorem kR3_eq : Layers4.kR3 m c = Cert.ReferenceIdeal.Read.val_main_v108 (F := Ideal) (m ((c : Thread nD τ).loc main_arg7)) := Bridge.r3_eq (F := Ideal) _
theorem kb3_eq : Layers4.kb3 m c = Cert.ReferenceIdeal.Read.val_main_v110 (F := Ideal) (m ((c : Thread nD τ).loc main_arg8)) := Bridge.b3_eq (F := Ideal) _

/-- The kernel's four layers are the reference's activations after its fourth layer. -/
theorem X4_eq : Layers4.X4 m c = Cert.ReferenceIdeal.Read.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := Cert.ReferenceIdeal.Layers.four_layers (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Cert.ReferenceIdeal.Edge.coef_eq (m ((c : Thread nD τ).loc main_arg1)))
  simp only [Cert.ReferenceIdeal.Layers.kLayer] at h
  simp only [Layers4.X4, Layers4.H3, Layers4.R3, Layers4.X3, Layers4.H2, Layers4.R2, Layers4.X2, Layers4.H1, Layers4.R1,
    Layers4.X1, Layers4.H0, Layers4.R0, Layers4.X0, kD_eq, kSrc_eq, kDst_eq, kW1_eq, kR1_eq, kb1_eq, kW2_eq, kR2_eq, kb2_eq,
    kW3_eq, kR3_eq, kb3_eq]
  exact h

/-- The second result: the last layer's activations. -/
theorem v77_eq : W14 m ρ c (Proc.devRef .tc main_v77) = Cert.ReferenceIdeal.Read.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Layers4.last m ρ c).trans (X4_eq m c)

/-- The mean pool the head reads is the reference's pooled array. -/
theorem pooled_eq : V13 m ρ c (Pipeline.arrRef spec5 0) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Chain.entry5_0 m ρ c, Layers4.out4_3 m ρ c, X4_eq m c]
  exact Bridge.pool_eq (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The first result: the log-probabilities. -/
theorem v90_eq : W14 m ρ c (Proc.devRef .tc main_v90) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Chain.at14_main_v90 m ρ c, Cert.KernelIdeal.Head.final5 (V13 m ρ) c, pooled_eq m ρ c, Chain.entry5_1 m ρ c,
    Chain.entry5_2 m ρ c, Chain.entry5_3 m ρ c, Chain.entry5_4 m ρ c]
  exact (Cert.KernelIdeal.Head.ref_tail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.KV

end
-- ==== Proof.lean ====
/-
  A four-layer graph convolution network with skip connections, a mean pool over graphs and a two-layer head with a
  log-softmax: the Pallas implementation against the jnp reference, as functions on the extended reals.

  Every layer is  relu(agg + x·R + b)  with  agg[d] = Σ over the edges e into d of  dinv[src e]·dinv[d] · (x·W)[src e].
  The reference builds the per-edge coefficient and scales each gathered row by it. The kernel program scales the rows
  of x·W by dinv at the source node inside its dense-transform kernels, sums the gathered rows per destination on the
  host, and scales the sum by dinv at the destination inside the next kernel, fused with the rectifier. The two agree on
  the extended reals because dinv is a nonnegative REAL (zero, or the inverse square root of a degree at least one), and
  a nonnegative real factor distributes over a sum whatever its summands: no finiteness of the features or the weights
  enters, so the precondition is not used by the value claim. Everything else is the same operations in the same order
  on both sides: the matrix products as sums over the contracted axis, the gathers and segment sums through the same
  index columns, the mean pool, and the head, whose row maximum, exponentials, row sum and logarithm are the same
  functions of the same logits.

  The kernel program's run with its two results named is Proof/KernelRun.lean; what each launch reads and writes,
  Proof/KernelChain.lean and Proof/DenseValue0–4.lean, Proof/HeadValue.lean; the law, Proof/ScaleLaw.lean and
  Proof/LayerLaw.lean; the index facts about the gathers and the segment sum, Proof/IndexFacts.lean and
  Proof/EdgeCoef.lean; the reference's layers, Proof/RefLayer.lean, Proof/RefLayers.lean, Proof/RefBridge.lean; the two
  results as the reference's stages, Proof/KernelValue.lean.
-/
import proofs.«153091_j996432413504_2_alg».proof.Defs
import proofs.«153091_j996432413504_2_alg».proof.Proof.Gen.Kernel
import proofs.«153091_j996432413504_2_alg».proof.Proof.Gen.Kernel.Frame
import proofs.«153091_j996432413504_2_alg».proof.Proof.Gen.KernelIdeal
import proofs.«153091_j996432413504_2_alg».proof.Proof.Gen.KernelIdeal.Frame
import proofs.«153091_j996432413504_2_alg».proof.Proof.Gen.ReferenceIdeal
import proofs.«153091_j996432413504_2_alg».proof.Proof.Gen.Pre_finite_inputs
import proofs.«153091_j996432413504_2_alg».proof.Proof.RefRunP
import proofs.«153091_j996432413504_2_alg».proof.Proof.KernelRun
import proofs.«153091_j996432413504_2_alg».proof.Proof.KernelValue
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- Its idealization runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the thirteen arguments both idealized programs end with the reference's two stages of
    those arguments: the log-probabilities and the last layer's activations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.KRun.run (F := Ideal) m ρ)
    exact ⟨(h c).1.trans (Cert.KernelIdeal.KV.v90_eq m ρ c), (h c).2.1.trans (Cert.KernelIdeal.KV.v77_eq m ρ c), (h c).2.2⟩
  · refine (θ_run Cert.ReferenceIdeal.defs _ _).mono (fun r h c => ⟨(h c).1.trans ?_, (h c).2.1.trans ?_, (h c).2.2⟩)
      (Cert.ReferenceIdeal.Value.run (F := Ideal) m' ρ')
    · unfold Cert.ReferenceIdeal.Value.res_main_v152
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    · unfold Cert.ReferenceIdeal.Value.res_main_v130
      rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
